-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x1 : Shape := ⟨2, ![131072, 1]⟩
abbrev S2x262144 : Shape := ⟨2, ![2, 262144]⟩
abbrev S131072 : Shape := ⟨1, ![131072]⟩
abbrev S1x64 : Shape := ⟨2, ![1, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x12 : Shape := ⟨2, ![128, 12]⟩
abbrev S12 : Shape := ⟨1, ![12]⟩
abbrev S_ : Shape := ⟨0, ![]⟩

class Facts : Prop where
  bcast_S_S131072x1 : S_.BroadcastsInDim S131072x1 (![] : Fin 0 → Fin S131072x1.rank)
  reducesTo_S131072x1_S_d0_1 : S131072x1.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128x12 : S_.BroadcastsInDim S128x12 (![] : Fin 0 → Fin S128x12.rank)
  reducesTo_S128x12_S_d0_1 : S128x12.ReducesTo [0, 1] S_
  bcast_S_S12 : S_.BroadcastsInDim S12 (![] : Fin 0 → Fin S12.rank)
  reducesTo_S12_S_d0 : S12.ReducesTo [0] S_

variable [Facts]

def fn_part3 {F : FTy → Type} [FloatOps F] (main_v48 : IVec S_ 1) (main_v49 : FVec F S12 .f32) (main_v50 : FVec F S12 .f32) : IVec S_ 1 :=
  let main_v51 : IVec S12 1 := cmpf .olt main_v49 main_v50
  let main_c_19 : IVec S_ 1 := constantI S_ 1 1#1
  let main_v52 : IVec S_ 1 := (fun x v => Host.reduce IntOp.andi x v reducesTo_S12_S_d0 h_S_) main_v51 main_c_19
  let main_v53 : IVec S_ 1 := andi main_v48 main_v52
  main_v53

def fn_part2 {F : FTy → Type} [FloatOps F] (main_arg9 : FVec F S256x128 .f32) (main_arg10 : FVec F S128 .f32) (main_arg11 : FVec F S128x12 .f32) (main_arg12 : FVec F S12 .f32) (main_v33 : IVec S_ 1) : IVec S_ 1 :=
  let main_v34 : FVec F S256x128 .f32 := Host.absf main_arg9
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x12 .f32 := Host.absf main_arg11
  let main_cst_16 : FVec F S_ .f32 := constant S_ .f32 0x7F800000#32
  let main_v45 : FVec F S128x12 .f32 := broadcastInDim S128x12 ![] bcast_S_S128x12 main_cst_16
  let main_v46 : IVec S128x12 1 := cmpf .olt main_v44 main_v45
  let main_c_17 : IVec S_ 1 := constantI S_ 1 1#1
  let main_v47 : IVec S_ 1 := (fun x v => Host.reduce IntOp.andi x v reducesTo_S128x12_S_d0_1 h_S_) main_v46 main_c_17
  let main_v48 : IVec S_ 1 := andi main_v43 main_v47
  let main_v49 : FVec F S12 .f32 := Host.absf main_arg12
  let main_cst_18 : FVec F S_ .f32 := constant S_ .f32 0x7F800000#32
  let main_v50 : FVec F S12 .f32 := broadcastInDim S12 ![] bcast_S_S12 main_cst_18
  fn_part3 (F := F) main_v48 main_v49 main_v50

def fn_part1 {F : FTy → Type} [FloatOps F] (main_arg6 : FVec F S128 .f32) (main_arg7 : FVec F S128x256 .f32) (main_arg8 : FVec F S256 .f32) (main_arg9 : FVec F S256x128 .f32) (main_arg10 : FVec F S128 .f32) (main_arg11 : FVec F S128x12 .f32) (main_arg12 : FVec F S12 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg7
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S131072x1 .f32) (main_arg1 : IVec S2x262144 32) (main_arg2 : IVec S131072 32) (main_arg3 : FVec F S1x64 .f32) (main_arg4 : FVec F S64 .f32) (main_arg5 : FVec F S64x128 .f32) (main_arg6 : FVec F S128 .f32) (main_arg7 : FVec F S128x256 .f32) (main_arg8 : FVec F S256 .f32) (main_arg9 : FVec F S256x128 .f32) (main_arg10 : FVec F S128 .f32) (main_arg11 : FVec F S128x12 .f32) (main_arg12 : FVec F S12 .f32) : IVec S_ 1 :=
  let main_v0 : FVec F S131072x1 .f32 := Host.absf main_arg0
  let main_cst : FVec F S_ .f32 := constant S_ .f32 0x7F800000#32
  let main_v1 : FVec F S131072x1 .f32 := broadcastInDim S131072x1 ![] bcast_S_S131072x1 main_cst
  let main_v2 : IVec S131072x1 1 := cmpf .olt main_v0 main_v1
  let main_c : IVec S_ 1 := constantI S_ 1 1#1
  let main_v3 : IVec S_ 1 := (fun x v => Host.reduce IntOp.andi x v reducesTo_S131072x1_S_d0_1 h_S_) main_v2 main_c
  let main_v4 : FVec F S1x64 .f32 := Host.absf main_arg3
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg5
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg6 main_arg7 main_arg8 main_arg9 main_arg10 main_arg11 main_arg12 main_v13 main_v16
-- ==== Kernel.lean ====
abbrev S131072x1 : Shape := ⟨2, ![131072, 1]⟩
abbrev S2x262144 : Shape := ⟨2, ![2, 262144]⟩
abbrev S131072 : Shape := ⟨1, ![131072]⟩
abbrev S1x64 : Shape := ⟨2, ![1, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x12 : Shape := ⟨2, ![128, 12]⟩
abbrev S12 : Shape := ⟨1, ![12]⟩
abbrev S1x262144 : Shape := ⟨2, ![1, 262144]⟩
abbrev S262144 : Shape := ⟨1, ![262144]⟩
abbrev S_ : Shape := ⟨0, ![]⟩
abbrev S262144x1 : Shape := ⟨2, ![262144, 1]⟩
abbrev S131072x64 : Shape := ⟨2, ![131072, 64]⟩
abbrev S4096x1 : Shape := ⟨2, ![4096, 1]⟩
abbrev S4096x64 : Shape := ⟨2, ![4096, 64]⟩
abbrev S262144x64 : Shape := ⟨2, ![262144, 64]⟩
abbrev S131072x128 : Shape := ⟨2, ![131072, 128]⟩
abbrev S4096x128 : Shape := ⟨2, ![4096, 128]⟩
abbrev S262144x128 : Shape := ⟨2, ![262144, 128]⟩
abbrev S1x128 : Shape := ⟨2, ![1, 128]⟩
abbrev S131072x256 : Shape := ⟨2, ![131072, 256]⟩
abbrev S4096x256 : Shape := ⟨2, ![4096, 256]⟩
abbrev S262144x256 : Shape := ⟨2, ![262144, 256]⟩
abbrev S1x256 : Shape := ⟨2, ![1, 256]⟩
abbrev S4096 : Shape := ⟨1, ![4096]⟩
abbrev S1x12 : Shape := ⟨2, ![1, 12]⟩
abbrev S4096x12 : Shape := ⟨2, ![4096, 12]⟩
abbrev S1024x256 : Shape := ⟨2, ![1024, 256]⟩
abbrev S1024x1 : Shape := ⟨2, ![1024, 1]⟩
abbrev S1024x12 : Shape := ⟨2, ![1024, 12]⟩
abbrev S1024x128 : Shape := ⟨2, ![1024, 128]⟩

abbrev nBuf : Space → Nat
  | .hbm => 121
  | .vmem => 52
  | .smem => 0
  | _ => 0

abbrev bufTy : (tb : Table) → Fin (tcTables nBuf tb) → BufTy
  | .hbm, ⟨0, _⟩ => ⟨S131072x1, .f32⟩
  | .hbm, ⟨1, _⟩ => ⟨S2x262144, .i32⟩
  | .hbm, ⟨2, _⟩ => ⟨S131072, .i32⟩
  | .hbm, ⟨3, _⟩ => ⟨S1x64, .f32⟩
  | .hbm, ⟨4, _⟩ => ⟨S64, .f32⟩
  | .hbm, ⟨5, _⟩ => ⟨S64x128, .f32⟩
  | .hbm, ⟨6, _⟩ => ⟨S128, .f32⟩
  | .hbm, ⟨7, _⟩ => ⟨S128x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S128x12, .f32⟩
  | .hbm, ⟨12, _⟩ => ⟨S12, .f32⟩
  | .hbm, ⟨13, _⟩ => ⟨S1x262144, .i32⟩
  | .hbm, ⟨14, _⟩ => ⟨S262144, .i32⟩
  | .hbm, ⟨15, _⟩ => ⟨S1x262144, .i32⟩
  | .hbm, ⟨16, _⟩ => ⟨S262144, .i32⟩
  | .hbm, ⟨17, _⟩ => ⟨S_, .f32⟩
  | .hbm, ⟨18, _⟩ => ⟨S262144, .f32⟩
  | .hbm, ⟨19, _⟩ => ⟨S_, .f32⟩
  | .hbm, ⟨20, _⟩ => ⟨S131072, .f32⟩
  | .hbm, ⟨21, _⟩ => ⟨S262144x1, .i32⟩
  | .hbm, ⟨22, _⟩ => ⟨S131072, .f32⟩
  | .hbm, ⟨23, _⟩ => ⟨S_, .f32⟩
  | .hbm, ⟨24, _⟩ => ⟨S131072, .f32⟩
  | .hbm, ⟨25, _⟩ => ⟨S131072, .f32⟩
  | .hbm, ⟨26, _⟩ => ⟨S131072, .f32⟩
  | .hbm, ⟨27, _⟩ => ⟨S131072, .f32⟩
  | .hbm, ⟨28, _⟩ => ⟨S_, .i32⟩
  | .hbm, ⟨29, _⟩ => ⟨S262144, .i32⟩
  | .hbm, ⟨30, _⟩ => ⟨S262144, .i1⟩
  | .hbm, ⟨31, _⟩ => ⟨S_, .i32⟩
  | .hbm, ⟨32, _⟩ => ⟨S262144, .i32⟩
  | .hbm, ⟨33, _⟩ => ⟨S262144, .i32⟩
  | .hbm, ⟨34, _⟩ => ⟨S262144, .i32⟩
  | .hbm, ⟨35, _⟩ => ⟨S262144x1, .i32⟩
  | .hbm, ⟨36, _⟩ => ⟨S262144, .f32⟩
  | .hbm, ⟨37, _⟩ => ⟨S_, .i32⟩
  | .hbm, ⟨38, _⟩ => ⟨S262144, .i32⟩
  | .hbm, ⟨39, _⟩ => ⟨S262144, .i1⟩
  | .hbm, ⟨40, _⟩ => ⟨S_, .i32⟩
  | .hbm, ⟨41, _⟩ => ⟨S262144, .i32⟩
  | .hbm, ⟨42, _⟩ => ⟨S262144, .i32⟩
  | .hbm, ⟨43, _⟩ => ⟨S262144, .i32⟩
  | .hbm, ⟨44, _⟩ => ⟨S262144x1, .i32⟩
  | .hbm, ⟨45, _⟩ => ⟨S262144, .f32⟩
  | .hbm, ⟨46, _⟩ => ⟨S262144, .f32⟩
  | .hbm, ⟨47, _⟩ => ⟨S131072x64, .f32⟩
  | .hbm, ⟨48, _⟩ => ⟨S_, .i32⟩
  | .hbm, ⟨49, _⟩ => ⟨S262144, .i32⟩
  | .hbm, ⟨50, _⟩ => ⟨S262144, .i1⟩
  | .hbm, ⟨51, _⟩ => ⟨S_, .i32⟩
  | .hbm, ⟨52, _⟩ => ⟨S262144, .i32⟩
  | .hbm, ⟨53, _⟩ => ⟨S262144, .i32⟩
  | .hbm, ⟨54, _⟩ => ⟨S262144, .i32⟩
  | .hbm, ⟨55, _⟩ => ⟨S262144x1, .i32⟩
  | .hbm, ⟨56, _⟩ => ⟨S262144x64, .f32⟩
  | .hbm, ⟨57, _⟩ => ⟨S262144x1, .f32⟩
  | .hbm, ⟨58, _⟩ => ⟨S262144x64, .f32⟩
  | .hbm, ⟨59, _⟩ => ⟨S262144x64, .f32⟩
  | .hbm, ⟨60, _⟩ => ⟨S_, .f32⟩
  | .hbm, ⟨61, _⟩ => ⟨S131072x64, .f32⟩
  | .hbm, ⟨62, _⟩ => ⟨S262144x1, .i32⟩
  | .hbm, ⟨63, _⟩ => ⟨S131072x64, .f32⟩
  | .hbm, ⟨64, _⟩ => ⟨S1x64, .f32⟩
  | .hbm, ⟨65, _⟩ => ⟨S131072x1, .f32⟩
  | .hbm, ⟨66, _⟩ => ⟨S131072x64, .f32⟩
  | .hbm, ⟨67, _⟩ => ⟨S131072x128, .f32⟩
  | .hbm, ⟨68, _⟩ => ⟨S_, .i32⟩
  | .hbm, ⟨69, _⟩ => ⟨S262144, .i32⟩
  | .hbm, ⟨70, _⟩ => ⟨S262144, .i1⟩
  | .hbm, ⟨71, _⟩ => ⟨S_, .i32⟩
  | .hbm, ⟨72, _⟩ => ⟨S262144, .i32⟩
  | .hbm, ⟨73, _⟩ => ⟨S262144, .i32⟩
  | .hbm, ⟨74, _⟩ => ⟨S262144, .i32⟩
  | .hbm, ⟨75, _⟩ => ⟨S262144x1, .i32⟩
  | .hbm, ⟨76, _⟩ => ⟨S262144x128, .f32⟩
  | .hbm, ⟨77, _⟩ => ⟨S262144x1, .f32⟩
  | .hbm, ⟨78, _⟩ => ⟨S262144x128, .f32⟩
  | .hbm, ⟨79, _⟩ => ⟨S262144x128, .f32⟩
  | .hbm, ⟨80, _⟩ => ⟨S_, .f32⟩
  | .hbm, ⟨81, _⟩ => ⟨S131072x128, .f32⟩
  | .hbm, ⟨82, _⟩ => ⟨S262144x1, .i32⟩
  | .hbm, ⟨83, _⟩ => ⟨S131072x128, .f32⟩
  | .hbm, ⟨84, _⟩ => ⟨S1x128, .f32⟩
  | .hbm, ⟨85, _⟩ => ⟨S131072x1, .f32⟩
  | .hbm, ⟨86, _⟩ => ⟨S131072x128, .f32⟩
  | .hbm, ⟨87, _⟩ => ⟨S131072x256, .f32⟩
  | .hbm, ⟨88, _⟩ => ⟨S_, .i32⟩
  | .hbm, ⟨89, _⟩ => ⟨S262144, .i32⟩
  | .hbm, ⟨90, _⟩ => ⟨S262144, .i1⟩
  | .hbm, ⟨91, _⟩ => ⟨S_, .i32⟩
  | .hbm, ⟨92, _⟩ => ⟨S262144, .i32⟩
  | .hbm, ⟨93, _⟩ => ⟨S262144, .i32⟩
  | .hbm, ⟨94, _⟩ => ⟨S262144, .i32⟩
  | .hbm, ⟨95, _⟩ => ⟨S262144x1, .i32⟩
  | .hbm, ⟨96, _⟩ => ⟨S262144x256, .f32⟩
  | .hbm, ⟨97, _⟩ => ⟨S262144x1, .f32⟩
  | .hbm, ⟨98, _⟩ => ⟨S262144x256, .f32⟩
  | .hbm, ⟨99, _⟩ => ⟨S262144x256, .f32⟩
  | .hbm, ⟨100, _⟩ => ⟨S_, .f32⟩
  | .hbm, ⟨101, _⟩ => ⟨S131072x256, .f32⟩
  | .hbm, ⟨102, _⟩ => ⟨S262144x1, .i32⟩
  | .hbm, ⟨103, _⟩ => ⟨S131072x256, .f32⟩
  | .hbm, ⟨104, _⟩ => ⟨S1x256, .f32⟩
  | .hbm, ⟨105, _⟩ => ⟨S131072x1, .f32⟩
  | .hbm, ⟨106, _⟩ => ⟨S131072x256, .f32⟩
  | .hbm, ⟨107, _⟩ => ⟨S_, .f32⟩
  | .hbm, ⟨108, _⟩ => ⟨S4096x256, .f32⟩
  | .hbm, ⟨109, _⟩ => ⟨S131072x1, .i32⟩
  | .hbm, ⟨110, _⟩ => ⟨S4096x256, .f32⟩
  | .hbm, ⟨111, _⟩ => ⟨S_, .f32⟩
  | .hbm, ⟨112, _⟩ => ⟨S131072, .f32⟩
  | .hbm, ⟨113, _⟩ => ⟨S_, .f32⟩
  | .hbm, ⟨114, _⟩ => ⟨S4096, .f32⟩
  | .hbm, ⟨115, _⟩ => ⟨S131072x1, .i32⟩
  | .hbm, ⟨116, _⟩ => ⟨S4096, .f32⟩
  | .hbm, ⟨117, _⟩ => ⟨S4096x1, .f32⟩
  | .hbm, ⟨118, _⟩ => ⟨S1x128, .f32⟩
  | .hbm, ⟨119, _⟩ => ⟨S1x12, .f32⟩
  | .hbm, ⟨120, _⟩ => ⟨S4096x12, .f32⟩
  | .local _ .vmem, ⟨0, _⟩ => ⟨S4096x1, .f32⟩
  | .local _ .vmem, ⟨1, _⟩ => ⟨S4096x1, .f32⟩
  | .local _ .vmem, ⟨2, _⟩ => ⟨S1x64, .f32⟩
  | .local _ .vmem, ⟨3, _⟩ => ⟨S4096x64, .f32⟩
  | .local _ .vmem, ⟨4, _⟩ => ⟨S4096x64, .f32⟩
  | .local _ .vmem, ⟨5, _⟩ => ⟨S4096x64, .f32⟩
  | .local _ .vmem, ⟨6, _⟩ => ⟨S4096x64, .f32⟩
  | .local _ .vmem, ⟨7, _⟩ => ⟨S4096x64, .f32⟩
  | .local _ .vmem, ⟨8, _⟩ => ⟨S4096x64, .f32⟩
  | .local _ .vmem, ⟨9, _⟩ => ⟨S4096x1, .f32⟩
  | .local _ .vmem, ⟨10, _⟩ => ⟨S4096x1, .f32⟩
  | .local _ .vmem, ⟨11, _⟩ => ⟨S1x64, .f32⟩
  | .local _ .vmem, ⟨12, _⟩ => ⟨S4096x64, .f32⟩
  | .local _ .vmem, ⟨13, _⟩ => ⟨S4096x64, .f32⟩
  | .local _ .vmem, ⟨14, _⟩ => ⟨S4096x64, .f32⟩
  | .local _ .vmem, ⟨15, _⟩ => ⟨S4096x64, .f32⟩
  | .local _ .vmem, ⟨16, _⟩ => ⟨S64x128, .f32⟩
  | .local _ .vmem, ⟨17, _⟩ => ⟨S4096x128, .f32⟩
  | .local _ .vmem, ⟨18, _⟩ => ⟨S4096x128, .f32⟩
  | .local _ .vmem, ⟨19, _⟩ => ⟨S4096x128, .f32⟩
  | .local _ .vmem, ⟨20, _⟩ => ⟨S4096x128, .f32⟩
  | .local _ .vmem, ⟨21, _⟩ => ⟨S4096x128, .f32⟩
  | .local _ .vmem, ⟨22, _⟩ => ⟨S4096x128, .f32⟩
  | .local _ .vmem, ⟨23, _⟩ => ⟨S4096x1, .f32⟩
  | .local _ .vmem, ⟨24, _⟩ => ⟨S4096x1, .f32⟩
  | .local _ .vmem, ⟨25, _⟩ => ⟨S1x128, .f32⟩
  | .local _ .vmem, ⟨26, _⟩ => ⟨S4096x128, .f32⟩
  | .local _ .vmem, ⟨27, _⟩ => ⟨S4096x128, .f32⟩
  | .local _ .vmem, ⟨28, _⟩ => ⟨S4096x128, .f32⟩
  | .local _ .vmem, ⟨29, _⟩ => ⟨S4096x128, .f32⟩
  | .local _ .vmem, ⟨30, _⟩ => ⟨S128x256, .f32⟩
  | .local _ .vmem, ⟨31, _⟩ => ⟨S4096x256, .f32⟩
  | .local _ .vmem, ⟨32, _⟩ => ⟨S4096x256, .f32⟩
  | .local _ .vmem, ⟨33, _⟩ => ⟨S4096x256, .f32⟩
  | .local _ .vmem, ⟨34, _⟩ => ⟨S4096x256, .f32⟩
  | .local _ .vmem, ⟨35, _⟩ => ⟨S4096x256, .f32⟩
  | .local _ .vmem, ⟨36, _⟩ => ⟨S4096x256, .f32⟩
  | .local _ .vmem, ⟨37, _⟩ => ⟨S4096x1, .f32⟩
  | .local _ .vmem, ⟨38, _⟩ => ⟨S4096x1, .f32⟩
  | .local _ .vmem, ⟨39, _⟩ => ⟨S1x256, .f32⟩
  | .local _ .vmem, ⟨40, _⟩ => ⟨S4096x256, .f32⟩
  | .local _ .vmem, ⟨41, _⟩ => ⟨S4096x256, .f32⟩
  | .local _ .vmem, ⟨42, _⟩ => ⟨S1024x256, .f32⟩
  | .local _ .vmem, ⟨43, _⟩ => ⟨S1024x256, .f32⟩
  | .local _ .vmem, ⟨44, _⟩ => ⟨S1024x1, .f32⟩
  | .local _ .vmem, ⟨45, _⟩ => ⟨S1024x1, .f32⟩
  | .local _ .vmem, ⟨46, _⟩ => ⟨S256x128, .f32⟩
  | .local _ .vmem, ⟨47, _⟩ => ⟨S1x128, .f32⟩
  | .local _ .vmem, ⟨48, _⟩ => ⟨S128x12, .f32⟩
  | .local _ .vmem, ⟨49, _⟩ => ⟨S1x12, .f32⟩
  | .local _ .vmem, ⟨50, _⟩ => ⟨S1024x12, .f32⟩
  | .local _ .vmem, ⟨51, _⟩ => ⟨S1024x12, .f32⟩
  | _, _ => ⟨S131072x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_c_6 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_8 : Ref sig .tc := ⟨.hbm, 68, rfl⟩
abbrev main_v45 : Ref sig .tc := ⟨.hbm, 69, rfl⟩
abbrev main_v46 : Ref sig .tc := ⟨.hbm, 70, rfl⟩
abbrev main_c_9 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_10 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c_11 : Ref sig .tc := ⟨.hbm, 88, rfl⟩
abbrev main_v62 : Ref sig .tc := ⟨.hbm, 89, rfl⟩
abbrev main_v63 : Ref sig .tc := ⟨.hbm, 90, rfl⟩
abbrev main_c_12 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_13 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_14 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_15 : Ref sig .tc := ⟨.hbm, 111, rfl⟩
abbrev main_v81 : Ref sig .tc := ⟨.hbm, 112, rfl⟩
abbrev main_cst_16 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg3_0 : Ref sig .tc := ⟨.vmem, 47, rfl⟩
abbrev cc6_stg4_0 : Ref sig .tc := ⟨.vmem, 48, rfl⟩
abbrev cc6_stg5_0 : Ref sig .tc := ⟨.vmem, 49, rfl⟩
abbrev cc6_stg6_0 : Ref sig .tc := ⟨.vmem, 50, rfl⟩
abbrev cc6_stg6_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem3_0 : DmaSem sig := 47
abbrev cc6_sem4_0 : DmaSem sig := 48
abbrev cc6_sem5_0 : DmaSem sig := 49
abbrev cc6_sem6_0 : DmaSem sig := 50
abbrev cc6_sem6_1 : DmaSem sig := 51

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4096x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4096x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4096x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4096x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S4096x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4096x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S4096x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![32], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4096x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4096x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4096x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S4096x256 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![4], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1024x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1024x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S256x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x12 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x12 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S1024x12 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S_S131072 : S_.BroadcastsInDim S131072 (![] : Fin 0 → Fin S131072.rank)
  bcast_S262144_S262144x1_0 : S262144.BroadcastsInDim S262144x1 (![0] : Fin 1 → Fin S262144x1.rank)
  inb_S4096x1_S4096x1_0_0 : ∀ a, (![0, 0] : Fin 2 → Nat) a + S4096x1.size a ≤ S4096x1.size a
  h_S4096x1 : 0 < S4096x1.numel
  inb_S1x64_S1x64_0_0 : ∀ a, (![0, 0] : Fin 2 → Nat) a + S1x64.size a ≤ S1x64.size a
  h_S1x64 : 0 < S1x64.numel
  inb_S4096x64_S4096x64_0_0 : ∀ a, (![0, 0] : Fin 2 → Nat) a + S4096x64.size a ≤ S4096x64.size a
  h_S4096x64 : 0 < S4096x64.numel
  bcast_S262144x1_S262144x64_0_1 : S262144x1.BroadcastsInDim S262144x64 (![0, 1] : Fin 2 → Fin S262144x64.rank)
  bcast_S_S131072x64 : S_.BroadcastsInDim S131072x64 (![] : Fin 0 → Fin S131072x64.rank)
  shapeCasts_S64_S1x64 : S64.ShapeCasts S1x64
  shapeCasts_S131072_S131072x1 : S131072.ShapeCasts S131072x1
  shapeCasts_S4096x64_S4096x64 : S4096x64.ShapeCasts S4096x64
  shapeCasts_S4096x1_S4096x1 : S4096x1.ShapeCasts S4096x1
  broadcasts_S4096x1_S4096x64 : S4096x1.Broadcasts S4096x64
  shapeCasts_S1x64_S1x64 : S1x64.ShapeCasts S1x64
  broadcasts_S1x64_S4096x64 : S1x64.Broadcasts S4096x64
  inb_S64x128_S64x128_0_0 : ∀ a, (![0, 0] : Fin 2 → Nat) a + S64x128.size a ≤ S64x128.size a
  h_S64x128 : 0 < S64x128.numel
  inb_S4096x128_S4096x128_0_0 : ∀ a, (![0, 0] : Fin 2 → Nat) a + S4096x128.size a ≤ S4096x128.size a
  h_S4096x128 : 0 < S4096x128.numel
  bcast_S262144x1_S262144x128_0_1 : S262144x1.BroadcastsInDim S262144x128 (![0, 1] : Fin 2 → Fin S262144x128.rank)
  bcast_S_S131072x128 : S_.BroadcastsInDim S131072x128 (![] : Fin 0 → Fin S131072x128.rank)
  shapeCasts_S128_S1x128 : S128.ShapeCasts S1x128
  shapeCasts_S4096x128_S4096x128 : S4096x128.ShapeCasts S4096x128
  broadcasts_S4096x1_S4096x128 : S4096x1.Broadcasts S4096x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S128x256_S128x256_0_0 : ∀ a, (![0, 0] : Fin 2 → Nat) a + S128x256.size a ≤ S128x256.size a
  h_S128x256 : 0 < S128x256.numel
  inb_S4096x256_S4096x256_0_0 : ∀ a, (![0, 0] : Fin 2 → Nat) a + S4096x256.size a ≤ S4096x256.size a
  h_S4096x256 : 0 < S4096x256.numel
  bcast_S262144x1_S262144x256_0_1 : S262144x1.BroadcastsInDim S262144x256 (![0, 1] : Fin 2 → Fin S262144x256.rank)
  bcast_S_S131072x256 : S_.BroadcastsInDim S131072x256 (![] : Fin 0 → Fin S131072x256.rank)
  shapeCasts_S256_S1x256 : S256.ShapeCasts S1x256
  shapeCasts_S4096x256_S4096x256 : S4096x256.ShapeCasts S4096x256
  broadcasts_S4096x1_S4096x256 : S4096x1.Broadcasts S4096x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  bcast_S_S4096x256 : S_.BroadcastsInDim S4096x256 (![] : Fin 0 → Fin S4096x256.rank)
  bcast_S131072_S131072x1_0 : S131072.BroadcastsInDim S131072x1 (![0] : Fin 1 → Fin S131072x1.rank)
  bcast_S_S4096 : S_.BroadcastsInDim S4096 (![] : Fin 0 → Fin S4096.rank)
  shapeCasts_S4096_S4096x1 : S4096.ShapeCasts S4096x1
  shapeCasts_S12_S1x12 : S12.ShapeCasts S1x12
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  broadcasts_S1024x1_S1024x256 : S1024x1.Broadcasts S1024x256
  inb_S256x128_S256x128_0_0 : ∀ a, (![0, 0] : Fin 2 → Nat) a + S256x128.size a ≤ S256x128.size a
  h_S256x128 : 0 < S256x128.numel
  broadcasts_S1x128_S1024x128 : S1x128.Broadcasts S1024x128
  inb_S128x12_S128x12_0_0 : ∀ a, (![0, 0] : Fin 2 → Nat) a + S128x12.size a ≤ S128x12.size a
  h_S128x12 : 0 < S128x12.numel
  inb_S1x12_S1x12_0_0 : ∀ a, (![0, 0] : Fin 2 → Nat) a + S1x12.size a ≤ S1x12.size a
  h_S1x12 : 0 < S1x12.numel
  shapeCasts_S1x12_S1x12 : S1x12.ShapeCasts S1x12
  broadcasts_S1x12_S1024x12 : S1x12.Broadcasts S1024x12
  inb_S1024x12_S1024x12_0_0 : ∀ a, (![0, 0] : Fin 2 → Nat) a + S1024x12.size a ≤ S1024x12.size a
  h_S1024x12 : 0 < S1024x12.numel
  scatter_S131072_S262144x1_S262144_n_0_0_1_wf : ScatterDims.WF S131072 S262144x1 S262144 [] [0] [0] 1
  gather_S131072_S262144x1_S262144_n_0_n_n_0_1_1_wf : GatherDims.WF S131072 S262144x1 S262144 [] [0] [] [0] [] 1 ![1]
  dot_S4096x1_S1x64_S4096x64_1_0_0_1_n_n_wf : DotDims.WF S4096x1 S1x64 S4096x64 [1] [0] [0] [1] [] []
  gather_S131072x64_S262144x1_S262144x64_1_0_n_n_0_1_164_wf : GatherDims.WF S131072x64 S262144x1 S262144x64 [1] [0] [] [0] [] 1 ![1, 64]
  scatter_S131072x64_S262144x1_S262144x64_1_0_0_1_wf : ScatterDims.WF S131072x64 S262144x1 S262144x64 [1] [0] [0] 1
  dot_S4096x64_S64x128_S4096x128_1_0_0_1_n_n_wf : DotDims.WF S4096x64 S64x128 S4096x128 [1] [0] [0] [1] [] []
  gather_S131072x128_S262144x1_S262144x128_1_0_n_n_0_1_1128_wf : GatherDims.WF S131072x128 S262144x1 S262144x128 [1] [0] [] [0] [] 1 ![1, 128]
  scatter_S131072x128_S262144x1_S262144x128_1_0_0_1_wf : ScatterDims.WF S131072x128 S262144x1 S262144x128 [1] [0] [0] 1
  dot_S4096x128_S128x256_S4096x256_1_0_0_1_n_n_wf : DotDims.WF S4096x128 S128x256 S4096x256 [1] [0] [0] [1] [] []
  gather_S131072x256_S262144x1_S262144x256_1_0_n_n_0_1_1256_wf : GatherDims.WF S131072x256 S262144x1 S262144x256 [1] [0] [] [0] [] 1 ![1, 256]
  scatter_S131072x256_S262144x1_S262144x256_1_0_0_1_wf : ScatterDims.WF S131072x256 S262144x1 S262144x256 [1] [0] [0] 1
  scatter_S4096x256_S131072x1_S131072x256_1_0_0_1_wf : ScatterDims.WF S4096x256 S131072x1 S131072x256 [1] [0] [0] 1
  scatter_S4096_S131072x1_S131072_n_0_0_1_wf : ScatterDims.WF S4096 S131072x1 S131072 [] [0] [0] 1
  dot_S1024x256_S256x128_S1024x128_1_0_0_1_n_n_wf : DotDims.WF S1024x256 S256x128 S1024x128 [1] [0] [0] [1] [] []
  dot_S1024x128_S128x12_S1024x12_1_0_0_1_n_n_wf : DotDims.WF S1024x128 S128x12 S1024x12 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x1.size a ≤ S131072x1.size a
  hwx0_0 : ∀ i : grid0.Coords, EltTy.bits .f32 = 32 ∨ (Rect.block (s := S131072x1) S4096x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S131072x64.size a
  hwx0_2 : ∀ i : grid0.Coords, EltTy.bits .f32 = 32 ∨ (Rect.block (s := S131072x64) S4096x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x64.size a ≤ S131072x64.size a
  hwx1_0 : ∀ i : grid1.Coords, EltTy.bits .f32 = 32 ∨ (Rect.block (s := S131072x64) S4096x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x64.size a ≤ S131072x64.size a
  hwx1_1 : ∀ i : grid1.Coords, EltTy.bits .f32 = 32 ∨ (Rect.block (s := S131072x64) S4096x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x1.size a ≤ S131072x1.size a
  hwx1_2 : ∀ i : grid1.Coords, EltTy.bits .f32 = 32 ∨ (Rect.block (s := S131072x1) S4096x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4096x64.size a ≤ S131072x64.size a
  hwx1_4 : ∀ i : grid1.Coords, EltTy.bits .f32 = 32 ∨ (Rect.block (s := S131072x64) S4096x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x64.size a ≤ S131072x64.size a
  hwx2_0 : ∀ i : grid2.Coords, EltTy.bits .f32 = 32 ∨ (Rect.block (s := S131072x64) S4096x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .f32 = 32 ∨ (Rect.block (s := S64x128) S64x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x128.size a ≤ S131072x128.size a
  hwx2_2 : ∀ i : grid2.Coords, EltTy.bits .f32 = 32 ∨ (Rect.block (s := S131072x128) S4096x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x128.size a ≤ S131072x128.size a
  hwx3_0 : ∀ i : grid3.Coords, EltTy.bits .f32 = 32 ∨ (Rect.block (s := S131072x128) S4096x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096x128.size a ≤ S131072x128.size a
  hwx3_1 : ∀ i : grid3.Coords, EltTy.bits .f32 = 32 ∨ (Rect.block (s := S131072x128) S4096x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4096x1.size a ≤ S131072x1.size a
  hwx3_2 : ∀ i : grid3.Coords, EltTy.bits .f32 = 32 ∨ (Rect.block (s := S131072x1) S4096x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4096x128.size a ≤ S131072x128.size a
  hwx3_4 : ∀ i : grid3.Coords, EltTy.bits .f32 = 32 ∨ (Rect.block (s := S131072x128) S4096x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x128.size a ≤ S131072x128.size a
  hwx4_0 : ∀ i : grid4.Coords, EltTy.bits .f32 = 32 ∨ (Rect.block (s := S131072x128) S4096x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x256.size a ≤ S128x256.size a
  hwx4_1 : ∀ i : grid4.Coords, EltTy.bits .f32 = 32 ∨ (Rect.block (s := S128x256) S128x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4096x256.size a ≤ S131072x256.size a
  hwx4_2 : ∀ i : grid4.Coords, EltTy.bits .f32 = 32 ∨ (Rect.block (s := S131072x256) S4096x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4096x256.size a ≤ S131072x256.size a
  hwx5_0 : ∀ i : grid5.Coords, EltTy.bits .f32 = 32 ∨ (Rect.block (s := S131072x256) S4096x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4096x256.size a ≤ S131072x256.size a
  hwx5_1 : ∀ i : grid5.Coords, EltTy.bits .f32 = 32 ∨ (Rect.block (s := S131072x256) S4096x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4096x1.size a ≤ S131072x1.size a
  hwx5_2 : ∀ i : grid5.Coords, EltTy.bits .f32 = 32 ∨ (Rect.block (s := S131072x1) S4096x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S4096x256.size a ≤ S131072x256.size a
  hwx5_4 : ∀ i : grid5.Coords, EltTy.bits .f32 = 32 ∨ (Rect.block (s := S131072x256) S4096x256.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x256.size a ≤ S4096x256.size a
  hwx6_0 : ∀ i : grid6.Coords, EltTy.bits .f32 = 32 ∨ (Rect.block (s := S4096x256) S1024x256.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1024x1.size a ≤ S4096x1.size a
  hwx6_1 : ∀ i : grid6.Coords, EltTy.bits .f32 = 32 ∨ (Rect.block (s := S4096x1) S1024x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S256x128.size a ≤ S256x128.size a
  hwx6_2 : ∀ i : grid6.Coords, EltTy.bits .f32 = 32 ∨ (Rect.block (s := S256x128) S256x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x12.size a ≤ S128x12.size a
  hwx6_4 : ∀ i : grid6.Coords, EltTy.bits .f32 = 32 ∨ (Rect.block (s := S128x12) S128x12.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x12.size a ≤ S1x12.size a
  hwx6_5 : ∀ i : grid6.Coords, EltTy.bits .f32 = 32 ∨ (Rect.block (s := S1x12) S1x12.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S1024x12.size a ≤ S4096x12.size a
  hwx6_6 : ∀ i : grid6.Coords, EltTy.bits .f32 = 32 ∨ (Rect.block (s := S4096x12) S1024x12.size (cc6_transform_6 i) (hinb6_6 i)).WholeWords (EltTy.packing .f32)

variable [Facts₀]

def scatter_S131072_S262144x1_S262144_n_0_0_1 : ScatterDims S131072 S262144x1 S262144 where
  updateWindowDims := []
  insertedWindowDims := [0]
  scatterDimsToOperandDims := [0]
  indexVectorDim := 1
  wf := scatter_S131072_S262144x1_S262144_n_0_0_1_wf
def gather_S131072_S262144x1_S262144_n_0_n_n_0_1_1 : GatherDims S131072 S262144x1 S262144 where
  offsetDims := []
  collapsedSliceDims := [0]
  operandBatchingDims := []
  startIndicesBatchingDims := []
  startIndexMap := [0]
  indexVectorDim := 1
  sliceSizes := ![1]
  wf := gather_S131072_S262144x1_S262144_n_0_n_n_0_1_1_wf
def dot_S4096x1_S1x64_S4096x64_1_0_0_1_n_n : DotDims S4096x1 S1x64 S4096x64 where
  lhsContracting := [1]
  rhsContracting := [0]
  lhsNonContracting := [0]
  rhsNonContracting := [1]
  lhsBatch := []
  rhsBatch := []
  wf := dot_S4096x1_S1x64_S4096x64_1_0_0_1_n_n_wf
def gather_S131072x64_S262144x1_S262144x64_1_0_n_n_0_1_164 : GatherDims S131072x64 S262144x1 S262144x64 where
  offsetDims := [1]
  collapsedSliceDims := [0]
  operandBatchingDims := []
  startIndicesBatchingDims := []
  startIndexMap := [0]
  indexVectorDim := 1
  sliceSizes := ![1, 64]
  wf := gather_S131072x64_S262144x1_S262144x64_1_0_n_n_0_1_164_wf
def scatter_S131072x64_S262144x1_S262144x64_1_0_0_1 : ScatterDims S131072x64 S262144x1 S262144x64 where
  updateWindowDims := [1]
  insertedWindowDims := [0]
  scatterDimsToOperandDims := [0]
  indexVectorDim := 1
  wf := scatter_S131072x64_S262144x1_S262144x64_1_0_0_1_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def gather_S131072x128_S262144x1_S262144x128_1_0_n_n_0_1_1128 : GatherDims S131072x128 S262144x1 S262144x128 where
  offsetDims := [1]
  collapsedSliceDims := [0]
  operandBatchingDims := []
  startIndicesBatchingDims := []
  startIndexMap := [0]
  indexVectorDim := 1
  sliceSizes := ![1, 128]
  wf := gather_S131072x128_S262144x1_S262144x128_1_0_n_n_0_1_1128_wf
def scatter_S131072x128_S262144x1_S262144x128_1_0_0_1 : ScatterDims S131072x128 S262144x1 S262144x128 where
  updateWindowDims := [1]
  insertedWindowDims := [0]
  scatterDimsToOperandDims := [0]
  indexVectorDim := 1
  wf := scatter_S131072x128_S262144x1_S262144x128_1_0_0_1_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def gather_S131072x256_S262144x1_S262144x256_1_0_n_n_0_1_1256 : GatherDims S131072x256 S262144x1 S262144x256 where
  offsetDims := [1]
  collapsedSliceDims := [0]
  operandBatchingDims := []
  startIndicesBatchingDims := []
  startIndexMap := [0]
  indexVectorDim := 1
  sliceSizes := ![1, 256]
  wf := gather_S131072x256_S262144x1_S262144x256_1_0_n_n_0_1_1256_wf
def scatter_S131072x256_S262144x1_S262144x256_1_0_0_1 : ScatterDims S131072x256 S262144x1 S262144x256 where
  updateWindowDims := [1]
  insertedWindowDims := [0]
  scatterDimsToOperandDims := [0]
  indexVectorDim := 1
  wf := scatter_S131072x256_S262144x1_S262144x256_1_0_0_1_wf
def scatter_S4096x256_S131072x1_S131072x256_1_0_0_1 : ScatterDims S4096x256 S131072x1 S131072x256 where
  updateWindowDims := [1]
  insertedWindowDims := [0]
  scatterDimsToOperandDims := [0]
  indexVectorDim := 1
  wf := scatter_S4096x256_S131072x1_S131072x256_1_0_0_1_wf
def scatter_S4096_S131072x1_S131072_n_0_0_1 : ScatterDims S4096 S131072x1 S131072 where
  updateWindowDims := []
  insertedWindowDims := [0]
  scatterDimsToOperandDims := [0]
  indexVectorDim := 1
  wf := scatter_S4096_S131072x1_S131072_n_0_0_1_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x12_S1024x12_1_0_0_1_n_n : DotDims S1024x128 S128x12 S1024x12 where
  lhsContracting := [1]
  rhsContracting := [0]
  lhsNonContracting := [0]
  rhsNonContracting := [1]
  lhsBatch := []
  rhsBatch := []
  wf := dot_S1024x128_S128x12_S1024x12_1_0_0_1_n_n_wf

abbrev win0_0 : Pipeline.Window sig grid0 :=
  Pipeline.Window.ofSpec (Memref.whole main_arg0) S4096x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S4096x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S4096x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S4096x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S4096x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S4096x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S4096x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S4096x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S4096x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S4096x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v59) S4096x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S4096x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v60) S4096x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S4096x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v74) S4096x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v61) S4096x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v76) S4096x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v75) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v77) S4096x256.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v80) S1024x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v85) S1024x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg9) S256x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v86) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg11) S128x12.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v87) S1x12.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v88) S1024x12.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

class Facts : Prop extends Facts₀ where

variable [Facts]
-- ==== ReferenceIdeal.lean ====
abbrev S131072x1 : Shape := ⟨2, ![131072, 1]⟩
abbrev S2x262144 : Shape := ⟨2, ![2, 262144]⟩
abbrev S131072 : Shape := ⟨1, ![131072]⟩
abbrev S1x64 : Shape := ⟨2, ![1, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x12 : Shape := ⟨2, ![128, 12]⟩
abbrev S12 : Shape := ⟨1, ![12]⟩
abbrev S1x262144 : Shape := ⟨2, ![1, 262144]⟩
abbrev S262144 : Shape := ⟨1, ![262144]⟩
abbrev S131072x64 : Shape := ⟨2, ![131072, 64]⟩
abbrev S_ : Shape := ⟨0, ![]⟩
abbrev S262144x1 : Shape := ⟨2, ![262144, 1]⟩
abbrev S262144x64 : Shape := ⟨2, ![262144, 64]⟩
abbrev S131072x128 : Shape := ⟨2, ![131072, 128]⟩
abbrev S262144x128 : Shape := ⟨2, ![262144, 128]⟩
abbrev S1x128 : Shape := ⟨2, ![1, 128]⟩
abbrev S131072x256 : Shape := ⟨2, ![131072, 256]⟩
abbrev S262144x256 : Shape := ⟨2, ![262144, 256]⟩
abbrev S1x256 : Shape := ⟨2, ![1, 256]⟩
abbrev S4096x256 : Shape := ⟨2, ![4096, 256]⟩
abbrev S4096 : Shape := ⟨1, ![4096]⟩
abbrev S4096x1 : Shape := ⟨2, ![4096, 1]⟩
abbrev S4096x128 : Shape := ⟨2, ![4096, 128]⟩
abbrev S4096x12 : Shape := ⟨2, ![4096, 12]⟩
abbrev S1x12 : Shape := ⟨2, ![1, 12]⟩

abbrev nBuf : Space → Nat
  | .hbm => 212
  | .vmem => 0
  | .smem => 0
  | _ => 0

abbrev hbmTy0_0 (i : Nat) : BufTy := match i % 128 with
  | 0 => ⟨S131072x1, .f32⟩
  | 1 => ⟨S2x262144, .i32⟩
  | 2 => ⟨S131072, .i32⟩
  | 3 => ⟨S1x64, .f32⟩
  | 4 => ⟨S64, .f32⟩
  | 5 => ⟨S64x128, .f32⟩
  | 6 => ⟨S128, .f32⟩
  | 7 => ⟨S128x256, .f32⟩
  | 8 => ⟨S256, .f32⟩
  | 9 => ⟨S256x128, .f32⟩
  | 10 => ⟨S128, .f32⟩
  | 11 => ⟨S128x12, .f32⟩
  | 12 => ⟨S12, .f32⟩
  | 13 => ⟨S1x262144, .i32⟩
  | 14 => ⟨S262144, .i32⟩
  | 15 => ⟨S1x262144, .i32⟩
  | 16 => ⟨S262144, .i32⟩
  | 17 => ⟨S131072x64, .f32⟩
  | 18 => ⟨S_, .f32⟩
  | 19 => ⟨S262144, .f32⟩
  | 20 => ⟨S_, .f32⟩
  | 21 => ⟨S131072, .f32⟩
  | 22 => ⟨S262144x1, .i32⟩
  | 23 => ⟨S131072, .f32⟩
  | 24 => ⟨S_, .f32⟩
  | 25 => ⟨S131072, .f32⟩
  | 26 => ⟨S131072, .f32⟩
  | 27 => ⟨S131072, .f32⟩
  | 28 => ⟨S_, .i32⟩
  | 29 => ⟨S262144, .i32⟩
  | 30 => ⟨S262144, .i1⟩
  | 31 => ⟨S_, .i32⟩
  | 32 => ⟨S262144, .i32⟩
  | 33 => ⟨S262144, .i32⟩
  | 34 => ⟨S262144, .i32⟩
  | 35 => ⟨S262144x1, .i32⟩
  | 36 => ⟨S262144, .f32⟩
  | 37 => ⟨S_, .i32⟩
  | 38 => ⟨S262144, .i32⟩
  | 39 => ⟨S262144, .i1⟩
  | 40 => ⟨S_, .i32⟩
  | 41 => ⟨S262144, .i32⟩
  | 42 => ⟨S262144, .i32⟩
  | 43 => ⟨S262144, .i32⟩
  | 44 => ⟨S262144x1, .i32⟩
  | 45 => ⟨S262144, .f32⟩
  | 46 => ⟨S262144, .f32⟩
  | 47 => ⟨S_, .i32⟩
  | 48 => ⟨S262144, .i32⟩
  | 49 => ⟨S262144, .i1⟩
  | 50 => ⟨S_, .i32⟩
  | 51 => ⟨S262144, .i32⟩
  | 52 => ⟨S262144, .i32⟩
  | 53 => ⟨S262144, .i32⟩
  | 54 => ⟨S262144x1, .i32⟩
  | 55 => ⟨S262144x64, .f32⟩
  | 56 => ⟨S262144x1, .f32⟩
  | 57 => ⟨S262144x64, .f32⟩
  | 58 => ⟨S262144x64, .f32⟩
  | 59 => ⟨S_, .f32⟩
  | 60 => ⟨S131072x64, .f32⟩
  | 61 => ⟨S262144x1, .i32⟩
  | 62 => ⟨S131072x64, .f32⟩
  | 63 => ⟨S131072, .f32⟩
  | 64 => ⟨S131072x1, .f32⟩
  | 65 => ⟨S131072x64, .f32⟩
  | 66 => ⟨S131072x64, .f32⟩
  | 67 => ⟨S131072x64, .f32⟩
  | 68 => ⟨S1x64, .f32⟩
  | 69 => ⟨S131072x64, .f32⟩
  | 70 => ⟨S131072x64, .f32⟩
  | 71 => ⟨S_, .f32⟩
  | 72 => ⟨S131072x64, .f32⟩
  | 73 => ⟨S131072x64, .f32⟩
  | 74 => ⟨S131072x128, .f32⟩
  | 75 => ⟨S_, .f32⟩
  | 76 => ⟨S262144, .f32⟩
  | 77 => ⟨S_, .f32⟩
  | 78 => ⟨S131072, .f32⟩
  | 79 => ⟨S262144x1, .i32⟩
  | 80 => ⟨S131072, .f32⟩
  | 81 => ⟨S_, .f32⟩
  | 82 => ⟨S131072, .f32⟩
  | 83 => ⟨S131072, .f32⟩
  | 84 => ⟨S131072, .f32⟩
  | 85 => ⟨S_, .i32⟩
  | 86 => ⟨S262144, .i32⟩
  | 87 => ⟨S262144, .i1⟩
  | 88 => ⟨S_, .i32⟩
  | 89 => ⟨S262144, .i32⟩
  | 90 => ⟨S262144, .i32⟩
  | 91 => ⟨S262144, .i32⟩
  | 92 => ⟨S262144x1, .i32⟩
  | 93 => ⟨S262144, .f32⟩
  | 94 => ⟨S_, .i32⟩
  | 95 => ⟨S262144, .i32⟩
  | 96 => ⟨S262144, .i1⟩
  | 97 => ⟨S_, .i32⟩
  | 98 => ⟨S262144, .i32⟩
  | 99 => ⟨S262144, .i32⟩
  | 100 => ⟨S262144, .i32⟩
  | 101 => ⟨S262144x1, .i32⟩
  | 102 => ⟨S262144, .f32⟩
  | 103 => ⟨S262144, .f32⟩
  | 104 => ⟨S_, .i32⟩
  | 105 => ⟨S262144, .i32⟩
  | 106 => ⟨S262144, .i1⟩
  | 107 => ⟨S_, .i32⟩
  | 108 => ⟨S262144, .i32⟩
  | 109 => ⟨S262144, .i32⟩
  | 110 => ⟨S262144, .i32⟩
  | 111 => ⟨S262144x1, .i32⟩
  | 112 => ⟨S262144x128, .f32⟩
  | 113 => ⟨S262144x1, .f32⟩
  | 114 => ⟨S262144x128, .f32⟩
  | 115 => ⟨S262144x128, .f32⟩
  | 116 => ⟨S_, .f32⟩
  | 117 => ⟨S131072x128, .f32⟩
  | 118 => ⟨S262144x1, .i32⟩
  | 119 => ⟨S131072x128, .f32⟩
  | 120 => ⟨S131072, .f32⟩
  | 121 => ⟨S131072x1, .f32⟩
  | 122 => ⟨S131072x128, .f32⟩
  | 123 => ⟨S131072x128, .f32⟩
  | 124 => ⟨S131072x128, .f32⟩
  | 125 => ⟨S1x128, .f32⟩
  | 126 => ⟨S131072x128, .f32⟩
  | 127 => ⟨S131072x128, .f32⟩
  | _ => ⟨S131072x1, .f32⟩

abbrev hbmTy0_1 (i : Nat) : BufTy := match i % 128 with
  | 0 => ⟨S_, .f32⟩
  | 1 => ⟨S131072x128, .f32⟩
  | 2 => ⟨S131072x128, .f32⟩
  | 3 => ⟨S131072x256, .f32⟩
  | 4 => ⟨S_, .f32⟩
  | 5 => ⟨S262144, .f32⟩
  | 6 => ⟨S_, .f32⟩
  | 7 => ⟨S131072, .f32⟩
  | 8 => ⟨S262144x1, .i32⟩
  | 9 => ⟨S131072, .f32⟩
  | 10 => ⟨S_, .f32⟩
  | 11 => ⟨S131072, .f32⟩
  | 12 => ⟨S131072, .f32⟩
  | 13 => ⟨S131072, .f32⟩
  | 14 => ⟨S_, .i32⟩
  | 15 => ⟨S262144, .i32⟩
  | 16 => ⟨S262144, .i1⟩
  | 17 => ⟨S_, .i32⟩
  | 18 => ⟨S262144, .i32⟩
  | 19 => ⟨S262144, .i32⟩
  | 20 => ⟨S262144, .i32⟩
  | 21 => ⟨S262144x1, .i32⟩
  | 22 => ⟨S262144, .f32⟩
  | 23 => ⟨S_, .i32⟩
  | 24 => ⟨S262144, .i32⟩
  | 25 => ⟨S262144, .i1⟩
  | 26 => ⟨S_, .i32⟩
  | 27 => ⟨S262144, .i32⟩
  | 28 => ⟨S262144, .i32⟩
  | 29 => ⟨S262144, .i32⟩
  | 30 => ⟨S262144x1, .i32⟩
  | 31 => ⟨S262144, .f32⟩
  | 32 => ⟨S262144, .f32⟩
  | 33 => ⟨S_, .i32⟩
  | 34 => ⟨S262144, .i32⟩
  | 35 => ⟨S262144, .i1⟩
  | 36 => ⟨S_, .i32⟩
  | 37 => ⟨S262144, .i32⟩
  | 38 => ⟨S262144, .i32⟩
  | 39 => ⟨S262144, .i32⟩
  | 40 => ⟨S262144x1, .i32⟩
  | 41 => ⟨S262144x256, .f32⟩
  | 42 => ⟨S262144x1, .f32⟩
  | 43 => ⟨S262144x256, .f32⟩
  | 44 => ⟨S262144x256, .f32⟩
  | 45 => ⟨S_, .f32⟩
  | 46 => ⟨S131072x256, .f32⟩
  | 47 => ⟨S262144x1, .i32⟩
  | 48 => ⟨S131072x256, .f32⟩
  | 49 => ⟨S131072, .f32⟩
  | 50 => ⟨S131072x1, .f32⟩
  | 51 => ⟨S131072x256, .f32⟩
  | 52 => ⟨S131072x256, .f32⟩
  | 53 => ⟨S131072x256, .f32⟩
  | 54 => ⟨S1x256, .f32⟩
  | 55 => ⟨S131072x256, .f32⟩
  | 56 => ⟨S131072x256, .f32⟩
  | 57 => ⟨S_, .f32⟩
  | 58 => ⟨S4096x256, .f32⟩
  | 59 => ⟨S131072x1, .i32⟩
  | 60 => ⟨S4096x256, .f32⟩
  | 61 => ⟨S_, .f32⟩
  | 62 => ⟨S131072, .f32⟩
  | 63 => ⟨S_, .f32⟩
  | 64 => ⟨S4096, .f32⟩
  | 65 => ⟨S131072x1, .i32⟩
  | 66 => ⟨S4096, .f32⟩
  | 67 => ⟨S_, .f32⟩
  | 68 => ⟨S4096, .f32⟩
  | 69 => ⟨S4096, .f32⟩
  | 70 => ⟨S4096x1, .f32⟩
  | 71 => ⟨S4096x256, .f32⟩
  | 72 => ⟨S4096x256, .f32⟩
  | 73 => ⟨S4096x128, .f32⟩
  | 74 => ⟨S1x128, .f32⟩
  | 75 => ⟨S4096x128, .f32⟩
  | 76 => ⟨S4096x128, .f32⟩
  | 77 => ⟨S_, .f32⟩
  | 78 => ⟨S4096x128, .f32⟩
  | 79 => ⟨S4096x128, .f32⟩
  | 80 => ⟨S4096x12, .f32⟩
  | 81 => ⟨S1x12, .f32⟩
  | 82 => ⟨S4096x12, .f32⟩
  | 83 => ⟨S4096x12, .f32⟩
  | _ => ⟨S131072x1, .f32⟩

abbrev hbmTy (i : Nat) : BufTy := match i / 128 with
  | 0 => hbmTy0_0 i
  | 1 => hbmTy0_1 i
  | _ => ⟨S131072x1, .f32⟩

abbrev bufTy : (tb : Table) → Fin (tcTables nBuf tb) → BufTy
  | .hbm, ⟨i, _⟩ => hbmTy i
  | _, _ => ⟨S131072x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_call0_cst : Ref sig .tc := ⟨.hbm, 71, rfl⟩
abbrev main_call0_v0 : Ref sig .tc := ⟨.hbm, 72, rfl⟩
abbrev main_v48 : Ref sig .tc := ⟨.hbm, 73, rfl⟩
abbrev main_v49 : Ref sig .tc := ⟨.hbm, 74, rfl⟩
abbrev main_cst_8 : Ref sig .tc := ⟨.hbm, 75, rfl⟩
abbrev main_v50 : Ref sig .tc := ⟨.hbm, 76, rfl⟩
abbrev main_cst_9 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_10 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_c_11 : Ref sig .tc := ⟨.hbm, 85, rfl⟩
abbrev main_v57 : Ref sig .tc := ⟨.hbm, 86, rfl⟩
abbrev main_v58 : Ref sig .tc := ⟨.hbm, 87, rfl⟩
abbrev main_c_12 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_c_13 : Ref sig .tc := ⟨.hbm, 94, rfl⟩
abbrev main_v64 : Ref sig .tc := ⟨.hbm, 95, rfl⟩
abbrev main_v65 : Ref sig .tc := ⟨.hbm, 96, rfl⟩
abbrev main_c_14 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_c_15 : Ref sig .tc := ⟨.hbm, 104, rfl⟩
abbrev main_v72 : Ref sig .tc := ⟨.hbm, 105, rfl⟩
abbrev main_v73 : Ref sig .tc := ⟨.hbm, 106, rfl⟩
abbrev main_c_16 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_17 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_call1_cst : Ref sig .tc := ⟨.hbm, 128, rfl⟩
abbrev main_call1_v0 : Ref sig .tc := ⟨.hbm, 129, rfl⟩
abbrev main_v93 : Ref sig .tc := ⟨.hbm, 130, rfl⟩
abbrev main_v94 : Ref sig .tc := ⟨.hbm, 131, rfl⟩
abbrev main_cst_18 : Ref sig .tc := ⟨.hbm, 132, rfl⟩
abbrev main_v95 : Ref sig .tc := ⟨.hbm, 133, rfl⟩
abbrev main_cst_19 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_cst_20 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_c_21 : Ref sig .tc := ⟨.hbm, 142, rfl⟩
abbrev main_v102 : Ref sig .tc := ⟨.hbm, 143, rfl⟩
abbrev main_v103 : Ref sig .tc := ⟨.hbm, 144, rfl⟩
abbrev main_c_22 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_c_23 : Ref sig .tc := ⟨.hbm, 151, rfl⟩
abbrev main_v109 : Ref sig .tc := ⟨.hbm, 152, rfl⟩
abbrev main_v110 : Ref sig .tc := ⟨.hbm, 153, rfl⟩
abbrev main_c_24 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_c_25 : Ref sig .tc := ⟨.hbm, 161, rfl⟩
abbrev main_v117 : Ref sig .tc := ⟨.hbm, 162, rfl⟩
abbrev main_v118 : Ref sig .tc := ⟨.hbm, 163, rfl⟩
abbrev main_c_26 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_cst_27 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_cst_28 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_cst_29 : Ref sig .tc := ⟨.hbm, 189, rfl⟩
abbrev main_v141 : Ref sig .tc := ⟨.hbm, 190, rfl⟩
abbrev main_cst_30 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_cst_31 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_call2_cst : Ref sig .tc := ⟨.hbm, 205, rfl⟩
abbrev main_call2_v0 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S_S131072 : S_.BroadcastsInDim S131072 (![] : Fin 0 → Fin S131072.rank)
  bcast_S262144_S262144x1_0 : S262144.BroadcastsInDim S262144x1 (![0] : Fin 1 → Fin S262144x1.rank)
  bcast_S262144x1_S262144x64_0_1 : S262144x1.BroadcastsInDim S262144x64 (![0, 1] : Fin 2 → Fin S262144x64.rank)
  bcast_S_S131072x64 : S_.BroadcastsInDim S131072x64 (![] : Fin 0 → Fin S131072x64.rank)
  bcast_S131072_S131072x1_0 : S131072.BroadcastsInDim S131072x1 (![0] : Fin 1 → Fin S131072x1.rank)
  bcast_S131072x1_S131072x64_0_1 : S131072x1.BroadcastsInDim S131072x64 (![0, 1] : Fin 2 → Fin S131072x64.rank)
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  bcast_S262144x1_S262144x128_0_1 : S262144x1.BroadcastsInDim S262144x128 (![0, 1] : Fin 2 → Fin S262144x128.rank)
  bcast_S_S131072x128 : S_.BroadcastsInDim S131072x128 (![] : Fin 0 → Fin S131072x128.rank)
  bcast_S131072x1_S131072x128_0_1 : S131072x1.BroadcastsInDim S131072x128 (![0, 1] : Fin 2 → Fin S131072x128.rank)
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S262144x1_S262144x256_0_1 : S262144x1.BroadcastsInDim S262144x256 (![0, 1] : Fin 2 → Fin S262144x256.rank)
  bcast_S_S131072x256 : S_.BroadcastsInDim S131072x256 (![] : Fin 0 → Fin S131072x256.rank)
  bcast_S131072x1_S131072x256_0_1 : S131072x1.BroadcastsInDim S131072x256 (![0, 1] : Fin 2 → Fin S131072x256.rank)
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  bcast_S_S4096x256 : S_.BroadcastsInDim S4096x256 (![] : Fin 0 → Fin S4096x256.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  bcast_S12_S1x12_1 : S12.BroadcastsInDim S1x12 (![1] : Fin 1 → Fin S1x12.rank)
  bcast_S1x12_S4096x12_0_1 : S1x12.BroadcastsInDim S4096x12 (![0, 1] : Fin 2 → Fin S4096x12.rank)
  dot_S131072x1_S1x64_S131072x64_1_0_0_1_n_n_wf : DotDims.WF S131072x1 S1x64 S131072x64 [1] [0] [0] [1] [] []
  scatter_S131072_S262144x1_S262144_n_0_0_1_wf : ScatterDims.WF S131072 S262144x1 S262144 [] [0] [0] 1
  gather_S131072_S262144x1_S262144_n_0_n_n_0_1_1_wf : GatherDims.WF S131072 S262144x1 S262144 [] [0] [] [0] [] 1 ![1]
  gather_S131072x64_S262144x1_S262144x64_1_0_n_n_0_1_164_wf : GatherDims.WF S131072x64 S262144x1 S262144x64 [1] [0] [] [0] [] 1 ![1, 64]
  scatter_S131072x64_S262144x1_S262144x64_1_0_0_1_wf : ScatterDims.WF S131072x64 S262144x1 S262144x64 [1] [0] [0] 1
  dot_S131072x64_S64x128_S131072x128_1_0_0_1_n_n_wf : DotDims.WF S131072x64 S64x128 S131072x128 [1] [0] [0] [1] [] []
  gather_S131072x128_S262144x1_S262144x128_1_0_n_n_0_1_1128_wf : GatherDims.WF S131072x128 S262144x1 S262144x128 [1] [0] [] [0] [] 1 ![1, 128]
  scatter_S131072x128_S262144x1_S262144x128_1_0_0_1_wf : ScatterDims.WF S131072x128 S262144x1 S262144x128 [1] [0] [0] 1
  dot_S131072x128_S128x256_S131072x256_1_0_0_1_n_n_wf : DotDims.WF S131072x128 S128x256 S131072x256 [1] [0] [0] [1] [] []
  gather_S131072x256_S262144x1_S262144x256_1_0_n_n_0_1_1256_wf : GatherDims.WF S131072x256 S262144x1 S262144x256 [1] [0] [] [0] [] 1 ![1, 256]
  scatter_S131072x256_S262144x1_S262144x256_1_0_0_1_wf : ScatterDims.WF S131072x256 S262144x1 S262144x256 [1] [0] [0] 1
  scatter_S4096x256_S131072x1_S131072x256_1_0_0_1_wf : ScatterDims.WF S4096x256 S131072x1 S131072x256 [1] [0] [0] 1
  scatter_S4096_S131072x1_S131072_n_0_0_1_wf : ScatterDims.WF S4096 S131072x1 S131072 [] [0] [0] 1
  dot_S4096x256_S256x128_S4096x128_1_0_0_1_n_n_wf : DotDims.WF S4096x256 S256x128 S4096x128 [1] [0] [0] [1] [] []
  dot_S4096x128_S128x12_S4096x12_1_0_0_1_n_n_wf : DotDims.WF S4096x128 S128x12 S4096x12 [1] [0] [0] [1] [] []

variable [Facts₀]

def dot_S131072x1_S1x64_S131072x64_1_0_0_1_n_n : DotDims S131072x1 S1x64 S131072x64 where
  lhsContracting := [1]
  rhsContracting := [0]
  lhsNonContracting := [0]
  rhsNonContracting := [1]
  lhsBatch := []
  rhsBatch := []
  wf := dot_S131072x1_S1x64_S131072x64_1_0_0_1_n_n_wf
def scatter_S131072_S262144x1_S262144_n_0_0_1 : ScatterDims S131072 S262144x1 S262144 where
  updateWindowDims := []
  insertedWindowDims := [0]
  scatterDimsToOperandDims := [0]
  indexVectorDim := 1
  wf := scatter_S131072_S262144x1_S262144_n_0_0_1_wf
def gather_S131072_S262144x1_S262144_n_0_n_n_0_1_1 : GatherDims S131072 S262144x1 S262144 where
  offsetDims := []
  collapsedSliceDims := [0]
  operandBatchingDims := []
  startIndicesBatchingDims := []
  startIndexMap := [0]
  indexVectorDim := 1
  sliceSizes := ![1]
  wf := gather_S131072_S262144x1_S262144_n_0_n_n_0_1_1_wf
def gather_S131072x64_S262144x1_S262144x64_1_0_n_n_0_1_164 : GatherDims S131072x64 S262144x1 S262144x64 where
  offsetDims := [1]
  collapsedSliceDims := [0]
  operandBatchingDims := []
  startIndicesBatchingDims := []
  startIndexMap := [0]
  indexVectorDim := 1
  sliceSizes := ![1, 64]
  wf := gather_S131072x64_S262144x1_S262144x64_1_0_n_n_0_1_164_wf
def scatter_S131072x64_S262144x1_S262144x64_1_0_0_1 : ScatterDims S131072x64 S262144x1 S262144x64 where
  updateWindowDims := [1]
  insertedWindowDims := [0]
  scatterDimsToOperandDims := [0]
  indexVectorDim := 1
  wf := scatter_S131072x64_S262144x1_S262144x64_1_0_0_1_wf
def dot_S131072x64_S64x128_S131072x128_1_0_0_1_n_n : DotDims S131072x64 S64x128 S131072x128 where
  lhsContracting := [1]
  rhsContracting := [0]
  lhsNonContracting := [0]
  rhsNonContracting := [1]
  lhsBatch := []
  rhsBatch := []
  wf := dot_S131072x64_S64x128_S131072x128_1_0_0_1_n_n_wf
def gather_S131072x128_S262144x1_S262144x128_1_0_n_n_0_1_1128 : GatherDims S131072x128 S262144x1 S262144x128 where
  offsetDims := [1]
  collapsedSliceDims := [0]
  operandBatchingDims := []
  startIndicesBatchingDims := []
  startIndexMap := [0]
  indexVectorDim := 1
  sliceSizes := ![1, 128]
  wf := gather_S131072x128_S262144x1_S262144x128_1_0_n_n_0_1_1128_wf
def scatter_S131072x128_S262144x1_S262144x128_1_0_0_1 : ScatterDims S131072x128 S262144x1 S262144x128 where
  updateWindowDims := [1]
  insertedWindowDims := [0]
  scatterDimsToOperandDims := [0]
  indexVectorDim := 1
  wf := scatter_S131072x128_S262144x1_S262144x128_1_0_0_1_wf
def dot_S131072x128_S128x256_S131072x256_1_0_0_1_n_n : DotDims S131072x128 S128x256 S131072x256 where
  lhsContracting := [1]
  rhsContracting := [0]
  lhsNonContracting := [0]
  rhsNonContracting := [1]
  lhsBatch := []
  rhsBatch := []
  wf := dot_S131072x128_S128x256_S131072x256_1_0_0_1_n_n_wf
def gather_S131072x256_S262144x1_S262144x256_1_0_n_n_0_1_1256 : GatherDims S131072x256 S262144x1 S262144x256 where
  offsetDims := [1]
  collapsedSliceDims := [0]
  operandBatchingDims := []
  startIndicesBatchingDims := []
  startIndexMap := [0]
  indexVectorDim := 1
  sliceSizes := ![1, 256]
  wf := gather_S131072x256_S262144x1_S262144x256_1_0_n_n_0_1_1256_wf
def scatter_S131072x256_S262144x1_S262144x256_1_0_0_1 : ScatterDims S131072x256 S262144x1 S262144x256 where
  updateWindowDims := [1]
  insertedWindowDims := [0]
  scatterDimsToOperandDims := [0]
  indexVectorDim := 1
  wf := scatter_S131072x256_S262144x1_S262144x256_1_0_0_1_wf
def scatter_S4096x256_S131072x1_S131072x256_1_0_0_1 : ScatterDims S4096x256 S131072x1 S131072x256 where
  updateWindowDims := [1]
  insertedWindowDims := [0]
  scatterDimsToOperandDims := [0]
  indexVectorDim := 1
  wf := scatter_S4096x256_S131072x1_S131072x256_1_0_0_1_wf
def scatter_S4096_S131072x1_S131072_n_0_0_1 : ScatterDims S4096 S131072x1 S131072 where
  updateWindowDims := []
  insertedWindowDims := [0]
  scatterDimsToOperandDims := [0]
  indexVectorDim := 1
  wf := scatter_S4096_S131072x1_S131072_n_0_0_1_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x128_S128x12_S4096x12_1_0_0_1_n_n : DotDims S4096x128 S128x12 S4096x12 where
  lhsContracting := [1]
  rhsContracting := [0]
  lhsNonContracting := [0]
  rhsNonContracting := [1]
  lhsBatch := []
  rhsBatch := []
  wf := dot_S4096x128_S128x12_S4096x12_1_0_0_1_n_n_wf

class Facts : Prop extends Facts₀ where

variable [Facts]
-- ==== Proof.KRun.lean ====
/-
  The run of the seven-region program with its result named.  Every weakly fair execution terminates, nothing
  faulting, and in the final state every unscoped buffer of a core holds the value the boundary-by-boundary fold
  through the program gives it (the contents after the last region, `W12`).  Read at the thirteen arguments this is
  the frame; read at the result buffer it names the result.  The application of the several-region launch theorem is
  the one of the frame, with the final state read at one more buffer.
-/
import proofs.«151674_j4475355922840_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at the fold's final contents and the arguments
    as launched. -/
theorem run_value : θ_run defs (onTc (τ := τ) (main (F := F))) ⟨m, fun _ => 0, ρ⟩ (fun r => ∀ c : Dev nD,
      r.2.mem ((c.tc : Thread nD τ).loc main_v88) = W12 m ρ c (Proc.devRef .tc main_v88)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v88 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c)⟩)

end Cert.KernelIdeal.KRun

end
-- ==== Proof.LibMatmulNN.lean ====
/-
  A matrix product whose left operand is contracted on its SECOND axis and whose right operand on its FIRST (an M×K
  array times a K×N array, the plain row-by-column product), accumulated into zero, read at one entry of the result on
  the extended reals: entry (i, j) is the sum over k of left (i, k) · right (k, j).  Every extent and both operand
  formats are arbitrary; the dimension record is any record with that contraction, its structural facts passed as
  hypotheses (four coordinate facts of its index maps, the contraction's rank and size), each closed by rfl or by
  unfolding at a printed record.
-/
import Idealize.ShloMosaic.PureOps.Ideal.Laws
import Idealize.ShloMosaic.Lib.ValueIdx

noncomputable section

open scoped BigOperators

namespace Cert.MatmulNN

open Idealize.ShloMosaic Idealize.ShloMosaic.ValueIdx

/-- The left operand contracted on its SECOND axis and the right on its FIRST, into a zero accumulator:
    out (i, j) = Σ k, A (i, k) · B (k, j). -/
theorem matmul_nn_apply {M K N : ℕ} {φ₁ φ₂ : FTy} (d : DotDims ⟨2, ![M, K]⟩ ⟨2, ![K, N]⟩ ⟨2, ![M, N]⟩)
    (prec : Option ContractPrecision) (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (A : FVec Ideal ⟨2, ![M, K]⟩ φ₁) (B : FVec Ideal ⟨2, ![K, N]⟩ φ₂) (i : Fin M) (j : Fin N) :
    matmul d prec A B (constant ⟨2, ![M, N]⟩ .f32 0x00000000#32) (ix2 i j) = ∑ k : Fin K, A (ix2 i k) * B (ix2 k j) := by
  refine (Ideal.matmul_constant_zero_apply d prec A B (ix2 i j)).trans ?_
  rw [← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact hl0 _ _
    | ⟨1, _⟩ => exact (hl1 _ _).trans hk)
  have er : d.rhsIdx (ix2 i j) ((contrEquiv1 d K hr hs).symm k) = ix2 k j := funext fun a => Fin.ext (by
    match a with
    | ⟨0, _⟩ => exact (hr0 _ _).trans hk
    | ⟨1, _⟩ => exact hr1 _ _)
  rw [el, er]

end Cert.MatmulNN

end
-- ==== Proof.LibRowTiles.lean ====
/-
  The dense steps of a three-layer graph convolution network, as functions of whole arrays on the extended reals,
  and the same steps on a tile of T consecutive rows written with a kernel's vector operations.

  * `mmG X W`       : the product X · W, entry (i, j) the sum over k of X (i, k) · W (k, j);
  * `fuseG s h d b` : the layer's combine step, entry (i, j) = (s (i, j) + h (i, j) · d (i, 0)) + b (0, j)
                       (s the aggregated neighbour messages, h the transformed features, d the column of
                       self-loop weights 1/deg, b the bias row), and `fuseReluG` the same followed by max(·, 0);
  * `headG`         : the read-out, per graph g: mean = sums (g, ·) / max(cnt g, 1), one hidden layer with relu,
                       one output layer.

  Every one of these reads, for row i of its result, only row i of the row-indexed operands.  So when a tile x of T
  rows holds rows r(0), …, r(T-1) of X (`x (p, k) = X (r p, k)`), the step computed on the tile is the step
  computed on the whole array, read at rows r(p): the `*_tile` theorems.  No law of arithmetic is used — both
  sides perform the same operations on the same numbers — so nothing here needs the entries to be finite.
-/
import Idealize.ShloMosaic.PureOps.Ideal.Laws
import Idealize.ShloMosaic.Lib.ValueIdx
import Idealize.ShloMosaic.Lib.Pipeline.Value
import proofs.«151674_j4475355922840_1_alg».proof.Proof.LibMatmulNN

noncomputable section

open scoped BigOperators

namespace Cert.RowTiles

open Idealize.ShloMosaic Idealize.ShloMosaic.ValueIdx

/-- The shape of an a × b array. -/
abbrev Sh2 (a b : Nat) : Shape := ⟨2, ![a, b]⟩

/-- The one index of an axis of extent one. -/
abbrev o1 : Fin 1 := ⟨0, Nat.one_pos⟩

/-- X · W. -/
def mmG {M K N : Nat} (X : (Sh2 M K).Idx → EReal) (W : (Sh2 K N).Idx → EReal) : (Sh2 M N).Idx → EReal :=
  fun i => ∑ k : Fin K, X (ix2 (n0 := M) (i 0) k) * W (ix2 (n1 := N) k (i 1))

/-- The combine step of a layer: (s + h · d) + b, d a column and b a row. -/
def fuseG {M C : Nat} (s h : (Sh2 M C).Idx → EReal) (d : (Sh2 M 1).Idx → EReal) (b : (Sh2 1 C).Idx → EReal) :
    (Sh2 M C).Idx → EReal :=
  fun i => (s i + h i * d (ix2 (n0 := M) (i 0) o1)) + b (ix2 (n1 := C) o1 (i 1))

/-- The combine step followed by max(·, 0). -/
def fuseReluG {M C : Nat} (s h : (Sh2 M C).Idx → EReal) (d : (Sh2 M 1).Idx → EReal) (b : (Sh2 1 C).Idx → EReal) :
    (Sh2 M C).Idx → EReal :=
  fun i => max (fuseG s h d b i) (Ideal.ofBits .f32 0x00000000#32)

/-- The mean over a graph's nodes: sums / max(count, 1). -/
def meanG {M C : Nat} (sums : (Sh2 M C).Idx → EReal) (cnt : (Sh2 M 1).Idx → EReal) : (Sh2 M C).Idx → EReal :=
  fun i => Ideal.div (sums i) (max (cnt (ix2 (n0 := M) (i 0) o1)) (Ideal.ofBits .f32 0x3F800000#32))

/-- A dense layer: X · W + b, b a row. -/
def denseG {M K N : Nat} (X : (Sh2 M K).Idx → EReal) (W : (Sh2 K N).Idx → EReal) (b : (Sh2 1 N).Idx → EReal) :
    (Sh2 M N).Idx → EReal :=
  fun i => mmG X W i + b (ix2 (n1 := N) o1 (i 1))

/-- max(·, 0), entry by entry. -/
def reluG {M C : Nat} (X : (Sh2 M C).Idx → EReal) : (Sh2 M C).Idx → EReal :=
  fun i => max (X i) (Ideal.ofBits .f32 0x00000000#32)

/-- The read-out: mean pooling, a hidden dense layer with relu, an output dense layer. -/
def headG {M C H O : Nat} (sums : (Sh2 M C).Idx → EReal) (cnt : (Sh2 M 1).Idx → EReal)
    (W1 : (Sh2 C H).Idx → EReal) (b1 : (Sh2 1 H).Idx → EReal) (W2 : (Sh2 H O).Idx → EReal) (b2 : (Sh2 1 O).Idx → EReal) :
    (Sh2 M O).Idx → EReal :=
  denseG (reluG (denseG (meanG sums cnt) W1 b1)) W2 b2

/-! ## A 1 × C row repeated down T rows, and a T × 1 column repeated across C columns, read at an entry -/

theorem rowRep_apply {T C : Nat} (x : (Sh2 1 C).Idx → EReal) (h : (Sh2 1 C).Broadcasts (Sh2 T C)) (p : Fin T) (l : Fin C) :
    broadcastTo (Sh2 T C) x h (ix2 p l) = x (ix2 o1 l) := by
  refine broadcastTo_apply x h (ix2 p l) (ix2 o1 l) fun a => ?_
  match a with
  | ⟨0, _⟩ => rfl
  | ⟨1, _⟩ =>
    show l.val = if C = 1 then 0 else l.val
    have := l.isLt
    split <;> omega

theorem colRep_apply {T C : Nat} (x : (Sh2 T 1).Idx → EReal) (h : (Sh2 T 1).Broadcasts (Sh2 T C)) (p : Fin T) (l : Fin C) :
    broadcastTo (Sh2 T C) x h (ix2 p l) = x (ix2 p o1) := by
  refine broadcastTo_apply x h (ix2 p l) (ix2 p o1) fun a => ?_
  match a with
  | ⟨0, _⟩ =>
    show p.val = if T = 1 then 0 else p.val
    have := p.isLt
    split <;> omega
  | ⟨1, _⟩ => rfl

/-! ## The steps on a tile of rows -/

section Tiles
variable {T M : Nat} (r : Fin T → Fin M)

/-- The product on a tile: row p of (tile of X) · W is row r(p) of X · W. -/
theorem mm_tile {K N : Nat} (d : DotDims (Sh2 T K) (Sh2 K N) (Sh2 T N))
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (x : FVec Ideal (Sh2 T K) .f32) (X : (Sh2 M K).Idx → EReal) (w : FVec Ideal (Sh2 K N) .f32) (W : (Sh2 K N).Idx → EReal)
    (hx : ∀ p k, x (ix2 p k) = X (ix2 (r p) k)) (hw : ∀ k l, w (ix2 k l) = W (ix2 k l)) (p : Fin T) (l : Fin N) :
    matmul d none x w (constant (Sh2 T N) .f32 0x00000000#32) (ix2 p l) = mmG X W (ix2 (r p) l) := by
  refine (Cert.MatmulNN.matmul_nn_apply d none hr hs hl0 hl1 hr0 hr1 x w p l).trans ?_
  exact Finset.sum_congr rfl fun k _ => congrArg₂ (· * ·) (hx p k) (hw k l)

/-- The same with the tile first recast to its own shape (the identity). -/
theorem mm_tile_cast {K N : Nat} (d : DotDims (Sh2 T K) (Sh2 K N) (Sh2 T N))
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (x : FVec Ideal (Sh2 T K) .f32) (hc : (Sh2 T K).ShapeCasts (Sh2 T K)) (X : (Sh2 M K).Idx → EReal)
    (w : FVec Ideal (Sh2 K N) .f32) (W : (Sh2 K N).Idx → EReal)
    (hx : ∀ p k, x (ix2 p k) = X (ix2 (r p) k)) (hw : ∀ k l, w (ix2 k l) = W (ix2 k l)) (p : Fin T) (l : Fin N) :
    matmul d none (shapeCast (Sh2 T K) x hc) w (constant (Sh2 T N) .f32 0x00000000#32) (ix2 p l) = mmG X W (ix2 (r p) l) := by
  rw [shapeCast_self]
  exact mm_tile r d hr hs hl0 hl1 hr0 hr1 x X w W hx hw p l

/-- The combine step on a tile: the tiles of s and h, the matching piece of the column d, the whole row b. -/
theorem fuse_tile {C : Nat} (x0 x1 : FVec Ideal (Sh2 T C) .f32) (x2 : FVec Ideal (Sh2 T 1) .f32) (x3 : FVec Ideal (Sh2 1 C) .f32)
    (h0 : (Sh2 T C).ShapeCasts (Sh2 T C)) (h2 : (Sh2 T 1).ShapeCasts (Sh2 T 1)) (b2 : (Sh2 T 1).Broadcasts (Sh2 T C))
    (h3 : (Sh2 1 C).ShapeCasts (Sh2 1 C)) (b3 : (Sh2 1 C).Broadcasts (Sh2 T C))
    (S H : (Sh2 M C).Idx → EReal) (D : (Sh2 M 1).Idx → EReal) (B : (Sh2 1 C).Idx → EReal)
    (hx0 : ∀ p l, x0 (ix2 p l) = S (ix2 (r p) l)) (hx1 : ∀ p l, x1 (ix2 p l) = H (ix2 (r p) l))
    (hx2 : ∀ p, x2 (ix2 p o1) = D (ix2 (r p) o1)) (hx3 : ∀ l, x3 (ix2 o1 l) = B (ix2 o1 l)) (p : Fin T) (l : Fin C) :
    addf (addf (shapeCast (Sh2 T C) x0 h0) (mulf (shapeCast (Sh2 T C) x1 h0) (broadcastTo (Sh2 T C) (shapeCast (Sh2 T 1) x2 h2) b2)))
        (broadcastTo (Sh2 T C) (shapeCast (Sh2 1 C) x3 h3) b3) (ix2 p l)
      = fuseG S H D B (ix2 (r p) l) := by
  rw [shapeCast_self, shapeCast_self, shapeCast_self, shapeCast_self]
  show (x0 (ix2 p l) + x1 (ix2 p l) * broadcastTo (Sh2 T C) x2 b2 (ix2 p l)) + broadcastTo (Sh2 T C) x3 b3 (ix2 p l) = _
  rw [colRep_apply, rowRep_apply, hx0, hx1, hx2, hx3]
  rfl

/-- The combine step followed by max(·, 0), on a tile. -/
theorem fuseRelu_tile {C : Nat} (x0 x1 : FVec Ideal (Sh2 T C) .f32) (x2 : FVec Ideal (Sh2 T 1) .f32) (x3 : FVec Ideal (Sh2 1 C) .f32)
    (h0 : (Sh2 T C).ShapeCasts (Sh2 T C)) (h2 : (Sh2 T 1).ShapeCasts (Sh2 T 1)) (b2 : (Sh2 T 1).Broadcasts (Sh2 T C))
    (h3 : (Sh2 1 C).ShapeCasts (Sh2 1 C)) (b3 : (Sh2 1 C).Broadcasts (Sh2 T C))
    (S H : (Sh2 M C).Idx → EReal) (D : (Sh2 M 1).Idx → EReal) (B : (Sh2 1 C).Idx → EReal)
    (hx0 : ∀ p l, x0 (ix2 p l) = S (ix2 (r p) l)) (hx1 : ∀ p l, x1 (ix2 p l) = H (ix2 (r p) l))
    (hx2 : ∀ p, x2 (ix2 p o1) = D (ix2 (r p) o1)) (hx3 : ∀ l, x3 (ix2 o1 l) = B (ix2 o1 l)) (p : Fin T) (l : Fin C) :
    maximumf (addf (addf (shapeCast (Sh2 T C) x0 h0) (mulf (shapeCast (Sh2 T C) x1 h0) (broadcastTo (Sh2 T C) (shapeCast (Sh2 T 1) x2 h2) b2)))
        (broadcastTo (Sh2 T C) (shapeCast (Sh2 1 C) x3 h3) b3)) (broadcast (Sh2 T C) (Scalar.ofBits .f32 0x00000000#32 : Ideal .f32)) (ix2 p l)
      = fuseReluG S H D B (ix2 (r p) l) := by
  show max (addf (addf (shapeCast (Sh2 T C) x0 h0) (mulf (shapeCast (Sh2 T C) x1 h0) (broadcastTo (Sh2 T C) (shapeCast (Sh2 T 1) x2 h2) b2)))
        (broadcastTo (Sh2 T C) (shapeCast (Sh2 1 C) x3 h3) b3) (ix2 p l)) (Ideal.ofBits .f32 0x00000000#32) = _
  rw [fuse_tile r x0 x1 x2 x3 h0 h2 b2 h3 b3 S H D B hx0 hx1 hx2 hx3 p l]
  rfl

/-- The tile of per-graph means: sums / max(count, 1) on the tile's rows. -/
abbrev meanT {C : Nat} (x0 : FVec Ideal (Sh2 T C) .f32) (x1 : FVec Ideal (Sh2 T 1) .f32)
    (c0 : (Sh2 T C).ShapeCasts (Sh2 T C)) (c1 : (Sh2 T 1).ShapeCasts (Sh2 T 1)) (bc1 : (Sh2 T 1).Broadcasts (Sh2 T C)) :
    FVec Ideal (Sh2 T C) .f32 :=
  divf (shapeCast (Sh2 T C) x0 c0)
    (broadcastTo (Sh2 T C) (maximumf (shapeCast (Sh2 T 1) x1 c1) (broadcast (Sh2 T 1) (Scalar.ofBits .f32 0x3F800000#32 : Ideal .f32))) bc1)

theorem meanT_apply {C : Nat} (x0 : FVec Ideal (Sh2 T C) .f32) (x1 : FVec Ideal (Sh2 T 1) .f32)
    (c0 : (Sh2 T C).ShapeCasts (Sh2 T C)) (c1 : (Sh2 T 1).ShapeCasts (Sh2 T 1)) (bc1 : (Sh2 T 1).Broadcasts (Sh2 T C))
    (S : (Sh2 M C).Idx → EReal) (Cn : (Sh2 M 1).Idx → EReal)
    (hx0 : ∀ p k, x0 (ix2 p k) = S (ix2 (r p) k)) (hx1 : ∀ p, x1 (ix2 p o1) = Cn (ix2 (r p) o1)) (p : Fin T) (k : Fin C) :
    meanT x0 x1 c0 c1 bc1 (ix2 p k) = meanG S Cn (ix2 (r p) k) := by
  unfold meanT
  rw [shapeCast_self, shapeCast_self]
  show Ideal.div (x0 (ix2 p k)) (broadcastTo (Sh2 T C) (maximumf x1 (broadcast (Sh2 T 1) (Scalar.ofBits .f32 0x3F800000#32 : Ideal .f32))) bc1 (ix2 p k)) = _
  rw [colRep_apply, hx0]
  show Ideal.div _ (max (x1 (ix2 p o1)) (Ideal.ofBits .f32 0x3F800000#32)) = _
  rw [hx1]
  rfl

/-- The tile of the hidden layer: relu (mean · W1 + b1) on the tile's rows. -/
abbrev hidT {C H : Nat} (d1 : DotDims (Sh2 T C) (Sh2 C H) (Sh2 T H)) (x0 : FVec Ideal (Sh2 T C) .f32) (x1 : FVec Ideal (Sh2 T 1) .f32)
    (w1 : FVec Ideal (Sh2 C H) .f32) (b1 : FVec Ideal (Sh2 1 H) .f32)
    (c0 : (Sh2 T C).ShapeCasts (Sh2 T C)) (c1 : (Sh2 T 1).ShapeCasts (Sh2 T 1)) (bc1 : (Sh2 T 1).Broadcasts (Sh2 T C))
    (cb1 : (Sh2 1 H).ShapeCasts (Sh2 1 H)) (bb1 : (Sh2 1 H).Broadcasts (Sh2 T H)) : FVec Ideal (Sh2 T H) .f32 :=
  maximumf (addf (matmul d1 none (meanT x0 x1 c0 c1 bc1) w1 (constant (Sh2 T H) .f32 0x00000000#32))
      (broadcastTo (Sh2 T H) (shapeCast (Sh2 1 H) b1 cb1) bb1))
    (broadcast (Sh2 T H) (Scalar.ofBits .f32 0x00000000#32 : Ideal .f32))

theorem hidT_apply {C H : Nat} (d1 : DotDims (Sh2 T C) (Sh2 C H) (Sh2 T H))
    (hr : d1.contr.rank = 1) (hs : d1.contr.size ⟨0, by omega⟩ = C)
    (hl0 : ∀ j q, (d1.lhsIdx j q 0).val = (j 0).val) (hl1 : ∀ j q, (d1.lhsIdx j q 1).val = (q ⟨0, by omega⟩).val)
    (hr0 : ∀ j q, (d1.rhsIdx j q 0).val = (q ⟨0, by omega⟩).val) (hr1 : ∀ j q, (d1.rhsIdx j q 1).val = (j 1).val)
    (x0 : FVec Ideal (Sh2 T C) .f32) (x1 : FVec Ideal (Sh2 T 1) .f32)
    (w1 : FVec Ideal (Sh2 C H) .f32) (b1 : FVec Ideal (Sh2 1 H) .f32)
    (c0 : (Sh2 T C).ShapeCasts (Sh2 T C)) (c1 : (Sh2 T 1).ShapeCasts (Sh2 T 1)) (bc1 : (Sh2 T 1).Broadcasts (Sh2 T C))
    (cb1 : (Sh2 1 H).ShapeCasts (Sh2 1 H)) (bb1 : (Sh2 1 H).Broadcasts (Sh2 T H))
    (S : (Sh2 M C).Idx → EReal) (Cn : (Sh2 M 1).Idx → EReal) (W1 : (Sh2 C H).Idx → EReal) (B1 : (Sh2 1 H).Idx → EReal)
    (hx0 : ∀ p k, x0 (ix2 p k) = S (ix2 (r p) k)) (hx1 : ∀ p, x1 (ix2 p o1) = Cn (ix2 (r p) o1))
    (hw1 : ∀ k l, w1 (ix2 k l) = W1 (ix2 k l)) (hb1 : ∀ l, b1 (ix2 o1 l) = B1 (ix2 o1 l)) (p : Fin T) (k : Fin H) :
    hidT d1 x0 x1 w1 b1 c0 c1 bc1 cb1 bb1 (ix2 p k) = reluG (denseG (meanG S Cn) W1 B1) (ix2 (r p) k) := by
  unfold hidT
  show max (matmul d1 none (meanT x0 x1 c0 c1 bc1) w1 (constant (Sh2 T H) .f32 0x00000000#32) (ix2 p k)
      + broadcastTo (Sh2 T H) (shapeCast (Sh2 1 H) b1 cb1) bb1 (ix2 p k)) (Ideal.ofBits .f32 0x00000000#32) = _
  rw [mm_tile r d1 hr hs hl0 hl1 hr0 hr1 (meanT x0 x1 c0 c1 bc1) (meanG S Cn) w1 W1
    (meanT_apply r x0 x1 c0 c1 bc1 S Cn hx0 hx1) hw1 p k, shapeCast_self, rowRep_apply, hb1]
  rfl

/-- The read-out on a tile of graphs: the tile's rows of the read-out of the whole arrays. -/
theorem head_tile {C H O : Nat} (d1 : DotDims (Sh2 T C) (Sh2 C H) (Sh2 T H))
    (hr : d1.contr.rank = 1) (hs : d1.contr.size ⟨0, by omega⟩ = C)
    (hl0 : ∀ j q, (d1.lhsIdx j q 0).val = (j 0).val) (hl1 : ∀ j q, (d1.lhsIdx j q 1).val = (q ⟨0, by omega⟩).val)
    (hr0 : ∀ j q, (d1.rhsIdx j q 0).val = (q ⟨0, by omega⟩).val) (hr1 : ∀ j q, (d1.rhsIdx j q 1).val = (j 1).val)
    (d2 : DotDims (Sh2 T H) (Sh2 H O) (Sh2 T O))
    (gr : d2.contr.rank = 1) (gs : d2.contr.size ⟨0, by omega⟩ = H)
    (gl0 : ∀ j q, (d2.lhsIdx j q 0).val = (j 0).val) (gl1 : ∀ j q, (d2.lhsIdx j q 1).val = (q ⟨0, by omega⟩).val)
    (gr0 : ∀ j q, (d2.rhsIdx j q 0).val = (q ⟨0, by omega⟩).val) (gr1 : ∀ j q, (d2.rhsIdx j q 1).val = (j 1).val)
    (x0 : FVec Ideal (Sh2 T C) .f32) (x1 : FVec Ideal (Sh2 T 1) .f32)
    (w1 : FVec Ideal (Sh2 C H) .f32) (b1 : FVec Ideal (Sh2 1 H) .f32) (w2 : FVec Ideal (Sh2 H O) .f32) (b2 : FVec Ideal (Sh2 1 O) .f32)
    (c0 : (Sh2 T C).ShapeCasts (Sh2 T C)) (c1 : (Sh2 T 1).ShapeCasts (Sh2 T 1)) (bc1 : (Sh2 T 1).Broadcasts (Sh2 T C))
    (cb1 : (Sh2 1 H).ShapeCasts (Sh2 1 H)) (bb1 : (Sh2 1 H).Broadcasts (Sh2 T H))
    (cb2 : (Sh2 1 O).ShapeCasts (Sh2 1 O)) (bb2 : (Sh2 1 O).Broadcasts (Sh2 T O))
    (S : (Sh2 M C).Idx → EReal) (Cn : (Sh2 M 1).Idx → EReal) (W1 : (Sh2 C H).Idx → EReal) (B1 : (Sh2 1 H).Idx → EReal)
    (W2 : (Sh2 H O).Idx → EReal) (B2 : (Sh2 1 O).Idx → EReal)
    (hx0 : ∀ p k, x0 (ix2 p k) = S (ix2 (r p) k)) (hx1 : ∀ p, x1 (ix2 p o1) = Cn (ix2 (r p) o1))
    (hw1 : ∀ k l, w1 (ix2 k l) = W1 (ix2 k l)) (hb1 : ∀ l, b1 (ix2 o1 l) = B1 (ix2 o1 l))
    (hw2 : ∀ k l, w2 (ix2 k l) = W2 (ix2 k l)) (hb2 : ∀ l, b2 (ix2 o1 l) = B2 (ix2 o1 l)) (p : Fin T) (l : Fin O) :
    addf (matmul d2 none (hidT d1 x0 x1 w1 b1 c0 c1 bc1 cb1 bb1) w2 (constant (Sh2 T O) .f32 0x00000000#32))
        (broadcastTo (Sh2 T O) (shapeCast (Sh2 1 O) b2 cb2) bb2) (ix2 p l)
      = headG S Cn W1 B1 W2 B2 (ix2 (r p) l) := by
  show matmul d2 none (hidT d1 x0 x1 w1 b1 c0 c1 bc1 cb1 bb1) w2 (constant (Sh2 T O) .f32 0x00000000#32) (ix2 p l)
      + broadcastTo (Sh2 T O) (shapeCast (Sh2 1 O) b2 cb2) bb2 (ix2 p l) = _
  rw [mm_tile r d2 gr gs gl0 gl1 gr0 gr1 (hidT d1 x0 x1 w1 b1 c0 c1 bc1 cb1 bb1) (reluG (denseG (meanG S Cn) W1 B1)) w2 W2
    (hidT_apply r d1 hr hs hl0 hl1 hr0 hr1 x0 x1 w1 b1 c0 c1 bc1 cb1 bb1 S Cn W1 B1 hx0 hx1 hw1 hb1) hw2 p l,
    shapeCast_self, rowRep_apply, hb2]
  rfl

end Tiles

end Cert.RowTiles

end
-- ==== Proof.Region0.lean ====
/-
  Feature transform 0: the kernel is run on 32 tiles of 4096 rows.  At tile t it reads rows [4096 t, 4096 t + 4096)
  of the node features and the whole weight matrix, multiplies them into a zero accumulator, and writes rows
  [4096 t, 4096 t + 4096) of the result.  Row i of a product X · W reads only row i of X, so what tile t writes is
  rows [4096 t, 4096 t + 4096) of the whole product; the 32 tiles cover all 131072 rows.
-/
import proofs.«151674_j4475355922840_1_alg».proof.Proof.Gen.KernelIdeal.Frame
import proofs.«151674_j4475355922840_1_alg».proof.Proof.LibRowTiles
import Idealize.ShloMosaic.Lib.Pipeline.Value

set_option maxRecDepth 16384

noncomputable section

open scoped BigOperators

namespace Cert.KernelIdeal.Reg0

open Cert.KernelIdeal Cert.KernelIdeal.Gen Cert.RowTiles
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: features and result at block (t, 0), the weights at (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem t_lt (t : Fin cfg0.N) : t.val < 32 := lt_of_lt_of_eq t.isLt N_0

/-- Row p of tile t is row 4096 t + p of the array. -/
def row (t : Fin cfg0.N) (p : Fin 4096) : Fin 131072 := ⟨t.val * 4096 + p.val, by have := t_lt t; have := p.isLt; omega⟩

theorem blk0 (c : Dev nD) (t : Fin cfg0.N) (p : Fin 4096) (l : Fin 1) :
    iblk0 V c 0 t (ix2 p l) = V c main_arg0 (ix2 (row t p) l) := by
  show V c main_arg0 (((cfg0.win 0).blk t).view.emb (ix2 p l)) = _
  refine congrArg _ (funext fun a => Fin.ext ?_)
  obtain ⟨e0, e1, -⟩ := idx_facts t
  match a with
  | ⟨0, _⟩ => show win0_0.index t (0 : Fin 2) * 4096 + 1 * p.val = t.val * 4096 + p.val; rw [e0]; omega
  | ⟨1, _⟩ => show win0_0.index t (1 : Fin 2) * 1 + 1 * l.val = l.val; rw [e1]; omega

theorem blk1 (c : Dev nD) (t : Fin cfg0.N) (q : Fin 1) (l : Fin 64) :
    iblk0 V c 1 t (ix2 q l) = V c main_arg3 (ix2 q l) := by
  show V c main_arg3 (((cfg0.win 1).blk t).view.emb (ix2 q l)) = _
  refine congrArg _ (funext fun a => Fin.ext ?_)
  obtain ⟨-, -, e0, e1, -⟩ := idx_facts t
  match a with
  | ⟨0, _⟩ => show win0_1.index t (0 : Fin 2) * 1 + 1 * q.val = q.val; rw [e0]; omega
  | ⟨1, _⟩ => show win0_1.index t (1 : Fin 2) * 64 + 1 * l.val = l.val; rw [e1]; omega

theorem emb2 (t : Fin cfg0.N) (p : Fin 4096) (l : Fin 64) :
    ((cfg0.win 2).blk t).view.emb (ix2 p l) = ix2 (row t p) l := by
  refine funext fun a => Fin.ext ?_
  obtain ⟨-, -, -, -, e0, e1⟩ := idx_facts t
  match a with
  | ⟨0, _⟩ => show win0_2.index t (0 : Fin 2) * 4096 + 1 * p.val = t.val * 4096 + p.val; rw [e0]; omega
  | ⟨1, _⟩ => show win0_2.index t (1 : Fin 2) * 64 + 1 * l.val = l.val; rw [e1]; omega

/-! The structure of the product's dimension record: one contracted axis of extent 1, the left operand read at
    (row, k) and the right at (k, column). -/
theorem d_l0 (j : S4096x64.Idx) (q : dot_S4096x1_S1x64_S4096x64_1_0_0_1_n_n.contr.Idx) : (dot_S4096x1_S1x64_S4096x64_1_0_0_1_n_n.lhsIdx j q 0).val = (j 0).val := by
  unfold DotDims.lhsIdx
  rw [dif_neg (show ¬(0 : Fin S4096x1.rank) ∈ dot_S4096x1_S1x64_S4096x64_1_0_0_1_n_n.lhsBatch by decide), dif_pos (show (0 : Fin S4096x1.rank) ∈ dot_S4096x1_S1x64_S4096x64_1_0_0_1_n_n.lhsNonContracting by decide)]
  rfl
theorem d_l1 (j : S4096x64.Idx) (q : dot_S4096x1_S1x64_S4096x64_1_0_0_1_n_n.contr.Idx) : (dot_S4096x1_S1x64_S4096x64_1_0_0_1_n_n.lhsIdx j q 1).val = (q ⟨0, by decide⟩).val :=
  dot_S4096x1_S1x64_S4096x64_1_0_0_1_n_n.lhsIdx_val_of_single rfl j q
theorem d_r0 (j : S4096x64.Idx) (q : dot_S4096x1_S1x64_S4096x64_1_0_0_1_n_n.contr.Idx) : (dot_S4096x1_S1x64_S4096x64_1_0_0_1_n_n.rhsIdx j q 0).val = (q ⟨0, by decide⟩).val :=
  dot_S4096x1_S1x64_S4096x64_1_0_0_1_n_n.rhsIdx_val_of_single rfl j q
theorem d_r1 (j : S4096x64.Idx) (q : dot_S4096x1_S1x64_S4096x64_1_0_0_1_n_n.contr.Idx) : (dot_S4096x1_S1x64_S4096x64_1_0_0_1_n_n.rhsIdx j q 1).val = (j 1).val := by
  unfold DotDims.rhsIdx
  rw [dif_neg (show ¬(1 : Fin S1x64.rank) ∈ dot_S4096x1_S1x64_S4096x64_1_0_0_1_n_n.rhsBatch by decide), dif_pos (show (1 : Fin S1x64.rank) ∈ dot_S4096x1_S1x64_S4096x64_1_0_0_1_n_n.rhsNonContracting by decide)]
  rfl

/-- What tile t writes back is its rows of the whole product. -/
theorem flushed_eq (c : Dev nD) (t : Fin cfg0.N) :
    (dat0 V c).flushed 2 t = ((cfg0.win 2).blk t).view.read (Elt Ideal) (mmG (V c main_arg0) (V c main_arg3)) := by
  show (cfg0.win 2).cut (grid0.coords t) ((dat0 V c).after 2 t) = _
  rw [after0_2]
  unfold out0_2
  rw [View.canon_unit_zero hz]
  simp only [View.ld_unit_zero (S := S4096x1) hz, View.ld_unit_zero (S := S1x64) hz]
  refine funext fun (j : S4096x64.Idx) => ?_
  obtain ⟨p, l, rfl⟩ : ∃ (p : Fin 4096) (l : Fin 64), j = ix2 p l := ⟨j 0, j 1, eq_ix2 j⟩
  show k0_pay1 (iblk0 V c 0 t) (iblk0 V c 1 t) (ix2 p l)
    = mmG (V c main_arg0) (V c main_arg3) (((cfg0.win 2).blk t).view.emb (ix2 p l))
  rw [emb2 t p l]
  exact mm_tile (row t) dot_S4096x1_S1x64_S4096x64_1_0_0_1_n_n rfl rfl d_l0 d_l1 d_r0 d_r1 (iblk0 V c 0 t) (V c main_arg0) (iblk0 V c 1 t) (V c main_arg3)
    (blk0 V c t) (blk1 V c t) p l

/-- An index of the result array is in tile t's block iff its row is one of the tile's. -/
theorem mem_blk (t : Fin cfg0.N) (i : S131072x64.Idx) :
    i ∈ ((cfg0.win 2).blk t).view.set ↔ ∀ a : Fin 2, win0_2.index t a * S4096x64.size a ≤ (i a).val ∧ (i a).val < win0_2.index t a * S4096x64.size a + S4096x64.size a := by
  show i ∈ ((View.whole main_v27).slice (win0_2.rect t)).set ↔ _
  rw [View.set_slice_whole, Rect.mem_set_unit]
  exact Iff.rfl

/-- Every row belongs to a tile: row i to tile i / 4096. -/
theorem cover (i : S131072x64.Idx) : ∃ t : Fin cfg0.N, (cfg0.win 2).flush t = true ∧ i ∈ ((cfg0.win 2).blk t).view.set := by
  have hi0 : (i 0).val < 131072 := (i 0).isLt
  have hi1 : (i 1).val < 64 := (i 1).isLt
  have hq : (i 0).val / 4096 < 32 := by omega
  obtain ⟨t, ht⟩ : ∃ t : Fin cfg0.N, t.val = (i 0).val / 4096 := ⟨⟨(i 0).val / 4096, lt_of_lt_of_eq hq N_0.symm⟩, rfl⟩
  refine ⟨t, flush0_2 t, ?_⟩
  rw [mem_blk]
  obtain ⟨-, -, -, -, e0, e1⟩ := idx_facts t
  intro a
  match a with
  | ⟨0, _⟩ => show win0_2.index t (0 : Fin 2) * 4096 ≤ (i 0).val ∧ (i 0).val < win0_2.index t (0 : Fin 2) * 4096 + 4096; rw [e0, ht]; omega
  | ⟨1, _⟩ => show win0_2.index t (1 : Fin 2) * 64 ≤ (i 1).val ∧ (i 1).val < win0_2.index t (1 : Fin 2) * 64 + 64; rw [e1]; omega

/-- The result array after the region: the product of the arrays the region found. -/
theorem final (c : Dev nD) : (dat0 V c).arrAt 2 cfg0.N = mmG (V c main_arg0) (V c main_arg3) :=
  (dat0 V c).arrAt_eq_of_cover 2 _ (fun t _ => flushed_eq V c t) cover

end Cert.KernelIdeal.Reg0

end
-- ==== Proof.Region1.lean ====
/-
  Layer combine step 1: the kernel is run on 32 tiles of 4096 rows.  At tile t it reads rows [4096 t, 4096 t + 4096)
  of the aggregated messages, of the transformed features and of the column of self-loop weights, and the whole
  bias row, and writes rows [4096 t, 4096 t + 4096) of the result.  Each row of the combine step reads only its
  own row of those operands, so what tile t writes is rows [4096 t, 4096 t + 4096) of the step applied to the
  whole arrays; the 32 tiles cover all 131072 rows, so the array ends holding the step of the whole arrays.
-/
import proofs.«151674_j4475355922840_1_alg».proof.Proof.Gen.KernelIdeal.Frame
import proofs.«151674_j4475355922840_1_alg».proof.Proof.LibRowTiles
import Idealize.ShloMosaic.Lib.Pipeline.Value

set_option maxRecDepth 16384

noncomputable section

open scoped BigOperators

namespace Cert.KernelIdeal.Reg1

open Cert.KernelIdeal Cert.KernelIdeal.Gen Cert.RowTiles
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the row-indexed windows sit at block (t, 0), the bias row at (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem t_lt (t : Fin cfg1.N) : t.val < 32 := lt_of_lt_of_eq t.isLt N_1

/-- Row p of tile t is row 4096 t + p of the array. -/
def row (t : Fin cfg1.N) (p : Fin 4096) : Fin 131072 := ⟨t.val * 4096 + p.val, by have := t_lt t; have := p.isLt; omega⟩

theorem blk0 (c : Dev nD) (t : Fin cfg1.N) (p : Fin 4096) (l : Fin 64) :
    iblk1 V c 0 t (ix2 p l) = V c main_v40 (ix2 (row t p) l) := by
  show V c main_v40 (((cfg1.win 0).blk t).view.emb (ix2 p l)) = _
  refine congrArg _ (funext fun a => Fin.ext ?_)
  obtain ⟨e0, e1, -⟩ := idx_facts t
  match a with
  | ⟨0, _⟩ => show win1_0.index t (0 : Fin 2) * 4096 + 1 * p.val = t.val * 4096 + p.val; rw [e0]; omega
  | ⟨1, _⟩ => show win1_0.index t (1 : Fin 2) * 64 + 1 * l.val = l.val; rw [e1]; omega

theorem blk1 (c : Dev nD) (t : Fin cfg1.N) (p : Fin 4096) (l : Fin 64) :
    iblk1 V c 1 t (ix2 p l) = V c main_v27 (ix2 (row t p) l) := by
  show V c main_v27 (((cfg1.win 1).blk t).view.emb (ix2 p l)) = _
  refine congrArg _ (funext fun a => Fin.ext ?_)
  obtain ⟨-, -, e0, e1, -⟩ := idx_facts t
  match a with
  | ⟨0, _⟩ => show win1_1.index t (0 : Fin 2) * 4096 + 1 * p.val = t.val * 4096 + p.val; rw [e0]; omega
  | ⟨1, _⟩ => show win1_1.index t (1 : Fin 2) * 64 + 1 * l.val = l.val; rw [e1]; omega

theorem blk2 (c : Dev nD) (t : Fin cfg1.N) (p : Fin 4096) :
    iblk1 V c 2 t (ix2 p o1) = V c main_v42 (ix2 (row t p) o1) := by
  show V c main_v42 (((cfg1.win 2).blk t).view.emb (ix2 p o1)) = _
  refine congrArg _ (funext fun a => Fin.ext ?_)
  obtain ⟨-, -, -, -, e0, e1, -⟩ := idx_facts t
  match a with
  | ⟨0, _⟩ => show win1_2.index t (0 : Fin 2) * 4096 + 1 * p.val = t.val * 4096 + p.val; rw [e0]; omega
  | ⟨1, _⟩ => show win1_2.index t (1 : Fin 2) * 1 + 1 * 0 = 0; rw [e1]

theorem blk3 (c : Dev nD) (t : Fin cfg1.N) (l : Fin 64) :
    iblk1 V c 3 t (ix2 o1 l) = V c main_v41 (ix2 o1 l) := by
  show V c main_v41 (((cfg1.win 3).blk t).view.emb (ix2 o1 l)) = _
  refine congrArg _ (funext fun a => Fin.ext ?_)
  obtain ⟨-, -, -, -, -, -, e0, e1, -⟩ := idx_facts t
  match a with
  | ⟨0, _⟩ => show win1_3.index t (0 : Fin 2) * 1 + 1 * 0 = 0; rw [e0]
  | ⟨1, _⟩ => show win1_3.index t (1 : Fin 2) * 64 + 1 * l.val = l.val; rw [e1]; omega

theorem emb4 (t : Fin cfg1.N) (p : Fin 4096) (l : Fin 64) :
    ((cfg1.win 4).blk t).view.emb (ix2 p l) = ix2 (row t p) l := by
  refine funext fun a => Fin.ext ?_
  obtain ⟨-, -, -, -, -, -, -, -, e0, e1⟩ := idx_facts t
  match a with
  | ⟨0, _⟩ => show win1_4.index t (0 : Fin 2) * 4096 + 1 * p.val = t.val * 4096 + p.val; rw [e0]; omega
  | ⟨1, _⟩ => show win1_4.index t (1 : Fin 2) * 64 + 1 * l.val = l.val; rw [e1]; omega

/-- What tile t writes back is its rows of the combine step of the whole arrays. -/
theorem flushed_eq (c : Dev nD) (t : Fin cfg1.N) :
    (dat1 V c).flushed 4 t = ((cfg1.win 4).blk t).view.read (Elt Ideal)
      (fuseReluG (V c main_v40) (V c main_v27) (V c main_v42) (V c main_v41)) := by
  show (cfg1.win 4).cut (grid1.coords t) ((dat1 V c).after 4 t) = _
  rw [after1_4]
  unfold out1_4
  rw [View.canon_unit_zero hz]
  simp only [View.ld_unit_zero (S := S4096x64) hz, View.ld_unit_zero (S := S4096x1) hz, View.ld_unit_zero (S := S1x64) hz]
  refine funext fun (j : S4096x64.Idx) => ?_
  obtain ⟨p, l, rfl⟩ : ∃ (p : Fin 4096) (l : Fin 64), j = ix2 p l := ⟨j 0, j 1, eq_ix2 j⟩
  show k1_pay1 (iblk1 V c 0 t) (iblk1 V c 1 t) (iblk1 V c 2 t) (iblk1 V c 3 t) (ix2 p l)
    = fuseReluG (V c main_v40) (V c main_v27) (V c main_v42) (V c main_v41) (((cfg1.win 4).blk t).view.emb (ix2 p l))
  rw [emb4 t p l]
  exact fuseRelu_tile (row t) (iblk1 V c 0 t) (iblk1 V c 1 t) (iblk1 V c 2 t) (iblk1 V c 3 t) _ _ _ _ _
    (V c main_v40) (V c main_v27) (V c main_v42) (V c main_v41) (blk0 V c t) (blk1 V c t) (blk2 V c t) (blk3 V c t) p l

/-- An index of the result array is in tile t's block iff its row is one of the tile's. -/
theorem mem_blk (t : Fin cfg1.N) (i : S131072x64.Idx) :
    i ∈ ((cfg1.win 4).blk t).view.set ↔ ∀ a : Fin 2, win1_4.index t a * S4096x64.size a ≤ (i a).val ∧ (i a).val < win1_4.index t a * S4096x64.size a + S4096x64.size a := by
  show i ∈ ((View.whole main_v43).slice (win1_4.rect t)).set ↔ _
  rw [View.set_slice_whole, Rect.mem_set_unit]
  exact Iff.rfl

/-- Every row belongs to a tile: row i to tile i / 4096. -/
theorem cover (i : S131072x64.Idx) : ∃ t : Fin cfg1.N, (cfg1.win 4).flush t = true ∧ i ∈ ((cfg1.win 4).blk t).view.set := by
  have hi0 : (i 0).val < 131072 := (i 0).isLt
  have hi1 : (i 1).val < 64 := (i 1).isLt
  have hq : (i 0).val / 4096 < 32 := by omega
  obtain ⟨t, ht⟩ : ∃ t : Fin cfg1.N, t.val = (i 0).val / 4096 := ⟨⟨(i 0).val / 4096, lt_of_lt_of_eq hq N_1.symm⟩, rfl⟩
  refine ⟨t, flush1_4 t, ?_⟩
  rw [mem_blk]
  obtain ⟨-, -, -, -, -, -, -, -, e0, e1⟩ := idx_facts t
  intro a
  match a with
  | ⟨0, _⟩ => show win1_4.index t (0 : Fin 2) * 4096 ≤ (i 0).val ∧ (i 0).val < win1_4.index t (0 : Fin 2) * 4096 + 4096; rw [e0, ht]; omega
  | ⟨1, _⟩ => show win1_4.index t (1 : Fin 2) * 64 ≤ (i 1).val ∧ (i 1).val < win1_4.index t (1 : Fin 2) * 64 + 64; rw [e1]; omega

/-- The result array after the region: the combine step of the arrays the region found. -/
theorem final (c : Dev nD) : (dat1 V c).arrAt 4 cfg1.N = fuseReluG (V c main_v40) (V c main_v27) (V c main_v42) (V c main_v41) :=
  (dat1 V c).arrAt_eq_of_cover 4 _ (fun t _ => flushed_eq V c t) cover

end Cert.KernelIdeal.Reg1

end
-- ==== Proof.Region2.lean ====
/-
  Feature transform 2: the kernel is run on 32 tiles of 4096 rows.  At tile t it reads rows [4096 t, 4096 t + 4096)
  of the node features and the whole weight matrix, multiplies them into a zero accumulator, and writes rows
  [4096 t, 4096 t + 4096) of the result.  Row i of a product X · W reads only row i of X, so what tile t writes is
  rows [4096 t, 4096 t + 4096) of the whole product; the 32 tiles cover all 131072 rows.
-/
import proofs.«151674_j4475355922840_1_alg».proof.Proof.Gen.KernelIdeal.Frame
import proofs.«151674_j4475355922840_1_alg».proof.Proof.LibRowTiles
import Idealize.ShloMosaic.Lib.Pipeline.Value

set_option maxRecDepth 16384

noncomputable section

open scoped BigOperators

namespace Cert.KernelIdeal.Reg2

open Cert.KernelIdeal Cert.KernelIdeal.Gen Cert.RowTiles
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: features and result at block (t, 0), the weights at (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem t_lt (t : Fin cfg2.N) : t.val < 32 := lt_of_lt_of_eq t.isLt N_2

/-- Row p of tile t is row 4096 t + p of the array. -/
def row (t : Fin cfg2.N) (p : Fin 4096) : Fin 131072 := ⟨t.val * 4096 + p.val, by have := t_lt t; have := p.isLt; omega⟩

theorem blk0 (c : Dev nD) (t : Fin cfg2.N) (p : Fin 4096) (l : Fin 64) :
    iblk2 V c 0 t (ix2 p l) = V c main_v43 (ix2 (row t p) l) := by
  show V c main_v43 (((cfg2.win 0).blk t).view.emb (ix2 p l)) = _
  refine congrArg _ (funext fun a => Fin.ext ?_)
  obtain ⟨e0, e1, -⟩ := idx_facts t
  match a with
  | ⟨0, _⟩ => show win2_0.index t (0 : Fin 2) * 4096 + 1 * p.val = t.val * 4096 + p.val; rw [e0]; omega
  | ⟨1, _⟩ => show win2_0.index t (1 : Fin 2) * 64 + 1 * l.val = l.val; rw [e1]; omega

theorem blk1 (c : Dev nD) (t : Fin cfg2.N) (q : Fin 64) (l : Fin 128) :
    iblk2 V c 1 t (ix2 q l) = V c main_arg5 (ix2 q l) := by
  show V c main_arg5 (((cfg2.win 1).blk t).view.emb (ix2 q l)) = _
  refine congrArg _ (funext fun a => Fin.ext ?_)
  obtain ⟨-, -, e0, e1, -⟩ := idx_facts t
  match a with
  | ⟨0, _⟩ => show win2_1.index t (0 : Fin 2) * 64 + 1 * q.val = q.val; rw [e0]; omega
  | ⟨1, _⟩ => show win2_1.index t (1 : Fin 2) * 128 + 1 * l.val = l.val; rw [e1]; omega

theorem emb2 (t : Fin cfg2.N) (p : Fin 4096) (l : Fin 128) :
    ((cfg2.win 2).blk t).view.emb (ix2 p l) = ix2 (row t p) l := by
  refine funext fun a => Fin.ext ?_
  obtain ⟨-, -, -, -, e0, e1⟩ := idx_facts t
  match a with
  | ⟨0, _⟩ => show win2_2.index t (0 : Fin 2) * 4096 + 1 * p.val = t.val * 4096 + p.val; rw [e0]; omega
  | ⟨1, _⟩ => show win2_2.index t (1 : Fin 2) * 128 + 1 * l.val = l.val; rw [e1]; omega

/-! The structure of the product's dimension record: one contracted axis of extent 64, the left operand read at
    (row, k) and the right at (k, column). -/
theorem d_l0 (j : S4096x128.Idx) (q : dot_S4096x64_S64x128_S4096x128_1_0_0_1_n_n.contr.Idx) : (dot_S4096x64_S64x128_S4096x128_1_0_0_1_n_n.lhsIdx j q 0).val = (j 0).val := by
  unfold DotDims.lhsIdx
  rw [dif_neg (show ¬(0 : Fin S4096x64.rank) ∈ dot_S4096x64_S64x128_S4096x128_1_0_0_1_n_n.lhsBatch by decide), dif_pos (show (0 : Fin S4096x64.rank) ∈ dot_S4096x64_S64x128_S4096x128_1_0_0_1_n_n.lhsNonContracting by decide)]
  rfl
theorem d_l1 (j : S4096x128.Idx) (q : dot_S4096x64_S64x128_S4096x128_1_0_0_1_n_n.contr.Idx) : (dot_S4096x64_S64x128_S4096x128_1_0_0_1_n_n.lhsIdx j q 1).val = (q ⟨0, by decide⟩).val :=
  dot_S4096x64_S64x128_S4096x128_1_0_0_1_n_n.lhsIdx_val_of_single rfl j q
theorem d_r0 (j : S4096x128.Idx) (q : dot_S4096x64_S64x128_S4096x128_1_0_0_1_n_n.contr.Idx) : (dot_S4096x64_S64x128_S4096x128_1_0_0_1_n_n.rhsIdx j q 0).val = (q ⟨0, by decide⟩).val :=
  dot_S4096x64_S64x128_S4096x128_1_0_0_1_n_n.rhsIdx_val_of_single rfl j q
theorem d_r1 (j : S4096x128.Idx) (q : dot_S4096x64_S64x128_S4096x128_1_0_0_1_n_n.contr.Idx) : (dot_S4096x64_S64x128_S4096x128_1_0_0_1_n_n.rhsIdx j q 1).val = (j 1).val := by
  unfold DotDims.rhsIdx
  rw [dif_neg (show ¬(1 : Fin S64x128.rank) ∈ dot_S4096x64_S64x128_S4096x128_1_0_0_1_n_n.rhsBatch by decide), dif_pos (show (1 : Fin S64x128.rank) ∈ dot_S4096x64_S64x128_S4096x128_1_0_0_1_n_n.rhsNonContracting by decide)]
  rfl

/-- What tile t writes back is its rows of the whole product. -/
theorem flushed_eq (c : Dev nD) (t : Fin cfg2.N) :
    (dat2 V c).flushed 2 t = ((cfg2.win 2).blk t).view.read (Elt Ideal) (mmG (V c main_v43) (V c main_arg5)) := by
  show (cfg2.win 2).cut (grid2.coords t) ((dat2 V c).after 2 t) = _
  rw [after2_2]
  unfold out2_2
  rw [View.canon_unit_zero hz]
  simp only [View.ld_unit_zero (S := S4096x64) hz, View.ld_unit_zero (S := S64x128) hz]
  refine funext fun (j : S4096x128.Idx) => ?_
  obtain ⟨p, l, rfl⟩ : ∃ (p : Fin 4096) (l : Fin 128), j = ix2 p l := ⟨j 0, j 1, eq_ix2 j⟩
  show k2_pay1 (iblk2 V c 0 t) (iblk2 V c 1 t) (ix2 p l)
    = mmG (V c main_v43) (V c main_arg5) (((cfg2.win 2).blk t).view.emb (ix2 p l))
  rw [emb2 t p l]
  exact mm_tile_cast (row t) dot_S4096x64_S64x128_S4096x128_1_0_0_1_n_n rfl rfl d_l0 d_l1 d_r0 d_r1 (iblk2 V c 0 t) _ (V c main_v43) (iblk2 V c 1 t) (V c main_arg5)
    (blk0 V c t) (blk1 V c t) p l

/-- An index of the result array is in tile t's block iff its row is one of the tile's. -/
theorem mem_blk (t : Fin cfg2.N) (i : S131072x128.Idx) :
    i ∈ ((cfg2.win 2).blk t).view.set ↔ ∀ a : Fin 2, win2_2.index t a * S4096x128.size a ≤ (i a).val ∧ (i a).val < win2_2.index t a * S4096x128.size a + S4096x128.size a := by
  show i ∈ ((View.whole main_v44).slice (win2_2.rect t)).set ↔ _
  rw [View.set_slice_whole, Rect.mem_set_unit]
  exact Iff.rfl

/-- Every row belongs to a tile: row i to tile i / 4096. -/
theorem cover (i : S131072x128.Idx) : ∃ t : Fin cfg2.N, (cfg2.win 2).flush t = true ∧ i ∈ ((cfg2.win 2).blk t).view.set := by
  have hi0 : (i 0).val < 131072 := (i 0).isLt
  have hi1 : (i 1).val < 128 := (i 1).isLt
  have hq : (i 0).val / 4096 < 32 := by omega
  obtain ⟨t, ht⟩ : ∃ t : Fin cfg2.N, t.val = (i 0).val / 4096 := ⟨⟨(i 0).val / 4096, lt_of_lt_of_eq hq N_2.symm⟩, rfl⟩
  refine ⟨t, flush2_2 t, ?_⟩
  rw [mem_blk]
  obtain ⟨-, -, -, -, e0, e1⟩ := idx_facts t
  intro a
  match a with
  | ⟨0, _⟩ => show win2_2.index t (0 : Fin 2) * 4096 ≤ (i 0).val ∧ (i 0).val < win2_2.index t (0 : Fin 2) * 4096 + 4096; rw [e0, ht]; omega
  | ⟨1, _⟩ => show win2_2.index t (1 : Fin 2) * 128 ≤ (i 1).val ∧ (i 1).val < win2_2.index t (1 : Fin 2) * 128 + 128; rw [e1]; omega

/-- The result array after the region: the product of the arrays the region found. -/
theorem final (c : Dev nD) : (dat2 V c).arrAt 2 cfg2.N = mmG (V c main_v43) (V c main_arg5) :=
  (dat2 V c).arrAt_eq_of_cover 2 _ (fun t _ => flushed_eq V c t) cover

end Cert.KernelIdeal.Reg2

end
-- ==== Proof.Region3.lean ====
/-
  Layer combine step 3: the kernel is run on 32 tiles of 4096 rows.  At tile t it reads rows [4096 t, 4096 t + 4096)
  of the aggregated messages, of the transformed features and of the column of self-loop weights, and the whole
  bias row, and writes rows [4096 t, 4096 t + 4096) of the result.  Each row of the combine step reads only its
  own row of those operands, so what tile t writes is rows [4096 t, 4096 t + 4096) of the step applied to the
  whole arrays; the 32 tiles cover all 131072 rows, so the array ends holding the step of the whole arrays.
-/
import proofs.«151674_j4475355922840_1_alg».proof.Proof.Gen.KernelIdeal.Frame
import proofs.«151674_j4475355922840_1_alg».proof.Proof.LibRowTiles
import Idealize.ShloMosaic.Lib.Pipeline.Value

set_option maxRecDepth 16384

noncomputable section

open scoped BigOperators

namespace Cert.KernelIdeal.Reg3

open Cert.KernelIdeal Cert.KernelIdeal.Gen Cert.RowTiles
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the row-indexed windows sit at block (t, 0), the bias row at (0, 0). -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

theorem t_lt (t : Fin cfg3.N) : t.val < 32 := lt_of_lt_of_eq t.isLt N_3

/-- Row p of tile t is row 4096 t + p of the array. -/
def row (t : Fin cfg3.N) (p : Fin 4096) : Fin 131072 := ⟨t.val * 4096 + p.val, by have := t_lt t; have := p.isLt; omega⟩

theorem blk0 (c : Dev nD) (t : Fin cfg3.N) (p : Fin 4096) (l : Fin 128) :
    iblk3 V c 0 t (ix2 p l) = V c main_v57 (ix2 (row t p) l) := by
  show V c main_v57 (((cfg3.win 0).blk t).view.emb (ix2 p l)) = _
  refine congrArg _ (funext fun a => Fin.ext ?_)
  obtain ⟨e0, e1, -⟩ := idx_facts t
  match a with
  | ⟨0, _⟩ => show win3_0.index t (0 : Fin 2) * 4096 + 1 * p.val = t.val * 4096 + p.val; rw [e0]; omega
  | ⟨1, _⟩ => show win3_0.index t (1 : Fin 2) * 128 + 1 * l.val = l.val; rw [e1]; omega

theorem blk1 (c : Dev nD) (t : Fin cfg3.N) (p : Fin 4096) (l : Fin 128) :
    iblk3 V c 1 t (ix2 p l) = V c main_v44 (ix2 (row t p) l) := by
  show V c main_v44 (((cfg3.win 1).blk t).view.emb (ix2 p l)) = _
  refine congrArg _ (funext fun a => Fin.ext ?_)
  obtain ⟨-, -, e0, e1, -⟩ := idx_facts t
  match a with
  | ⟨0, _⟩ => show win3_1.index t (0 : Fin 2) * 4096 + 1 * p.val = t.val * 4096 + p.val; rw [e0]; omega
  | ⟨1, _⟩ => show win3_1.index t (1 : Fin 2) * 128 + 1 * l.val = l.val; rw [e1]; omega

theorem blk2 (c : Dev nD) (t : Fin cfg3.N) (p : Fin 4096) :
    iblk3 V c 2 t (ix2 p o1) = V c main_v59 (ix2 (row t p) o1) := by
  show V c main_v59 (((cfg3.win 2).blk t).view.emb (ix2 p o1)) = _
  refine congrArg _ (funext fun a => Fin.ext ?_)
  obtain ⟨-, -, -, -, e0, e1, -⟩ := idx_facts t
  match a with
  | ⟨0, _⟩ => show win3_2.index t (0 : Fin 2) * 4096 + 1 * p.val = t.val * 4096 + p.val; rw [e0]; omega
  | ⟨1, _⟩ => show win3_2.index t (1 : Fin 2) * 1 + 1 * 0 = 0; rw [e1]

theorem blk3 (c : Dev nD) (t : Fin cfg3.N) (l : Fin 128) :
    iblk3 V c 3 t (ix2 o1 l) = V c main_v58 (ix2 o1 l) := by
  show V c main_v58 (((cfg3.win 3).blk t).view.emb (ix2 o1 l)) = _
  refine congrArg _ (funext fun a => Fin.ext ?_)
  obtain ⟨-, -, -, -, -, -, e0, e1, -⟩ := idx_facts t
  match a with
  | ⟨0, _⟩ => show win3_3.index t (0 : Fin 2) * 1 + 1 * 0 = 0; rw [e0]
  | ⟨1, _⟩ => show win3_3.index t (1 : Fin 2) * 128 + 1 * l.val = l.val; rw [e1]; omega

theorem emb4 (t : Fin cfg3.N) (p : Fin 4096) (l : Fin 128) :
    ((cfg3.win 4).blk t).view.emb (ix2 p l) = ix2 (row t p) l := by
  refine funext fun a => Fin.ext ?_
  obtain ⟨-, -, -, -, -, -, -, -, e0, e1⟩ := idx_facts t
  match a with
  | ⟨0, _⟩ => show win3_4.index t (0 : Fin 2) * 4096 + 1 * p.val = t.val * 4096 + p.val; rw [e0]; omega
  | ⟨1, _⟩ => show win3_4.index t (1 : Fin 2) * 128 + 1 * l.val = l.val; rw [e1]; omega

/-- What tile t writes back is its rows of the combine step of the whole arrays. -/
theorem flushed_eq (c : Dev nD) (t : Fin cfg3.N) :
    (dat3 V c).flushed 4 t = ((cfg3.win 4).blk t).view.read (Elt Ideal)
      (fuseReluG (V c main_v57) (V c main_v44) (V c main_v59) (V c main_v58)) := by
  show (cfg3.win 4).cut (grid3.coords t) ((dat3 V c).after 4 t) = _
  rw [after3_4]
  unfold out3_4
  rw [View.canon_unit_zero hz]
  simp only [View.ld_unit_zero (S := S4096x128) hz, View.ld_unit_zero (S := S4096x1) hz, View.ld_unit_zero (S := S1x128) hz]
  refine funext fun (j : S4096x128.Idx) => ?_
  obtain ⟨p, l, rfl⟩ : ∃ (p : Fin 4096) (l : Fin 128), j = ix2 p l := ⟨j 0, j 1, eq_ix2 j⟩
  show k3_pay1 (iblk3 V c 0 t) (iblk3 V c 1 t) (iblk3 V c 2 t) (iblk3 V c 3 t) (ix2 p l)
    = fuseReluG (V c main_v57) (V c main_v44) (V c main_v59) (V c main_v58) (((cfg3.win 4).blk t).view.emb (ix2 p l))
  rw [emb4 t p l]
  exact fuseRelu_tile (row t) (iblk3 V c 0 t) (iblk3 V c 1 t) (iblk3 V c 2 t) (iblk3 V c 3 t) _ _ _ _ _
    (V c main_v57) (V c main_v44) (V c main_v59) (V c main_v58) (blk0 V c t) (blk1 V c t) (blk2 V c t) (blk3 V c t) p l

/-- An index of the result array is in tile t's block iff its row is one of the tile's. -/
theorem mem_blk (t : Fin cfg3.N) (i : S131072x128.Idx) :
    i ∈ ((cfg3.win 4).blk t).view.set ↔ ∀ a : Fin 2, win3_4.index t a * S4096x128.size a ≤ (i a).val ∧ (i a).val < win3_4.index t a * S4096x128.size a + S4096x128.size a := by
  show i ∈ ((View.whole main_v60).slice (win3_4.rect t)).set ↔ _
  rw [View.set_slice_whole, Rect.mem_set_unit]
  exact Iff.rfl

/-- Every row belongs to a tile: row i to tile i / 4096. -/
theorem cover (i : S131072x128.Idx) : ∃ t : Fin cfg3.N, (cfg3.win 4).flush t = true ∧ i ∈ ((cfg3.win 4).blk t).view.set := by
  have hi0 : (i 0).val < 131072 := (i 0).isLt
  have hi1 : (i 1).val < 128 := (i 1).isLt
  have hq : (i 0).val / 4096 < 32 := by omega
  obtain ⟨t, ht⟩ : ∃ t : Fin cfg3.N, t.val = (i 0).val / 4096 := ⟨⟨(i 0).val / 4096, lt_of_lt_of_eq hq N_3.symm⟩, rfl⟩
  refine ⟨t, flush3_4 t, ?_⟩
  rw [mem_blk]
  obtain ⟨-, -, -, -, -, -, -, -, e0, e1⟩ := idx_facts t
  intro a
  match a with
  | ⟨0, _⟩ => show win3_4.index t (0 : Fin 2) * 4096 ≤ (i 0).val ∧ (i 0).val < win3_4.index t (0 : Fin 2) * 4096 + 4096; rw [e0, ht]; omega
  | ⟨1, _⟩ => show win3_4.index t (1 : Fin 2) * 128 ≤ (i 1).val ∧ (i 1).val < win3_4.index t (1 : Fin 2) * 128 + 128; rw [e1]; omega

/-- The result array after the region: the combine step of the arrays the region found. -/
theorem final (c : Dev nD) : (dat3 V c).arrAt 4 cfg3.N = fuseReluG (V c main_v57) (V c main_v44) (V c main_v59) (V c main_v58) :=
  (dat3 V c).arrAt_eq_of_cover 4 _ (fun t _ => flushed_eq V c t) cover

end Cert.KernelIdeal.Reg3

end
-- ==== Proof.Region4.lean ====
/-
  Feature transform 4: the kernel is run on 32 tiles of 4096 rows.  At tile t it reads rows [4096 t, 4096 t + 4096)
  of the node features and the whole weight matrix, multiplies them into a zero accumulator, and writes rows
  [4096 t, 4096 t + 4096) of the result.  Row i of a product X · W reads only row i of X, so what tile t writes is
  rows [4096 t, 4096 t + 4096) of the whole product; the 32 tiles cover all 131072 rows.
-/
import proofs.«151674_j4475355922840_1_alg».proof.Proof.Gen.KernelIdeal.Frame
import proofs.«151674_j4475355922840_1_alg».proof.Proof.LibRowTiles
import Idealize.ShloMosaic.Lib.Pipeline.Value

set_option maxRecDepth 16384

noncomputable section

open scoped BigOperators

namespace Cert.KernelIdeal.Reg4

open Cert.KernelIdeal Cert.KernelIdeal.Gen Cert.RowTiles
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: features and result at block (t, 0), the weights at (0, 0). -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

theorem t_lt (t : Fin cfg4.N) : t.val < 32 := lt_of_lt_of_eq t.isLt N_4

/-- Row p of tile t is row 4096 t + p of the array. -/
def row (t : Fin cfg4.N) (p : Fin 4096) : Fin 131072 := ⟨t.val * 4096 + p.val, by have := t_lt t; have := p.isLt; omega⟩

theorem blk0 (c : Dev nD) (t : Fin cfg4.N) (p : Fin 4096) (l : Fin 128) :
    iblk4 V c 0 t (ix2 p l) = V c main_v60 (ix2 (row t p) l) := by
  show V c main_v60 (((cfg4.win 0).blk t).view.emb (ix2 p l)) = _
  refine congrArg _ (funext fun a => Fin.ext ?_)
  obtain ⟨e0, e1, -⟩ := idx_facts t
  match a with
  | ⟨0, _⟩ => show win4_0.index t (0 : Fin 2) * 4096 + 1 * p.val = t.val * 4096 + p.val; rw [e0]; omega
  | ⟨1, _⟩ => show win4_0.index t (1 : Fin 2) * 128 + 1 * l.val = l.val; rw [e1]; omega

theorem blk1 (c : Dev nD) (t : Fin cfg4.N) (q : Fin 128) (l : Fin 256) :
    iblk4 V c 1 t (ix2 q l) = V c main_arg7 (ix2 q l) := by
  show V c main_arg7 (((cfg4.win 1).blk t).view.emb (ix2 q l)) = _
  refine congrArg _ (funext fun a => Fin.ext ?_)
  obtain ⟨-, -, e0, e1, -⟩ := idx_facts t
  match a with
  | ⟨0, _⟩ => show win4_1.index t (0 : Fin 2) * 128 + 1 * q.val = q.val; rw [e0]; omega
  | ⟨1, _⟩ => show win4_1.index t (1 : Fin 2) * 256 + 1 * l.val = l.val; rw [e1]; omega

theorem emb2 (t : Fin cfg4.N) (p : Fin 4096) (l : Fin 256) :
    ((cfg4.win 2).blk t).view.emb (ix2 p l) = ix2 (row t p) l := by
  refine funext fun a => Fin.ext ?_
  obtain ⟨-, -, -, -, e0, e1⟩ := idx_facts t
  match a with
  | ⟨0, _⟩ => show win4_2.index t (0 : Fin 2) * 4096 + 1 * p.val = t.val * 4096 + p.val; rw [e0]; omega
  | ⟨1, _⟩ => show win4_2.index t (1 : Fin 2) * 256 + 1 * l.val = l.val; rw [e1]; omega

/-! The structure of the product's dimension record: one contracted axis of extent 128, the left operand read at
    (row, k) and the right at (k, column). -/
theorem d_l0 (j : S4096x256.Idx) (q : dot_S4096x128_S128x256_S4096x256_1_0_0_1_n_n.contr.Idx) : (dot_S4096x128_S128x256_S4096x256_1_0_0_1_n_n.lhsIdx j q 0).val = (j 0).val := by
  unfold DotDims.lhsIdx
  rw [dif_neg (show ¬(0 : Fin S4096x128.rank) ∈ dot_S4096x128_S128x256_S4096x256_1_0_0_1_n_n.lhsBatch by decide), dif_pos (show (0 : Fin S4096x128.rank) ∈ dot_S4096x128_S128x256_S4096x256_1_0_0_1_n_n.lhsNonContracting by decide)]
  rfl
theorem d_l1 (j : S4096x256.Idx) (q : dot_S4096x128_S128x256_S4096x256_1_0_0_1_n_n.contr.Idx) : (dot_S4096x128_S128x256_S4096x256_1_0_0_1_n_n.lhsIdx j q 1).val = (q ⟨0, by decide⟩).val :=
  dot_S4096x128_S128x256_S4096x256_1_0_0_1_n_n.lhsIdx_val_of_single rfl j q
theorem d_r0 (j : S4096x256.Idx) (q : dot_S4096x128_S128x256_S4096x256_1_0_0_1_n_n.contr.Idx) : (dot_S4096x128_S128x256_S4096x256_1_0_0_1_n_n.rhsIdx j q 0).val = (q ⟨0, by decide⟩).val :=
  dot_S4096x128_S128x256_S4096x256_1_0_0_1_n_n.rhsIdx_val_of_single rfl j q
theorem d_r1 (j : S4096x256.Idx) (q : dot_S4096x128_S128x256_S4096x256_1_0_0_1_n_n.contr.Idx) : (dot_S4096x128_S128x256_S4096x256_1_0_0_1_n_n.rhsIdx j q 1).val = (j 1).val := by
  unfold DotDims.rhsIdx
  rw [dif_neg (show ¬(1 : Fin S128x256.rank) ∈ dot_S4096x128_S128x256_S4096x256_1_0_0_1_n_n.rhsBatch by decide), dif_pos (show (1 : Fin S128x256.rank) ∈ dot_S4096x128_S128x256_S4096x256_1_0_0_1_n_n.rhsNonContracting by decide)]
  rfl

/-- What tile t writes back is its rows of the whole product. -/
theorem flushed_eq (c : Dev nD) (t : Fin cfg4.N) :
    (dat4 V c).flushed 2 t = ((cfg4.win 2).blk t).view.read (Elt Ideal) (mmG (V c main_v60) (V c main_arg7)) := by
  show (cfg4.win 2).cut (grid4.coords t) ((dat4 V c).after 2 t) = _
  rw [after4_2]
  unfold out4_2
  rw [View.canon_unit_zero hz]
  simp only [View.ld_unit_zero (S := S4096x128) hz, View.ld_unit_zero (S := S128x256) hz]
  refine funext fun (j : S4096x256.Idx) => ?_
  obtain ⟨p, l, rfl⟩ : ∃ (p : Fin 4096) (l : Fin 256), j = ix2 p l := ⟨j 0, j 1, eq_ix2 j⟩
  show k4_pay1 (iblk4 V c 0 t) (iblk4 V c 1 t) (ix2 p l)
    = mmG (V c main_v60) (V c main_arg7) (((cfg4.win 2).blk t).view.emb (ix2 p l))
  rw [emb2 t p l]
  exact mm_tile_cast (row t) dot_S4096x128_S128x256_S4096x256_1_0_0_1_n_n rfl rfl d_l0 d_l1 d_r0 d_r1 (iblk4 V c 0 t) _ (V c main_v60) (iblk4 V c 1 t) (V c main_arg7)
    (blk0 V c t) (blk1 V c t) p l

/-- An index of the result array is in tile t's block iff its row is one of the tile's. -/
theorem mem_blk (t : Fin cfg4.N) (i : S131072x256.Idx) :
    i ∈ ((cfg4.win 2).blk t).view.set ↔ ∀ a : Fin 2, win4_2.index t a * S4096x256.size a ≤ (i a).val ∧ (i a).val < win4_2.index t a * S4096x256.size a + S4096x256.size a := by
  show i ∈ ((View.whole main_v61).slice (win4_2.rect t)).set ↔ _
  rw [View.set_slice_whole, Rect.mem_set_unit]
  exact Iff.rfl

/-- Every row belongs to a tile: row i to tile i / 4096. -/
theorem cover (i : S131072x256.Idx) : ∃ t : Fin cfg4.N, (cfg4.win 2).flush t = true ∧ i ∈ ((cfg4.win 2).blk t).view.set := by
  have hi0 : (i 0).val < 131072 := (i 0).isLt
  have hi1 : (i 1).val < 256 := (i 1).isLt
  have hq : (i 0).val / 4096 < 32 := by omega
  obtain ⟨t, ht⟩ : ∃ t : Fin cfg4.N, t.val = (i 0).val / 4096 := ⟨⟨(i 0).val / 4096, lt_of_lt_of_eq hq N_4.symm⟩, rfl⟩
  refine ⟨t, flush4_2 t, ?_⟩
  rw [mem_blk]
  obtain ⟨-, -, -, -, e0, e1⟩ := idx_facts t
  intro a
  match a with
  | ⟨0, _⟩ => show win4_2.index t (0 : Fin 2) * 4096 ≤ (i 0).val ∧ (i 0).val < win4_2.index t (0 : Fin 2) * 4096 + 4096; rw [e0, ht]; omega
  | ⟨1, _⟩ => show win4_2.index t (1 : Fin 2) * 256 ≤ (i 1).val ∧ (i 1).val < win4_2.index t (1 : Fin 2) * 256 + 256; rw [e1]; omega

/-- The result array after the region: the product of the arrays the region found. -/
theorem final (c : Dev nD) : (dat4 V c).arrAt 2 cfg4.N = mmG (V c main_v60) (V c main_arg7) :=
  (dat4 V c).arrAt_eq_of_cover 2 _ (fun t _ => flushed_eq V c t) cover

end Cert.KernelIdeal.Reg4

end
-- ==== Proof.Region5.lean ====
/-
  Layer combine step 5: the kernel is run on 32 tiles of 4096 rows.  At tile t it reads rows [4096 t, 4096 t + 4096)
  of the aggregated messages, of the transformed features and of the column of self-loop weights, and the whole
  bias row, and writes rows [4096 t, 4096 t + 4096) of the result.  Each row of the combine step reads only its
  own row of those operands, so what tile t writes is rows [4096 t, 4096 t + 4096) of the step applied to the
  whole arrays; the 32 tiles cover all 131072 rows, so the array ends holding the step of the whole arrays.
-/
import proofs.«151674_j4475355922840_1_alg».proof.Proof.Gen.KernelIdeal.Frame
import proofs.«151674_j4475355922840_1_alg».proof.Proof.LibRowTiles
import Idealize.ShloMosaic.Lib.Pipeline.Value

set_option maxRecDepth 16384

noncomputable section

open scoped BigOperators

namespace Cert.KernelIdeal.Reg5

open Cert.KernelIdeal Cert.KernelIdeal.Gen Cert.RowTiles
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the row-indexed windows sit at block (t, 0), the bias row at (0, 0). -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

theorem t_lt (t : Fin cfg5.N) : t.val < 32 := lt_of_lt_of_eq t.isLt N_5

/-- Row p of tile t is row 4096 t + p of the array. -/
def row (t : Fin cfg5.N) (p : Fin 4096) : Fin 131072 := ⟨t.val * 4096 + p.val, by have := t_lt t; have := p.isLt; omega⟩

theorem blk0 (c : Dev nD) (t : Fin cfg5.N) (p : Fin 4096) (l : Fin 256) :
    iblk5 V c 0 t (ix2 p l) = V c main_v74 (ix2 (row t p) l) := by
  show V c main_v74 (((cfg5.win 0).blk t).view.emb (ix2 p l)) = _
  refine congrArg _ (funext fun a => Fin.ext ?_)
  obtain ⟨e0, e1, -⟩ := idx_facts t
  match a with
  | ⟨0, _⟩ => show win5_0.index t (0 : Fin 2) * 4096 + 1 * p.val = t.val * 4096 + p.val; rw [e0]; omega
  | ⟨1, _⟩ => show win5_0.index t (1 : Fin 2) * 256 + 1 * l.val = l.val; rw [e1]; omega

theorem blk1 (c : Dev nD) (t : Fin cfg5.N) (p : Fin 4096) (l : Fin 256) :
    iblk5 V c 1 t (ix2 p l) = V c main_v61 (ix2 (row t p) l) := by
  show V c main_v61 (((cfg5.win 1).blk t).view.emb (ix2 p l)) = _
  refine congrArg _ (funext fun a => Fin.ext ?_)
  obtain ⟨-, -, e0, e1, -⟩ := idx_facts t
  match a with
  | ⟨0, _⟩ => show win5_1.index t (0 : Fin 2) * 4096 + 1 * p.val = t.val * 4096 + p.val; rw [e0]; omega
  | ⟨1, _⟩ => show win5_1.index t (1 : Fin 2) * 256 + 1 * l.val = l.val; rw [e1]; omega

theorem blk2 (c : Dev nD) (t : Fin cfg5.N) (p : Fin 4096) :
    iblk5 V c 2 t (ix2 p o1) = V c main_v76 (ix2 (row t p) o1) := by
  show V c main_v76 (((cfg5.win 2).blk t).view.emb (ix2 p o1)) = _
  refine congrArg _ (funext fun a => Fin.ext ?_)
  obtain ⟨-, -, -, -, e0, e1, -⟩ := idx_facts t
  match a with
  | ⟨0, _⟩ => show win5_2.index t (0 : Fin 2) * 4096 + 1 * p.val = t.val * 4096 + p.val; rw [e0]; omega
  | ⟨1, _⟩ => show win5_2.index t (1 : Fin 2) * 1 + 1 * 0 = 0; rw [e1]

theorem blk3 (c : Dev nD) (t : Fin cfg5.N) (l : Fin 256) :
    iblk5 V c 3 t (ix2 o1 l) = V c main_v75 (ix2 o1 l) := by
  show V c main_v75 (((cfg5.win 3).blk t).view.emb (ix2 o1 l)) = _
  refine congrArg _ (funext fun a => Fin.ext ?_)
  obtain ⟨-, -, -, -, -, -, e0, e1, -⟩ := idx_facts t
  match a with
  | ⟨0, _⟩ => show win5_3.index t (0 : Fin 2) * 1 + 1 * 0 = 0; rw [e0]
  | ⟨1, _⟩ => show win5_3.index t (1 : Fin 2) * 256 + 1 * l.val = l.val; rw [e1]; omega

theorem emb4 (t : Fin cfg5.N) (p : Fin 4096) (l : Fin 256) :
    ((cfg5.win 4).blk t).view.emb (ix2 p l) = ix2 (row t p) l := by
  refine funext fun a => Fin.ext ?_
  obtain ⟨-, -, -, -, -, -, -, -, e0, e1⟩ := idx_facts t
  match a with
  | ⟨0, _⟩ => show win5_4.index t (0 : Fin 2) * 4096 + 1 * p.val = t.val * 4096 + p.val; rw [e0]; omega
  | ⟨1, _⟩ => show win5_4.index t (1 : Fin 2) * 256 + 1 * l.val = l.val; rw [e1]; omega

/-- What tile t writes back is its rows of the combine step of the whole arrays. -/
theorem flushed_eq (c : Dev nD) (t : Fin cfg5.N) :
    (dat5 V c).flushed 4 t = ((cfg5.win 4).blk t).view.read (Elt Ideal)
      (fuseG (V c main_v74) (V c main_v61) (V c main_v76) (V c main_v75)) := by
  show (cfg5.win 4).cut (grid5.coords t) ((dat5 V c).after 4 t) = _
  rw [after5_4]
  unfold out5_4
  rw [View.canon_unit_zero hz]
  simp only [View.ld_unit_zero (S := S4096x256) hz, View.ld_unit_zero (S := S4096x1) hz, View.ld_unit_zero (S := S1x256) hz]
  refine funext fun (j : S4096x256.Idx) => ?_
  obtain ⟨p, l, rfl⟩ : ∃ (p : Fin 4096) (l : Fin 256), j = ix2 p l := ⟨j 0, j 1, eq_ix2 j⟩
  show k5_pay1 (iblk5 V c 0 t) (iblk5 V c 1 t) (iblk5 V c 2 t) (iblk5 V c 3 t) (ix2 p l)
    = fuseG (V c main_v74) (V c main_v61) (V c main_v76) (V c main_v75) (((cfg5.win 4).blk t).view.emb (ix2 p l))
  rw [emb4 t p l]
  exact fuse_tile (row t) (iblk5 V c 0 t) (iblk5 V c 1 t) (iblk5 V c 2 t) (iblk5 V c 3 t) _ _ _ _ _
    (V c main_v74) (V c main_v61) (V c main_v76) (V c main_v75) (blk0 V c t) (blk1 V c t) (blk2 V c t) (blk3 V c t) p l

/-- An index of the result array is in tile t's block iff its row is one of the tile's. -/
theorem mem_blk (t : Fin cfg5.N) (i : S131072x256.Idx) :
    i ∈ ((cfg5.win 4).blk t).view.set ↔ ∀ a : Fin 2, win5_4.index t a * S4096x256.size a ≤ (i a).val ∧ (i a).val < win5_4.index t a * S4096x256.size a + S4096x256.size a := by
  show i ∈ ((View.whole main_v77).slice (win5_4.rect t)).set ↔ _
  rw [View.set_slice_whole, Rect.mem_set_unit]
  exact Iff.rfl

/-- Every row belongs to a tile: row i to tile i / 4096. -/
theorem cover (i : S131072x256.Idx) : ∃ t : Fin cfg5.N, (cfg5.win 4).flush t = true ∧ i ∈ ((cfg5.win 4).blk t).view.set := by
  have hi0 : (i 0).val < 131072 := (i 0).isLt
  have hi1 : (i 1).val < 256 := (i 1).isLt
  have hq : (i 0).val / 4096 < 32 := by omega
  obtain ⟨t, ht⟩ : ∃ t : Fin cfg5.N, t.val = (i 0).val / 4096 := ⟨⟨(i 0).val / 4096, lt_of_lt_of_eq hq N_5.symm⟩, rfl⟩
  refine ⟨t, flush5_4 t, ?_⟩
  rw [mem_blk]
  obtain ⟨-, -, -, -, -, -, -, -, e0, e1⟩ := idx_facts t
  intro a
  match a with
  | ⟨0, _⟩ => show win5_4.index t (0 : Fin 2) * 4096 ≤ (i 0).val ∧ (i 0).val < win5_4.index t (0 : Fin 2) * 4096 + 4096; rw [e0, ht]; omega
  | ⟨1, _⟩ => show win5_4.index t (1 : Fin 2) * 256 ≤ (i 1).val ∧ (i 1).val < win5_4.index t (1 : Fin 2) * 256 + 256; rw [e1]; omega

/-- The result array after the region: the combine step of the arrays the region found. -/
theorem final (c : Dev nD) : (dat5 V c).arrAt 4 cfg5.N = fuseG (V c main_v74) (V c main_v61) (V c main_v76) (V c main_v75) :=
  (dat5 V c).arrAt_eq_of_cover 4 _ (fun t _ => flushed_eq V c t) cover

end Cert.KernelIdeal.Reg5

end
-- ==== Proof.Region6.lean ====
/-
  The read-out: the kernel is run on 4 tiles of 1024 graphs.  At tile t it reads rows [1024 t, 1024 t + 1024) of the
  per-graph feature sums and of the column of node counts, and the two weight matrices and bias rows whole; it
  divides the sums by max(count, 1), applies the hidden layer with relu and the output layer, and writes rows
  [1024 t, 1024 t + 1024) of the result.  Each row of the read-out reads only its own row of the sums and counts, so
  what tile t writes is its rows of the read-out of the whole arrays; the 4 tiles cover all 4096 graphs.
-/
import proofs.«151674_j4475355922840_1_alg».proof.Proof.Gen.KernelIdeal.Frame
import proofs.«151674_j4475355922840_1_alg».proof.Proof.LibRowTiles
import Idealize.ShloMosaic.Lib.Pipeline.Value

set_option maxRecDepth 16384

noncomputable section

open scoped BigOperators

namespace Cert.KernelIdeal.Reg6

open Cert.KernelIdeal Cert.KernelIdeal.Gen Cert.RowTiles
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: sums, counts and result at block (t, 0). -/
theorem idx_facts : ∀ t : Fin cfg6.N, win6_0.index t (0 : Fin 2) = t.val ∧ win6_0.index t (1 : Fin 2) = 0
    ∧ win6_1.index t (0 : Fin 2) = t.val ∧ win6_1.index t (1 : Fin 2) = 0
    ∧ win6_6.index t (0 : Fin 2) = t.val ∧ win6_6.index t (1 : Fin 2) = 0 :=
  (by decide +kernel : ∀ t : Fin grid6.N, _)
/-- … and the weights and bias rows at block (0, 0). -/
theorem idx_whole2 : ∀ t : Fin cfg6.N, win6_2.index t (0 : Fin 2) = 0 ∧ win6_2.index t (1 : Fin 2) = 0 :=
  (by decide +kernel : ∀ t : Fin grid6.N, _)
theorem idx_whole3 : ∀ t : Fin cfg6.N, win6_3.index t (0 : Fin 2) = 0 ∧ win6_3.index t (1 : Fin 2) = 0 :=
  (by decide +kernel : ∀ t : Fin grid6.N, _)
theorem idx_whole4 : ∀ t : Fin cfg6.N, win6_4.index t (0 : Fin 2) = 0 ∧ win6_4.index t (1 : Fin 2) = 0 :=
  (by decide +kernel : ∀ t : Fin grid6.N, _)
theorem idx_whole5 : ∀ t : Fin cfg6.N, win6_5.index t (0 : Fin 2) = 0 ∧ win6_5.index t (1 : Fin 2) = 0 :=
  (by decide +kernel : ∀ t : Fin grid6.N, _)

theorem t_lt (t : Fin cfg6.N) : t.val < 4 := lt_of_lt_of_eq t.isLt N_6

/-- Row p of tile t is row 1024 t + p of the array. -/
def row (t : Fin cfg6.N) (p : Fin 1024) : Fin 4096 := ⟨t.val * 1024 + p.val, by have := t_lt t; have := p.isLt; omega⟩

theorem blk0 (c : Dev nD) (t : Fin cfg6.N) (p : Fin 1024) (l : Fin 256) :
    iblk6 V c 0 t (ix2 p l) = V c main_v80 (ix2 (row t p) l) := by
  show V c main_v80 (((cfg6.win 0).blk t).view.emb (ix2 p l)) = _
  refine congrArg _ (funext fun a => Fin.ext ?_)
  obtain ⟨e0, e1, -⟩ := idx_facts t
  match a with
  | ⟨0, _⟩ => show win6_0.index t (0 : Fin 2) * 1024 + 1 * p.val = t.val * 1024 + p.val; rw [e0]; omega
  | ⟨1, _⟩ => show win6_0.index t (1 : Fin 2) * 256 + 1 * l.val = l.val; rw [e1]; omega

theorem blk1 (c : Dev nD) (t : Fin cfg6.N) (p : Fin 1024) :
    iblk6 V c 1 t (ix2 p o1) = V c main_v85 (ix2 (row t p) o1) := by
  show V c main_v85 (((cfg6.win 1).blk t).view.emb (ix2 p o1)) = _
  refine congrArg _ (funext fun a => Fin.ext ?_)
  obtain ⟨-, -, e0, e1, -⟩ := idx_facts t
  match a with
  | ⟨0, _⟩ => show win6_1.index t (0 : Fin 2) * 1024 + 1 * p.val = t.val * 1024 + p.val; rw [e0]; omega
  | ⟨1, _⟩ => show win6_1.index t (1 : Fin 2) * 1 + 1 * 0 = 0; rw [e1]

theorem blk2 (c : Dev nD) (t : Fin cfg6.N) (q : Fin 256) (l : Fin 128) :
    iblk6 V c 2 t (ix2 q l) = V c main_arg9 (ix2 q l) := by
  show V c main_arg9 (((cfg6.win 2).blk t).view.emb (ix2 q l)) = _
  refine congrArg _ (funext fun a => Fin.ext ?_)
  obtain ⟨e0, e1⟩ := idx_whole2 t
  match a with
  | ⟨0, _⟩ => show win6_2.index t (0 : Fin 2) * 256 + 1 * q.val = q.val; rw [e0]; omega
  | ⟨1, _⟩ => show win6_2.index t (1 : Fin 2) * 128 + 1 * l.val = l.val; rw [e1]; omega

theorem blk3 (c : Dev nD) (t : Fin cfg6.N) (l : Fin 128) :
    iblk6 V c 3 t (ix2 o1 l) = V c main_v86 (ix2 o1 l) := by
  show V c main_v86 (((cfg6.win 3).blk t).view.emb (ix2 o1 l)) = _
  refine congrArg _ (funext fun a => Fin.ext ?_)
  obtain ⟨e0, e1⟩ := idx_whole3 t
  match a with
  | ⟨0, _⟩ => show win6_3.index t (0 : Fin 2) * 1 + 1 * 0 = 0; rw [e0]
  | ⟨1, _⟩ => show win6_3.index t (1 : Fin 2) * 128 + 1 * l.val = l.val; rw [e1]; omega

theorem blk4 (c : Dev nD) (t : Fin cfg6.N) (q : Fin 128) (l : Fin 12) :
    iblk6 V c 4 t (ix2 q l) = V c main_arg11 (ix2 q l) := by
  show V c main_arg11 (((cfg6.win 4).blk t).view.emb (ix2 q l)) = _
  refine congrArg _ (funext fun a => Fin.ext ?_)
  obtain ⟨e0, e1⟩ := idx_whole4 t
  match a with
  | ⟨0, _⟩ => show win6_4.index t (0 : Fin 2) * 128 + 1 * q.val = q.val; rw [e0]; omega
  | ⟨1, _⟩ => show win6_4.index t (1 : Fin 2) * 12 + 1 * l.val = l.val; rw [e1]; omega

theorem blk5 (c : Dev nD) (t : Fin cfg6.N) (l : Fin 12) :
    iblk6 V c 5 t (ix2 o1 l) = V c main_v87 (ix2 o1 l) := by
  show V c main_v87 (((cfg6.win 5).blk t).view.emb (ix2 o1 l)) = _
  refine congrArg _ (funext fun a => Fin.ext ?_)
  obtain ⟨e0, e1⟩ := idx_whole5 t
  match a with
  | ⟨0, _⟩ => show win6_5.index t (0 : Fin 2) * 1 + 1 * 0 = 0; rw [e0]
  | ⟨1, _⟩ => show win6_5.index t (1 : Fin 2) * 12 + 1 * l.val = l.val; rw [e1]; omega

theorem emb6 (t : Fin cfg6.N) (p : Fin 1024) (l : Fin 12) :
    ((cfg6.win 6).blk t).view.emb (ix2 p l) = ix2 (row t p) l := by
  refine funext fun a => Fin.ext ?_
  obtain ⟨-, -, -, -, e0, e1⟩ := idx_facts t
  match a with
  | ⟨0, _⟩ => show win6_6.index t (0 : Fin 2) * 1024 + 1 * p.val = t.val * 1024 + p.val; rw [e0]; omega
  | ⟨1, _⟩ => show win6_6.index t (1 : Fin 2) * 12 + 1 * l.val = l.val; rw [e1]; omega

/-! The structure of the two products' dimension records. -/
theorem d1_l0 (j : S1024x128.Idx) (q : dot_S1024x256_S256x128_S1024x128_1_0_0_1_n_n.contr.Idx) : (dot_S1024x256_S256x128_S1024x128_1_0_0_1_n_n.lhsIdx j q 0).val = (j 0).val := by
  unfold DotDims.lhsIdx
  rw [dif_neg (show ¬(0 : Fin S1024x256.rank) ∈ dot_S1024x256_S256x128_S1024x128_1_0_0_1_n_n.lhsBatch by decide), dif_pos (show (0 : Fin S1024x256.rank) ∈ dot_S1024x256_S256x128_S1024x128_1_0_0_1_n_n.lhsNonContracting by decide)]
  rfl
theorem d1_l1 (j : S1024x128.Idx) (q : dot_S1024x256_S256x128_S1024x128_1_0_0_1_n_n.contr.Idx) : (dot_S1024x256_S256x128_S1024x128_1_0_0_1_n_n.lhsIdx j q 1).val = (q ⟨0, by decide⟩).val :=
  dot_S1024x256_S256x128_S1024x128_1_0_0_1_n_n.lhsIdx_val_of_single rfl j q
theorem d1_r0 (j : S1024x128.Idx) (q : dot_S1024x256_S256x128_S1024x128_1_0_0_1_n_n.contr.Idx) : (dot_S1024x256_S256x128_S1024x128_1_0_0_1_n_n.rhsIdx j q 0).val = (q ⟨0, by decide⟩).val :=
  dot_S1024x256_S256x128_S1024x128_1_0_0_1_n_n.rhsIdx_val_of_single rfl j q
theorem d1_r1 (j : S1024x128.Idx) (q : dot_S1024x256_S256x128_S1024x128_1_0_0_1_n_n.contr.Idx) : (dot_S1024x256_S256x128_S1024x128_1_0_0_1_n_n.rhsIdx j q 1).val = (j 1).val := by
  unfold DotDims.rhsIdx
  rw [dif_neg (show ¬(1 : Fin S256x128.rank) ∈ dot_S1024x256_S256x128_S1024x128_1_0_0_1_n_n.rhsBatch by decide), dif_pos (show (1 : Fin S256x128.rank) ∈ dot_S1024x256_S256x128_S1024x128_1_0_0_1_n_n.rhsNonContracting by decide)]
  rfl

theorem d2_l0 (j : S1024x12.Idx) (q : dot_S1024x128_S128x12_S1024x12_1_0_0_1_n_n.contr.Idx) : (dot_S1024x128_S128x12_S1024x12_1_0_0_1_n_n.lhsIdx j q 0).val = (j 0).val := by
  unfold DotDims.lhsIdx
  rw [dif_neg (show ¬(0 : Fin S1024x128.rank) ∈ dot_S1024x128_S128x12_S1024x12_1_0_0_1_n_n.lhsBatch by decide), dif_pos (show (0 : Fin S1024x128.rank) ∈ dot_S1024x128_S128x12_S1024x12_1_0_0_1_n_n.lhsNonContracting by decide)]
  rfl
theorem d2_l1 (j : S1024x12.Idx) (q : dot_S1024x128_S128x12_S1024x12_1_0_0_1_n_n.contr.Idx) : (dot_S1024x128_S128x12_S1024x12_1_0_0_1_n_n.lhsIdx j q 1).val = (q ⟨0, by decide⟩).val :=
  dot_S1024x128_S128x12_S1024x12_1_0_0_1_n_n.lhsIdx_val_of_single rfl j q
theorem d2_r0 (j : S1024x12.Idx) (q : dot_S1024x128_S128x12_S1024x12_1_0_0_1_n_n.contr.Idx) : (dot_S1024x128_S128x12_S1024x12_1_0_0_1_n_n.rhsIdx j q 0).val = (q ⟨0, by decide⟩).val :=
  dot_S1024x128_S128x12_S1024x12_1_0_0_1_n_n.rhsIdx_val_of_single rfl j q
theorem d2_r1 (j : S1024x12.Idx) (q : dot_S1024x128_S128x12_S1024x12_1_0_0_1_n_n.contr.Idx) : (dot_S1024x128_S128x12_S1024x12_1_0_0_1_n_n.rhsIdx j q 1).val = (j 1).val := by
  unfold DotDims.rhsIdx
  rw [dif_neg (show ¬(1 : Fin S128x12.rank) ∈ dot_S1024x128_S128x12_S1024x12_1_0_0_1_n_n.rhsBatch by decide), dif_pos (show (1 : Fin S128x12.rank) ∈ dot_S1024x128_S128x12_S1024x12_1_0_0_1_n_n.rhsNonContracting by decide)]
  rfl

/-- What tile t writes back is its rows of the read-out of the whole arrays. -/
theorem flushed_eq (c : Dev nD) (t : Fin cfg6.N) :
    (dat6 V c).flushed 6 t = ((cfg6.win 6).blk t).view.read (Elt Ideal)
      (headG (V c main_v80) (V c main_v85) (V c main_arg9) (V c main_v86) (V c main_arg11) (V c main_v87)) := by
  show (cfg6.win 6).cut (grid6.coords t) ((dat6 V c).after 6 t) = _
  rw [after6_6]
  unfold out6_6
  rw [View.canon_unit_zero hz]
  simp only [View.ld_unit_zero (S := S1024x256) hz, View.ld_unit_zero (S := S1024x1) hz, View.ld_unit_zero (S := S256x128) hz,
    View.ld_unit_zero (S := S1x128) hz, View.ld_unit_zero (S := S128x12) hz, View.ld_unit_zero (S := S1x12) hz]
  refine funext fun (j : S1024x12.Idx) => ?_
  obtain ⟨p, l, rfl⟩ : ∃ (p : Fin 1024) (l : Fin 12), j = ix2 p l := ⟨j 0, j 1, eq_ix2 j⟩
  show k6_pay1 (iblk6 V c 1 t) (iblk6 V c 0 t) (iblk6 V c 2 t) (iblk6 V c 3 t) (iblk6 V c 4 t) (iblk6 V c 5 t) (ix2 p l)
    = headG (V c main_v80) (V c main_v85) (V c main_arg9) (V c main_v86) (V c main_arg11) (V c main_v87)
        (((cfg6.win 6).blk t).view.emb (ix2 p l))
  rw [emb6 t p l]
  exact head_tile (row t) dot_S1024x256_S256x128_S1024x128_1_0_0_1_n_n rfl rfl d1_l0 d1_l1 d1_r0 d1_r1
    dot_S1024x128_S128x12_S1024x12_1_0_0_1_n_n rfl rfl d2_l0 d2_l1 d2_r0 d2_r1
    (iblk6 V c 0 t) (iblk6 V c 1 t) (iblk6 V c 2 t) (iblk6 V c 3 t) (iblk6 V c 4 t) (iblk6 V c 5 t) _ _ _ _ _ _ _
    (V c main_v80) (V c main_v85) (V c main_arg9) (V c main_v86) (V c main_arg11) (V c main_v87)
    (blk0 V c t) (blk1 V c t) (blk2 V c t) (blk3 V c t) (blk4 V c t) (blk5 V c t) p l

/-- An index of the result array is in tile t's block iff its row is one of the tile's. -/
theorem mem_blk (t : Fin cfg6.N) (i : S4096x12.Idx) :
    i ∈ ((cfg6.win 6).blk t).view.set ↔ ∀ a : Fin 2, win6_6.index t a * S1024x12.size a ≤ (i a).val ∧ (i a).val < win6_6.index t a * S1024x12.size a + S1024x12.size a := by
  show i ∈ ((View.whole main_v88).slice (win6_6.rect t)).set ↔ _
  rw [View.set_slice_whole, Rect.mem_set_unit]
  exact Iff.rfl

/-- Every graph belongs to a tile: graph i to tile i / 1024. -/
theorem cover (i : S4096x12.Idx) : ∃ t : Fin cfg6.N, (cfg6.win 6).flush t = true ∧ i ∈ ((cfg6.win 6).blk t).view.set := by
  have hi0 : (i 0).val < 4096 := (i 0).isLt
  have hi1 : (i 1).val < 12 := (i 1).isLt
  have hq : (i 0).val / 1024 < 4 := by omega
  obtain ⟨t, ht⟩ : ∃ t : Fin cfg6.N, t.val = (i 0).val / 1024 := ⟨⟨(i 0).val / 1024, lt_of_lt_of_eq hq N_6.symm⟩, rfl⟩
  refine ⟨t, flush6_6 t, ?_⟩
  rw [mem_blk]
  obtain ⟨-, -, -, -, e0, e1⟩ := idx_facts t
  intro a
  match a with
  | ⟨0, _⟩ => show win6_6.index t (0 : Fin 2) * 1024 ≤ (i 0).val ∧ (i 0).val < win6_6.index t (0 : Fin 2) * 1024 + 1024; rw [e0, ht]; omega
  | ⟨1, _⟩ => show win6_6.index t (1 : Fin 2) * 12 ≤ (i 1).val ∧ (i 1).val < win6_6.index t (1 : Fin 2) * 12 + 12; rw [e1]; omega

/-- The result array after the region: the read-out of the arrays the region found. -/
theorem final (c : Dev nD) : (dat6 V c).arrAt 6 cfg6.N
    = headG (V c main_v80) (V c main_v85) (V c main_arg9) (V c main_v86) (V c main_arg11) (V c main_v87) :=
  (dat6 V c).arrAt_eq_of_cover 6 _ (fun t _ => flushed_eq V c t) cover

end Cert.KernelIdeal.Reg6

end
-- ==== Proof.LibDotGeneralNN.lean ====
/-
  The host's dot_general whose left operand is contracted on its SECOND axis and whose right operand on its FIRST (an
  M×K array times a K×N array, the plain row-by-column product), read at one entry of the result on the extended reals:
  entry (i, j) is the sum over k of left (i, k) · right (k, j).  Every extent and both operand formats are arbitrary;
  the dimension record is any record with that contraction, its structural facts passed as hypotheses (four coordinate
  facts of its index maps, the contraction's rank and size), each closed by rfl at a printed record.
-/
import Idealize.ShloMosaic.PureOps.Ideal.Laws
import Idealize.ShloMosaic.Lib.ValueIdx

noncomputable section

open scoped BigOperators

namespace Cert.DotGeneralNN

open Idealize.ShloMosaic Idealize.ShloMosaic.ValueIdx

/-- The left operand contracted on its SECOND axis and the right on its FIRST:
    out (i, j) = Σ k, A (i, k) · B (k, j). -/
theorem dotGeneral_nn_apply {M K N : ℕ} {φ₁ φ₂ : FTy} (d : DotDims ⟨2, ![M, K]⟩ ⟨2, ![K, N]⟩ ⟨2, ![M, N]⟩)
    (prec : Option ContractPrecision) (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (A : FVec Ideal ⟨2, ![M, K]⟩ φ₁) (B : FVec Ideal ⟨2, ![K, N]⟩ φ₂) (i : Fin M) (j : Fin N) :
    Host.dotGeneral d prec A B (ix2 i j) = ∑ k : Fin K, A (ix2 i k) * B (ix2 k j) := by
  refine (Ideal.dotGeneral_apply d prec .single A B (ix2 i j)).trans ?_
  rw [← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact hl0 _ _
    | ⟨1, _⟩ => exact (hl1 _ _).trans hk)
  have er : d.rhsIdx (ix2 i j) ((contrEquiv1 d K hr hs).symm k) = ix2 k j := funext fun a => Fin.ext (by
    match a with
    | ⟨0, _⟩ => exact (hr0 _ _).trans hk
    | ⟨1, _⟩ => exact hr1 _ _)
  rw [el, er]

end Cert.DotGeneralNN

end
-- ==== Proof.LibRowHost.lean ====
/-
  The same dense steps as the host writes them on whole arrays, identified with the functions of LibRowTiles.

  The host spells a column of per-row weights as a length-M vector broadcast to M × 1 and then to M × C, and a bias as a
  length-C vector broadcast to 1 × C and then to M × C; a kernel is handed the same vectors recast to M × 1 and 1 × C.
  Read at an entry both are the vector's entry for that row (or column).  With that, each host expression — the
  combine step (s + h · d) + b with or without max(·, 0), a product, and the read-out — is, entry by entry, the
  corresponding function of LibRowTiles applied to the recast vectors.
-/
import Idealize.ShloMosaic.PureOps.Ideal.Laws
import Idealize.ShloMosaic.Lib.ValueIdx
import Idealize.ShloMosaic.Lib.Pipeline.Value
import proofs.«151674_j4475355922840_1_alg».proof.Proof.LibDotGeneralNN
import proofs.«151674_j4475355922840_1_alg».proof.Proof.LibRowTiles

noncomputable section

open scoped BigOperators

namespace Cert.RowTiles

open Idealize.ShloMosaic Idealize.ShloMosaic.ValueIdx

/-- The shape of a length-n vector. -/
abbrev Sh1 (n : Nat) : Shape := ⟨1, ![n]⟩
/-- The scalar shape. -/
abbrev Sh0 : Shape := ⟨0, ![]⟩

/-- A length-M vector broadcast to M × 1 and then to M × C, read at (p, l): entry p. -/
theorem colB_apply {M C : Nat} (d : (Sh1 M).Idx → EReal) (g1 : (Sh1 M).BroadcastsInDim (Sh2 M 1) ![0])
    (g2 : (Sh2 M 1).BroadcastsInDim (Sh2 M C) ![0, 1]) (p : Fin M) (l : Fin C) :
    broadcastInDim (Sh2 M C) ![0, 1] g2 (broadcastInDim (Sh2 M 1) ![0] g1 d) (ix2 p l) = d (ix1 p) := by
  refine (broadcastInDim_apply _ g2 _ (ix2 p l) (ix2 p o1) fun a => ?_).trans ?_
  · match a with
    | ⟨0, _⟩ =>
      show p.val = if M = 1 then 0 else p.val
      have := p.isLt
      split <;> omega
    | ⟨1, _⟩ => rfl
  · refine broadcastInDim_apply _ g1 d (ix2 p o1) (ix1 p) fun a => ?_
    match a with
    | ⟨0, _⟩ =>
      show p.val = if M = 1 then 0 else p.val
      have := p.isLt
      split <;> omega

/-- A length-M vector recast to M × 1, read at (p, 0): entry p. -/
theorem colCast_apply {M : Nat} (d : (Sh1 M).Idx → EReal) (h : (Sh1 M).ShapeCasts (Sh2 M 1)) (p : Fin M) :
    shapeCast (Sh2 M 1) d h (ix2 p o1) = d (ix1 p) := by
  refine shapeCast_apply d h (ix2 p o1) (ix1 p) ?_
  rw [Shape.rowMajor_val_one, Shape.rowMajor_val_two]
  show p.val = p.val * 1 + 0
  omega

/-- A length-C vector broadcast to 1 × C and then to M × C, read at (p, l): entry l. -/
theorem rowB_apply {M C : Nat} (b : (Sh1 C).Idx → EReal) (g1 : (Sh1 C).BroadcastsInDim (Sh2 1 C) ![1])
    (g2 : (Sh2 1 C).BroadcastsInDim (Sh2 M C) ![0, 1]) (p : Fin M) (l : Fin C) :
    broadcastInDim (Sh2 M C) ![0, 1] g2 (broadcastInDim (Sh2 1 C) ![1] g1 b) (ix2 p l) = b (ix1 l) := by
  refine (broadcastInDim_apply _ g2 _ (ix2 p l) (ix2 o1 l) fun a => ?_).trans ?_
  · match a with
    | ⟨0, _⟩ => rfl
    | ⟨1, _⟩ =>
      show l.val = if C = 1 then 0 else l.val
      have := l.isLt
      split <;> omega
  · refine broadcastInDim_apply _ g1 b (ix2 o1 l) (ix1 l) fun a => ?_
    match a with
    | ⟨0, _⟩ =>
      show l.val = if C = 1 then 0 else l.val
      have := l.isLt
      split <;> omega

/-- A length-C vector recast to 1 × C, read at (0, l): entry l. -/
theorem rowCast_apply {C : Nat} (b : (Sh1 C).Idx → EReal) (h : (Sh1 C).ShapeCasts (Sh2 1 C)) (l : Fin C) :
    shapeCast (Sh2 1 C) b h (ix2 o1 l) = b (ix1 l) := by
  refine shapeCast_apply b h (ix2 o1 l) (ix1 l) ?_
  rw [Shape.rowMajor_val_one, Shape.rowMajor_val_two]
  show l.val = 0 * C + l.val
  omega

/-- A constant broadcast over any shape, read anywhere: the constant. -/
theorem splat_apply {S : Shape} (w : BitVec 32) (g : Sh0.BroadcastsInDim S ![]) (i : S.Idx) :
    broadcastInDim S ![] g (constant (F := Ideal) Sh0 .f32 w) i = Ideal.ofBits .f32 w :=
  broadcastInDim_apply _ g _ i ix0 fun a => a.elim0

/-- The host's product is the product. -/
theorem dg_host {M K N : Nat} (d : DotDims (Sh2 M K) (Sh2 K N) (Sh2 M N))
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (A : FVec Ideal (Sh2 M K) .f32) (B : FVec Ideal (Sh2 K N) .f32) :
    Host.dotGeneral d none A B = mmG A B := by
  funext i
  obtain ⟨p, l, rfl⟩ : ∃ (p : Fin M) (l : Fin N), i = ix2 p l := ⟨i 0, i 1, eq_ix2 i⟩
  exact Cert.DotGeneralNN.dotGeneral_nn_apply d none hr hs hl0 hl1 hr0 hr1 A B p l

/-- The host's combine step is the combine step of the recast column and row. -/
theorem fuse_host {M C : Nat} (S H : FVec Ideal (Sh2 M C) .f32) (d : FVec Ideal (Sh1 M) .f32) (b : FVec Ideal (Sh1 C) .f32)
    (g1 : (Sh1 M).BroadcastsInDim (Sh2 M 1) ![0]) (g2 : (Sh2 M 1).BroadcastsInDim (Sh2 M C) ![0, 1])
    (g3 : (Sh1 C).BroadcastsInDim (Sh2 1 C) ![1]) (g4 : (Sh2 1 C).BroadcastsInDim (Sh2 M C) ![0, 1])
    (hd : (Sh1 M).ShapeCasts (Sh2 M 1)) (hb : (Sh1 C).ShapeCasts (Sh2 1 C)) :
    addf (addf S (mulf H (broadcastInDim (Sh2 M C) ![0, 1] g2 (broadcastInDim (Sh2 M 1) ![0] g1 d))))
        (broadcastInDim (Sh2 M C) ![0, 1] g4 (broadcastInDim (Sh2 1 C) ![1] g3 b))
      = fuseG S H (shapeCast (Sh2 M 1) d hd) (shapeCast (Sh2 1 C) b hb) := by
  funext i
  obtain ⟨p, l, rfl⟩ : ∃ (p : Fin M) (l : Fin C), i = ix2 p l := ⟨i 0, i 1, eq_ix2 i⟩
  show (S (ix2 p l) + H (ix2 p l) * broadcastInDim (Sh2 M C) ![0, 1] g2 (broadcastInDim (Sh2 M 1) ![0] g1 d) (ix2 p l))
      + broadcastInDim (Sh2 M C) ![0, 1] g4 (broadcastInDim (Sh2 1 C) ![1] g3 b) (ix2 p l)
    = (S (ix2 p l) + H (ix2 p l) * shapeCast (Sh2 M 1) d hd (ix2 p o1)) + shapeCast (Sh2 1 C) b hb (ix2 o1 l)
  rw [colB_apply, rowB_apply, colCast_apply, rowCast_apply]

/-- … and the same followed by max(·, 0). -/
theorem fuseRelu_host {M C : Nat} (S H : FVec Ideal (Sh2 M C) .f32) (d : FVec Ideal (Sh1 M) .f32) (b : FVec Ideal (Sh1 C) .f32)
    (g1 : (Sh1 M).BroadcastsInDim (Sh2 M 1) ![0]) (g2 : (Sh2 M 1).BroadcastsInDim (Sh2 M C) ![0, 1])
    (g3 : (Sh1 C).BroadcastsInDim (Sh2 1 C) ![1]) (g4 : (Sh2 1 C).BroadcastsInDim (Sh2 M C) ![0, 1])
    (g0 : Sh0.BroadcastsInDim (Sh2 M C) ![])
    (hd : (Sh1 M).ShapeCasts (Sh2 M 1)) (hb : (Sh1 C).ShapeCasts (Sh2 1 C)) :
    maximumf (addf (addf S (mulf H (broadcastInDim (Sh2 M C) ![0, 1] g2 (broadcastInDim (Sh2 M 1) ![0] g1 d))))
        (broadcastInDim (Sh2 M C) ![0, 1] g4 (broadcastInDim (Sh2 1 C) ![1] g3 b)))
        (broadcastInDim (Sh2 M C) ![] g0 (constant (F := Ideal) Sh0 .f32 0x00000000#32))
      = fuseReluG S H (shapeCast (Sh2 M 1) d hd) (shapeCast (Sh2 1 C) b hb) := by
  funext i
  show max (addf (addf S (mulf H (broadcastInDim (Sh2 M C) ![0, 1] g2 (broadcastInDim (Sh2 M 1) ![0] g1 d))))
        (broadcastInDim (Sh2 M C) ![0, 1] g4 (broadcastInDim (Sh2 1 C) ![1] g3 b)) i)
      (broadcastInDim (Sh2 M C) ![] g0 (constant (F := Ideal) Sh0 .f32 0x00000000#32) i)
    = max (fuseG S H (shapeCast (Sh2 M 1) d hd) (shapeCast (Sh2 1 C) b hb) i) (Ideal.ofBits .f32 0x00000000#32)
  rw [fuse_host S H d b g1 g2 g3 g4 hd hb, splat_apply]

/-- The host's read-out is the read-out of the recast count column and bias rows. -/
theorem head_host {M C H O : Nat} (r1 : DotDims (Sh2 M C) (Sh2 C H) (Sh2 M H))
    (hr : r1.contr.rank = 1) (hs : r1.contr.size ⟨0, by omega⟩ = C)
    (hl0 : ∀ j q, (r1.lhsIdx j q 0).val = (j 0).val) (hl1 : ∀ j q, (r1.lhsIdx j q 1).val = (q ⟨0, by omega⟩).val)
    (hr0 : ∀ j q, (r1.rhsIdx j q 0).val = (q ⟨0, by omega⟩).val) (hr1 : ∀ j q, (r1.rhsIdx j q 1).val = (j 1).val)
    (r2 : DotDims (Sh2 M H) (Sh2 H O) (Sh2 M O))
    (gr : r2.contr.rank = 1) (gs : r2.contr.size ⟨0, by omega⟩ = H)
    (gl0 : ∀ j q, (r2.lhsIdx j q 0).val = (j 0).val) (gl1 : ∀ j q, (r2.lhsIdx j q 1).val = (q ⟨0, by omega⟩).val)
    (gr0 : ∀ j q, (r2.rhsIdx j q 0).val = (q ⟨0, by omega⟩).val) (gr1 : ∀ j q, (r2.rhsIdx j q 1).val = (j 1).val)
    (S : FVec Ideal (Sh2 M C) .f32) (cnt : FVec Ideal (Sh1 M) .f32) (W1 : FVec Ideal (Sh2 C H) .f32) (b1 : FVec Ideal (Sh1 H) .f32)
    (W2 : FVec Ideal (Sh2 H O) .f32) (b2 : FVec Ideal (Sh1 O) .f32)
    (g0 : Sh0.BroadcastsInDim (Sh1 M) ![]) (g1 : (Sh1 M).BroadcastsInDim (Sh2 M 1) ![0]) (g2 : (Sh2 M 1).BroadcastsInDim (Sh2 M C) ![0, 1])
    (gb1 : (Sh1 H).BroadcastsInDim (Sh2 1 H) ![1]) (gb1' : (Sh2 1 H).BroadcastsInDim (Sh2 M H) ![0, 1])
    (gz : Sh0.BroadcastsInDim (Sh2 M H) ![])
    (gb2 : (Sh1 O).BroadcastsInDim (Sh2 1 O) ![1]) (gb2' : (Sh2 1 O).BroadcastsInDim (Sh2 M O) ![0, 1])
    (hc : (Sh1 M).ShapeCasts (Sh2 M 1)) (hb1 : (Sh1 H).ShapeCasts (Sh2 1 H)) (hb2 : (Sh1 O).ShapeCasts (Sh2 1 O)) :
    addf (Host.dotGeneral r2 none
        (maximumf (addf (Host.dotGeneral r1 none
              (Host.divf S (broadcastInDim (Sh2 M C) ![0, 1] g2 (broadcastInDim (Sh2 M 1) ![0] g1
                (maximumf cnt (broadcastInDim (Sh1 M) ![] g0 (constant (F := Ideal) Sh0 .f32 0x3F800000#32)))))) W1)
            (broadcastInDim (Sh2 M H) ![0, 1] gb1' (broadcastInDim (Sh2 1 H) ![1] gb1 b1)))
          (broadcastInDim (Sh2 M H) ![] gz (constant (F := Ideal) Sh0 .f32 0x00000000#32))) W2)
        (broadcastInDim (Sh2 M O) ![0, 1] gb2' (broadcastInDim (Sh2 1 O) ![1] gb2 b2))
      = headG S (shapeCast (Sh2 M 1) cnt hc) W1 (shapeCast (Sh2 1 H) b1 hb1) W2 (shapeCast (Sh2 1 O) b2 hb2) := by
  funext i
  obtain ⟨p, l, rfl⟩ : ∃ (p : Fin M) (l : Fin O), i = ix2 p l := ⟨i 0, i 1, eq_ix2 i⟩
  have hmean : ∀ k' : Fin C, Host.divf S (broadcastInDim (Sh2 M C) ![0, 1] g2 (broadcastInDim (Sh2 M 1) ![0] g1
      (maximumf cnt (broadcastInDim (Sh1 M) ![] g0 (constant (F := Ideal) Sh0 .f32 0x3F800000#32))))) (ix2 p k')
      = meanG S (shapeCast (Sh2 M 1) cnt hc) (ix2 p k') := by
    intro k'
    show Ideal.div (S (ix2 p k')) (broadcastInDim (Sh2 M C) ![0, 1] g2 (broadcastInDim (Sh2 M 1) ![0] g1
      (maximumf cnt (broadcastInDim (Sh1 M) ![] g0 (constant (F := Ideal) Sh0 .f32 0x3F800000#32)))) (ix2 p k'))
      = Ideal.div (S (ix2 p k')) (max (shapeCast (Sh2 M 1) cnt hc (ix2 p o1)) (Ideal.ofBits .f32 0x3F800000#32))
    rw [colB_apply, colCast_apply]
    show Ideal.div _ (max (cnt (ix1 p)) (broadcastInDim (Sh1 M) ![] g0 (constant (F := Ideal) Sh0 .f32 0x3F800000#32) (ix1 p))) = _
    rw [splat_apply]
  have hhid : ∀ k : Fin H, maximumf (addf (Host.dotGeneral r1 none
              (Host.divf S (broadcastInDim (Sh2 M C) ![0, 1] g2 (broadcastInDim (Sh2 M 1) ![0] g1
                (maximumf cnt (broadcastInDim (Sh1 M) ![] g0 (constant (F := Ideal) Sh0 .f32 0x3F800000#32)))))) W1)
            (broadcastInDim (Sh2 M H) ![0, 1] gb1' (broadcastInDim (Sh2 1 H) ![1] gb1 b1)))
          (broadcastInDim (Sh2 M H) ![] gz (constant (F := Ideal) Sh0 .f32 0x00000000#32)) (ix2 p k)
      = reluG (denseG (meanG S (shapeCast (Sh2 M 1) cnt hc)) W1 (shapeCast (Sh2 1 H) b1 hb1)) (ix2 p k) := by
    intro k
    show max (Host.dotGeneral r1 none
              (Host.divf S (broadcastInDim (Sh2 M C) ![0, 1] g2 (broadcastInDim (Sh2 M 1) ![0] g1
                (maximumf cnt (broadcastInDim (Sh1 M) ![] g0 (constant (F := Ideal) Sh0 .f32 0x3F800000#32)))))) W1 (ix2 p k)
            + broadcastInDim (Sh2 M H) ![0, 1] gb1' (broadcastInDim (Sh2 1 H) ![1] gb1 b1) (ix2 p k))
          (broadcastInDim (Sh2 M H) ![] gz (constant (F := Ideal) Sh0 .f32 0x00000000#32) (ix2 p k))
      = max ((∑ k' : Fin C, meanG S (shapeCast (Sh2 M 1) cnt hc) (ix2 p k') * W1 (ix2 k' k))
            + shapeCast (Sh2 1 H) b1 hb1 (ix2 o1 k)) (Ideal.ofBits .f32 0x00000000#32)
    rw [Cert.DotGeneralNN.dotGeneral_nn_apply r1 none hr hs hl0 hl1 hr0 hr1 _ W1 p k, rowB_apply, splat_apply, rowCast_apply]
    exact congrArg (fun s => max (s + b1 (ix1 k)) (Ideal.ofBits .f32 0x00000000#32))
      (Finset.sum_congr rfl fun k' _ => congrArg (· * W1 (ix2 k' k)) (hmean k'))
  show Host.dotGeneral r2 none _ W2 (ix2 p l)
      + broadcastInDim (Sh2 M O) ![0, 1] gb2' (broadcastInDim (Sh2 1 O) ![1] gb2 b2) (ix2 p l)
    = (∑ k : Fin H, reluG (denseG (meanG S (shapeCast (Sh2 M 1) cnt hc)) W1 (shapeCast (Sh2 1 H) b1 hb1)) (ix2 p k) * W2 (ix2 k l))
      + shapeCast (Sh2 1 O) b2 hb2 (ix2 o1 l)
  rw [Cert.DotGeneralNN.dotGeneral_nn_apply r2 none gr gs gl0 gl1 gr0 gr1 _ W2 p l, rowB_apply, rowCast_apply]
  exact congrArg (· + b2 (ix1 l)) (Finset.sum_congr rfl fun k _ => congrArg (· * W2 (ix2 k l)) (hhid k))

end Cert.RowTiles

end
-- ==== Proof.RefBridge.lean ====
/-
  The reference program, read stage by stage (the generated stage functions), identified with the functions of LibRowTiles.

  The reference recomputes the graph's normalisation in each of its three layers: the in-degrees (a scatter-add of
  ones over the edges' destinations, plus one for the self-loop), their inverse square roots, the squares of those
  (the self-loop weights) and the per-edge coefficients (the product of the two endpoints' inverse square roots).
  The three copies are the same operations on the same edge list, so they are equal: `dinv_*`, `selfw_*`, `coef_*`.
  Each layer's dense tail — transformed features times self-loop weight, plus aggregated messages, plus bias, and
  max(·, 0) in the first two layers — is the combine step of LibRowTiles; each feature transform is a product; the last
  stages are the read-out.
-/
import proofs.«151674_j4475355922840_1_alg».proof.Proof.Gen.ReferenceIdeal.Read
import proofs.«151674_j4475355922840_1_alg».proof.Proof.LibRowHost

set_option maxRecDepth 16384

noncomputable section

namespace Cert.ReferenceIdeal.Bridge

open Cert.ReferenceIdeal Cert.ReferenceIdeal.Read Cert.RowTiles
open Idealize.ShloMosaic Idealize.ShloMosaic.ValueIdx

/-! ## The three copies of the normalisation are one -/

theorem dinv_2 (x1 : (⟨S2x262144, .i32⟩ : BufTy).Contents (Elt Ideal)) : val_main_v56 (F := Ideal) x1 = val_main_v11 (F := Ideal) x1 := by
  unfold val_main_v56 val_main_v55 val_main_v53 val_main_v51 val_main_cst_9 val_main_v52 val_main_v50 val_main_cst_8 val_main_v54 val_main_cst_10
  unfold val_main_v11 val_main_v10 val_main_v8 val_main_v6 val_main_cst_0 val_main_v7 val_main_v5 val_main_cst val_main_v9 val_main_cst_1
  rfl
theorem dinv_3 (x1 : (⟨S2x262144, .i32⟩ : BufTy).Contents (Elt Ideal)) : val_main_v101 (F := Ideal) x1 = val_main_v11 (F := Ideal) x1 := by
  unfold val_main_v101 val_main_v100 val_main_v98 val_main_v96 val_main_cst_19 val_main_v97 val_main_v95 val_main_cst_18 val_main_v99 val_main_cst_20
  unfold val_main_v11 val_main_v10 val_main_v8 val_main_v6 val_main_cst_0 val_main_v7 val_main_v5 val_main_cst val_main_v9 val_main_cst_1
  rfl
theorem selfw_2 (x1 : (⟨S2x262144, .i32⟩ : BufTy).Contents (Elt Ideal)) : val_main_v85 (F := Ideal) x1 = val_main_v40 (F := Ideal) x1 := by
  unfold val_main_v85 val_main_v40
  rw [dinv_2]
theorem selfw_3 (x1 : (⟨S2x262144, .i32⟩ : BufTy).Contents (Elt Ideal)) : val_main_v130 (F := Ideal) x1 = val_main_v40 (F := Ideal) x1 := by
  unfold val_main_v130 val_main_v40
  rw [dinv_3]
theorem coef_2 (x1 : (⟨S2x262144, .i32⟩ : BufTy).Contents (Elt Ideal)) : val_main_v71 (F := Ideal) x1 = val_main_v26 (F := Ideal) x1 := by
  unfold val_main_v71 val_main_v63 val_main_v62 val_main_v61 val_main_v58 val_main_v57 val_main_c_11 val_main_v60 val_main_v59 val_main_c_12 val_main_v70 val_main_v69 val_main_v68 val_main_v65 val_main_v64 val_main_c_13 val_main_v67 val_main_v66 val_main_c_14
  unfold val_main_v26 val_main_v18 val_main_v17 val_main_v16 val_main_v13 val_main_v12 val_main_c val_main_v15 val_main_v14 val_main_c_2 val_main_v25 val_main_v24 val_main_v23 val_main_v20 val_main_v19 val_main_c_3 val_main_v22 val_main_v21 val_main_c_4
  rw [dinv_2]
theorem coef_3 (x1 : (⟨S2x262144, .i32⟩ : BufTy).Contents (Elt Ideal)) : val_main_v116 (F := Ideal) x1 = val_main_v26 (F := Ideal) x1 := by
  unfold val_main_v116 val_main_v108 val_main_v107 val_main_v106 val_main_v103 val_main_v102 val_main_c_21 val_main_v105 val_main_v104 val_main_c_22 val_main_v115 val_main_v114 val_main_v113 val_main_v110 val_main_v109 val_main_c_23 val_main_v112 val_main_v111 val_main_c_24
  unfold val_main_v26 val_main_v18 val_main_v17 val_main_v16 val_main_v13 val_main_v12 val_main_c val_main_v15 val_main_v14 val_main_c_2 val_main_v25 val_main_v24 val_main_v23 val_main_v20 val_main_v19 val_main_c_3 val_main_v22 val_main_v21 val_main_c_4
  rw [dinv_3]

/-! ## The feature transforms are products -/

theorem mm_1 (x0 : (⟨S131072x1, .f32⟩ : BufTy).Contents (Elt Ideal)) (x3 : (⟨S1x64, .f32⟩ : BufTy).Contents (Elt Ideal)) : val_main_v4 (F := Ideal) x0 x3 = mmG x0 x3 :=
  dg_host dot_S131072x1_S1x64_S131072x64_1_0_0_1_n_n rfl rfl lhs_main_v4_0 lhs_main_v4_1 rhs_main_v4_0 rhs_main_v4_1 x0 x3
theorem mm_2 (x0 : (⟨S131072x1, .f32⟩ : BufTy).Contents (Elt Ideal)) (x1 : (⟨S2x262144, .i32⟩ : BufTy).Contents (Elt Ideal)) (x3 : (⟨S1x64, .f32⟩ : BufTy).Contents (Elt Ideal)) (x4 : (⟨S64, .f32⟩ : BufTy).Contents (Elt Ideal)) (x5 : (⟨S64x128, .f32⟩ : BufTy).Contents (Elt Ideal)) : val_main_v49 (F := Ideal) x0 x1 x3 x4 x5 = mmG (val_main_v48 (F := Ideal) x0 x1 x3 x4) x5 :=
  dg_host dot_S131072x64_S64x128_S131072x128_1_0_0_1_n_n rfl rfl lhs_main_v49_0 lhs_main_v49_1 rhs_main_v49_0 rhs_main_v49_1 _ x5
theorem mm_3 (x0 : (⟨S131072x1, .f32⟩ : BufTy).Contents (Elt Ideal)) (x1 : (⟨S2x262144, .i32⟩ : BufTy).Contents (Elt Ideal)) (x3 : (⟨S1x64, .f32⟩ : BufTy).Contents (Elt Ideal)) (x4 : (⟨S64, .f32⟩ : BufTy).Contents (Elt Ideal)) (x5 : (⟨S64x128, .f32⟩ : BufTy).Contents (Elt Ideal)) (x6 : (⟨S128, .f32⟩ : BufTy).Contents (Elt Ideal)) (x7 : (⟨S128x256, .f32⟩ : BufTy).Contents (Elt Ideal)) : val_main_v94 (F := Ideal) x0 x1 x3 x4 x5 x6 x7 = mmG (val_main_v93 (F := Ideal) x0 x1 x3 x4 x5 x6) x7 :=
  dg_host dot_S131072x128_S128x256_S131072x256_1_0_0_1_n_n rfl rfl lhs_main_v94_0 lhs_main_v94_1 rhs_main_v94_0 rhs_main_v94_1 _ x7

/-! ## The layers' dense tails are combine steps -/

theorem comb_1 (x0 : (⟨S131072x1, .f32⟩ : BufTy).Contents (Elt Ideal)) (x1 : (⟨S2x262144, .i32⟩ : BufTy).Contents (Elt Ideal)) (x3 : (⟨S1x64, .f32⟩ : BufTy).Contents (Elt Ideal)) (x4 : (⟨S64, .f32⟩ : BufTy).Contents (Elt Ideal)) (hd : (Sh1 131072).ShapeCasts (Sh2 131072 1)) (hb : (Sh1 64).ShapeCasts (Sh2 1 64)) :
    val_main_v48 (F := Ideal) x0 x1 x3 x4 = fuseReluG (val_main_v39 (F := Ideal) x0 x1 x3) (val_main_v4 (F := Ideal) x0 x3)
      (shapeCast (Sh2 131072 1) (val_main_v40 (F := Ideal) x1) hd) (shapeCast (Sh2 1 64) x4 hb) := by
  unfold val_main_v48 val_main_v47 val_main_v44 val_main_v43 val_main_v42 val_main_v41 val_main_v46 val_main_v45 val_main_call0_v0 val_main_call0_cst
  exact fuseRelu_host _ _ _ _ _ _ _ _ _ hd hb
theorem comb_2 (x0 : (⟨S131072x1, .f32⟩ : BufTy).Contents (Elt Ideal)) (x1 : (⟨S2x262144, .i32⟩ : BufTy).Contents (Elt Ideal)) (x3 : (⟨S1x64, .f32⟩ : BufTy).Contents (Elt Ideal)) (x4 : (⟨S64, .f32⟩ : BufTy).Contents (Elt Ideal)) (x5 : (⟨S64x128, .f32⟩ : BufTy).Contents (Elt Ideal)) (x6 : (⟨S128, .f32⟩ : BufTy).Contents (Elt Ideal)) (hd : (Sh1 131072).ShapeCasts (Sh2 131072 1)) (hb : (Sh1 128).ShapeCasts (Sh2 1 128)) :
    val_main_v93 (F := Ideal) x0 x1 x3 x4 x5 x6 = fuseReluG (val_main_v84 (F := Ideal) x0 x1 x3 x4 x5) (val_main_v49 (F := Ideal) x0 x1 x3 x4 x5)
      (shapeCast (Sh2 131072 1) (val_main_v40 (F := Ideal) x1) hd) (shapeCast (Sh2 1 128) x6 hb) := by
  rw [← selfw_2]
  unfold val_main_v93 val_main_v92 val_main_v89 val_main_v88 val_main_v87 val_main_v86 val_main_v91 val_main_v90 val_main_call1_v0 val_main_call1_cst
  exact fuseRelu_host _ _ _ _ _ _ _ _ _ hd hb
theorem comb_3 (x0 : (⟨S131072x1, .f32⟩ : BufTy).Contents (Elt Ideal)) (x1 : (⟨S2x262144, .i32⟩ : BufTy).Contents (Elt Ideal)) (x3 : (⟨S1x64, .f32⟩ : BufTy).Contents (Elt Ideal)) (x4 : (⟨S64, .f32⟩ : BufTy).Contents (Elt Ideal)) (x5 : (⟨S64x128, .f32⟩ : BufTy).Contents (Elt Ideal)) (x6 : (⟨S128, .f32⟩ : BufTy).Contents (Elt Ideal)) (x7 : (⟨S128x256, .f32⟩ : BufTy).Contents (Elt Ideal)) (x8 : (⟨S256, .f32⟩ : BufTy).Contents (Elt Ideal)) (hd : (Sh1 131072).ShapeCasts (Sh2 131072 1)) (hb : (Sh1 256).ShapeCasts (Sh2 1 256)) :
    val_main_v137 (F := Ideal) x0 x1 x3 x4 x5 x6 x7 x8 = fuseG (val_main_v129 (F := Ideal) x0 x1 x3 x4 x5 x6 x7) (val_main_v94 (F := Ideal) x0 x1 x3 x4 x5 x6 x7)
      (shapeCast (Sh2 131072 1) (val_main_v40 (F := Ideal) x1) hd) (shapeCast (Sh2 1 256) x8 hb) := by
  rw [← selfw_3]
  unfold val_main_v137 val_main_v134 val_main_v133 val_main_v132 val_main_v131 val_main_v136 val_main_v135
  exact fuse_host _ _ _ _ _ _ _ _ hd hb

/-! ## The last stages are the read-out -/

theorem readout (x0 : (⟨S131072x1, .f32⟩ : BufTy).Contents (Elt Ideal)) (x1 : (⟨S2x262144, .i32⟩ : BufTy).Contents (Elt Ideal)) (x2 : (⟨S131072, .i32⟩ : BufTy).Contents (Elt Ideal)) (x3 : (⟨S1x64, .f32⟩ : BufTy).Contents (Elt Ideal)) (x4 : (⟨S64, .f32⟩ : BufTy).Contents (Elt Ideal)) (x5 : (⟨S64x128, .f32⟩ : BufTy).Contents (Elt Ideal)) (x6 : (⟨S128, .f32⟩ : BufTy).Contents (Elt Ideal)) (x7 : (⟨S128x256, .f32⟩ : BufTy).Contents (Elt Ideal)) (x8 : (⟨S256, .f32⟩ : BufTy).Contents (Elt Ideal)) (x9 : (⟨S256x128, .f32⟩ : BufTy).Contents (Elt Ideal)) (x10 : (⟨S128, .f32⟩ : BufTy).Contents (Elt Ideal)) (x11 : (⟨S128x12, .f32⟩ : BufTy).Contents (Elt Ideal)) (x12 : (⟨S12, .f32⟩ : BufTy).Contents (Elt Ideal)) (hc : (Sh1 4096).ShapeCasts (Sh2 4096 1)) (hb1 : (Sh1 128).ShapeCasts (Sh2 1 128))
    (hb2 : (Sh1 12).ShapeCasts (Sh2 1 12)) :
    val_main_v158 (F := Ideal) x0 x1 x2 x3 x4 x5 x6 x7 x8 x9 x10 x11 x12 = headG (val_main_v140 (F := Ideal) x0 x1 x2 x3 x4 x5 x6 x7 x8) (shapeCast (Sh2 4096 1) (val_main_v144 (F := Ideal) x2) hc)
      x9 (shapeCast (Sh2 1 128) x10 hb1) x11 (shapeCast (Sh2 1 12) x12 hb2) := by
  unfold val_main_v158 val_main_v155 val_main_v154 val_main_v153 val_main_v150 val_main_v149 val_main_v148 val_main_v147 val_main_v146 val_main_v145 val_main_cst_31 val_main_v152 val_main_v151 val_main_call2_v0 val_main_call2_cst val_main_v157 val_main_v156
  exact head_host dot_S4096x256_S256x128_S4096x128_1_0_0_1_n_n rfl rfl lhs_main_v150_0 lhs_main_v150_1 rhs_main_v150_0 rhs_main_v150_1
    dot_S4096x128_S128x12_S4096x12_1_0_0_1_n_n rfl rfl lhs_main_v155_0 lhs_main_v155_1 rhs_main_v155_0 rhs_main_v155_1
    _ _ x9 x10 x11 x12 _ _ _ _ _ _ _ _ hc hb1 hb2

end Cert.ReferenceIdeal.Bridge

end
-- ==== Proof.Chain.lean ====
/-
  The value of the kernel program, boundary by boundary, in the reference's terms.

  The program alternates stretches of host operations with seven tiled regions.  Its host operations are the
  reference's own — the edge lists sliced out of edge_index, the in-degrees, their inverse square roots, the
  self-loop weights and edge coefficients, each layer's gather of source rows, scaling by the coefficient and
  scatter-add into destination rows, the per-graph sums and counts — applied to the same arrays; and each region
  computes, on the whole array, a product (Region0/2/4), a layer's combine step (Region1/3/5) or the read-out
  (Region6), which are the reference's dense stages (RefBridge).  So by induction along the program every buffer a
  later stage reads holds the reference's value of the corresponding stage: `f<j>_<buffer>` states the contents
  of that buffer at boundary j (j = 0 at launch, odd j after a host stretch or region, …, 12 at the end) as the
  generated stage function of the reference applied to the arguments.  A buffer nothing writes between two
  boundaries keeps its contents.  The kernel computes the normalisation once where the reference recomputes it per
  layer; the copies are equal (RefBridge `coef_2`, `coef_3`, `selfw_2`, `selfw_3`).
-/
import proofs.«151674_j4475355922840_1_alg».proof.Proof.Gen.KernelIdeal.Frame
import proofs.«151674_j4475355922840_1_alg».proof.Proof.Region0
import proofs.«151674_j4475355922840_1_alg».proof.Proof.Region1
import proofs.«151674_j4475355922840_1_alg».proof.Proof.Region2
import proofs.«151674_j4475355922840_1_alg».proof.Proof.Region3
import proofs.«151674_j4475355922840_1_alg».proof.Proof.Region4
import proofs.«151674_j4475355922840_1_alg».proof.Proof.Region5
import proofs.«151674_j4475355922840_1_alg».proof.Proof.Region6
import proofs.«151674_j4475355922840_1_alg».proof.Proof.RefBridge
import Idealize.ShloMosaic.Lib.StableHlo.Run

set_option maxRecDepth 16384
set_option maxHeartbeats 4000000

noncomputable section

namespace Cert.KernelIdeal.Chain

open Cert.KernelIdeal Cert.KernelIdeal.Gen Cert.RowTiles Cert.ReferenceIdeal.Read
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg) (c : Dev nD)

theorem f0_arg0 : W0 m ρ c (Proc.devRef .tc main_arg0) = (m ((c : Thread nD τ).loc main_arg0)) := rfl
theorem f0_arg1 : W0 m ρ c (Proc.devRef .tc main_arg1) = (m ((c : Thread nD τ).loc main_arg1)) := rfl
theorem f0_arg2 : W0 m ρ c (Proc.devRef .tc main_arg2) = (m ((c : Thread nD τ).loc main_arg2)) := rfl
theorem f0_arg3 : W0 m ρ c (Proc.devRef .tc main_arg3) = (m ((c : Thread nD τ).loc main_arg3)) := rfl
theorem f0_arg4 : W0 m ρ c (Proc.devRef .tc main_arg4) = (m ((c : Thread nD τ).loc main_arg4)) := rfl
theorem f0_arg5 : W0 m ρ c (Proc.devRef .tc main_arg5) = (m ((c : Thread nD τ).loc main_arg5)) := rfl
theorem f0_arg6 : W0 m ρ c (Proc.devRef .tc main_arg6) = (m ((c : Thread nD τ).loc main_arg6)) := rfl
theorem f0_arg7 : W0 m ρ c (Proc.devRef .tc main_arg7) = (m ((c : Thread nD τ).loc main_arg7)) := rfl
theorem f0_arg8 : W0 m ρ c (Proc.devRef .tc main_arg8) = (m ((c : Thread nD τ).loc main_arg8)) := rfl
theorem f0_arg9 : W0 m ρ c (Proc.devRef .tc main_arg9) = (m ((c : Thread nD τ).loc main_arg9)) := rfl
theorem f0_arg10 : W0 m ρ c (Proc.devRef .tc main_arg10) = (m ((c : Thread nD τ).loc main_arg10)) := rfl
theorem f0_arg11 : W0 m ρ c (Proc.devRef .tc main_arg11) = (m ((c : Thread nD τ).loc main_arg11)) := rfl
theorem f0_arg12 : W0 m ρ c (Proc.devRef .tc main_arg12) = (m ((c : Thread nD τ).loc main_arg12)) := rfl

/-! ## After the first stretch of host operations: the edge lists, the self-loop weights, the edge coefficients -/

theorem f1_arg0 : W1 m ρ c (Proc.devRef .tc main_arg0) = (m ((c : Thread nD τ).loc main_arg0)) :=
  (show StableHlo.after hostOps0 (W0 m ρ c) (Proc.devRef .tc main_arg0) = W0 m ρ c (Proc.devRef .tc main_arg0) by after_results; all_goals rfl).trans (f0_arg0 m ρ c)
theorem f1_arg2 : W1 m ρ c (Proc.devRef .tc main_arg2) = (m ((c : Thread nD τ).loc main_arg2)) :=
  (show StableHlo.after hostOps0 (W0 m ρ c) (Proc.devRef .tc main_arg2) = W0 m ρ c (Proc.devRef .tc main_arg2) by after_results; all_goals rfl).trans (f0_arg2 m ρ c)
theorem f1_arg3 : W1 m ρ c (Proc.devRef .tc main_arg3) = (m ((c : Thread nD τ).loc main_arg3)) :=
  (show StableHlo.after hostOps0 (W0 m ρ c) (Proc.devRef .tc main_arg3) = W0 m ρ c (Proc.devRef .tc main_arg3) by after_results; all_goals rfl).trans (f0_arg3 m ρ c)
theorem f1_arg4 : W1 m ρ c (Proc.devRef .tc main_arg4) = (m ((c : Thread nD τ).loc main_arg4)) :=
  (show StableHlo.after hostOps0 (W0 m ρ c) (Proc.devRef .tc main_arg4) = W0 m ρ c (Proc.devRef .tc main_arg4) by after_results; all_goals rfl).trans (f0_arg4 m ρ c)
theorem f1_arg5 : W1 m ρ c (Proc.devRef .tc main_arg5) = (m ((c : Thread nD τ).loc main_arg5)) :=
  (show StableHlo.after hostOps0 (W0 m ρ c) (Proc.devRef .tc main_arg5) = W0 m ρ c (Proc.devRef .tc main_arg5) by after_results; all_goals rfl).trans (f0_arg5 m ρ c)
theorem f1_arg6 : W1 m ρ c (Proc.devRef .tc main_arg6) = (m ((c : Thread nD τ).loc main_arg6)) :=
  (show StableHlo.after hostOps0 (W0 m ρ c) (Proc.devRef .tc main_arg6) = W0 m ρ c (Proc.devRef .tc main_arg6) by after_results; all_goals rfl).trans (f0_arg6 m ρ c)
theorem f1_arg7 : W1 m ρ c (Proc.devRef .tc main_arg7) = (m ((c : Thread nD τ).loc main_arg7)) :=
  (show StableHlo.after hostOps0 (W0 m ρ c) (Proc.devRef .tc main_arg7) = W0 m ρ c (Proc.devRef .tc main_arg7) by after_results; all_goals rfl).trans (f0_arg7 m ρ c)
theorem f1_arg8 : W1 m ρ c (Proc.devRef .tc main_arg8) = (m ((c : Thread nD τ).loc main_arg8)) :=
  (show StableHlo.after hostOps0 (W0 m ρ c) (Proc.devRef .tc main_arg8) = W0 m ρ c (Proc.devRef .tc main_arg8) by after_results; all_goals rfl).trans (f0_arg8 m ρ c)
theorem f1_arg9 : W1 m ρ c (Proc.devRef .tc main_arg9) = (m ((c : Thread nD τ).loc main_arg9)) :=
  (show StableHlo.after hostOps0 (W0 m ρ c) (Proc.devRef .tc main_arg9) = W0 m ρ c (Proc.devRef .tc main_arg9) by after_results; all_goals rfl).trans (f0_arg9 m ρ c)
theorem f1_arg10 : W1 m ρ c (Proc.devRef .tc main_arg10) = (m ((c : Thread nD τ).loc main_arg10)) :=
  (show StableHlo.after hostOps0 (W0 m ρ c) (Proc.devRef .tc main_arg10) = W0 m ρ c (Proc.devRef .tc main_arg10) by after_results; all_goals rfl).trans (f0_arg10 m ρ c)
theorem f1_arg11 : W1 m ρ c (Proc.devRef .tc main_arg11) = (m ((c : Thread nD τ).loc main_arg11)) :=
  (show StableHlo.after hostOps0 (W0 m ρ c) (Proc.devRef .tc main_arg11) = W0 m ρ c (Proc.devRef .tc main_arg11) by after_results; all_goals rfl).trans (f0_arg11 m ρ c)
theorem f1_arg12 : W1 m ρ c (Proc.devRef .tc main_arg12) = (m ((c : Thread nD τ).loc main_arg12)) :=
  (show StableHlo.after hostOps0 (W0 m ρ c) (Proc.devRef .tc main_arg12) = W0 m ρ c (Proc.devRef .tc main_arg12) by after_results; all_goals rfl).trans (f0_arg12 m ρ c)
theorem f1_v1 : W1 m ρ c (Proc.devRef .tc main_v1) = val_main_v1 (F := Ideal) (m ((c : Thread nD τ).loc main_arg1)) := by
  show StableHlo.after hostOps0 (W0 m ρ c) (Proc.devRef .tc main_v1) = _
  after_results
  unfold val_main_v1 val_main_v0
  rfl
theorem f1_v3 : W1 m ρ c (Proc.devRef .tc main_v3) = val_main_v3 (F := Ideal) (m ((c : Thread nD τ).loc main_arg1)) := by
  show StableHlo.after hostOps0 (W0 m ρ c) (Proc.devRef .tc main_v3) = _
  after_results
  unfold val_main_v3 val_main_v2
  rfl
theorem f1_v11 : W1 m ρ c (Proc.devRef .tc main_v11) = val_main_v40 (F := Ideal) (m ((c : Thread nD τ).loc main_arg1)) := by
  show StableHlo.after hostOps0 (W0 m ρ c) (Proc.devRef .tc main_v11) = _
  after_results
  unfold val_main_v40 val_main_v11 val_main_v10 val_main_v8 val_main_v6 val_main_cst_0 val_main_v7 val_main_v3 val_main_v2 val_main_v5 val_main_cst val_main_v9 val_main_cst_1
  rfl
theorem f1_v26 : W1 m ρ c (Proc.devRef .tc main_v26) = val_main_v26 (F := Ideal) (m ((c : Thread nD τ).loc main_arg1)) := by
  show StableHlo.after hostOps0 (W0 m ρ c) (Proc.devRef .tc main_v26) = _
  after_results
  unfold val_main_v26 val_main_v18 val_main_v11 val_main_v10 val_main_v8 val_main_v6 val_main_cst_0 val_main_v7 val_main_v3 val_main_v2 val_main_v5 val_main_cst val_main_v9 val_main_cst_1 val_main_v17 val_main_v16 val_main_v13 val_main_v1 val_main_v0 val_main_v12 val_main_c val_main_v15 val_main_v14 val_main_c_2 val_main_v25 val_main_v24 val_main_v23 val_main_v20 val_main_v19 val_main_c_3 val_main_v22 val_main_v21 val_main_c_4
  rfl

/-! ## Layer 1 -/

theorem f2_v27 : W2 m ρ c (Proc.devRef .tc main_v27) = val_main_v4 (F := Ideal) (m ((c : Thread nD τ).loc main_arg0)) (m ((c : Thread nD τ).loc main_arg3)) := by
  refine (W2_arr m ρ c 2).trans ((Reg0.final (V1 m ρ) c).trans ?_)
  show mmG (W1 m ρ c (Proc.devRef .tc main_arg0)) (W1 m ρ c (Proc.devRef .tc main_arg3)) = _
  rw [f1_arg0 m ρ c, f1_arg3 m ρ c, Cert.ReferenceIdeal.Bridge.mm_1]
theorem f2_v1 : W2 m ρ c (Proc.devRef .tc main_v1) = val_main_v1 (F := Ideal) (m ((c : Thread nD τ).loc main_arg1)) := (W2_of_ne m ρ c main_v1 (by decide)).trans (f1_v1 m ρ c)
theorem f2_v3 : W2 m ρ c (Proc.devRef .tc main_v3) = val_main_v3 (F := Ideal) (m ((c : Thread nD τ).loc main_arg1)) := (W2_of_ne m ρ c main_v3 (by decide)).trans (f1_v3 m ρ c)
theorem f2_v11 : W2 m ρ c (Proc.devRef .tc main_v11) = val_main_v40 (F := Ideal) (m ((c : Thread nD τ).loc main_arg1)) := (W2_of_ne m ρ c main_v11 (by decide)).trans (f1_v11 m ρ c)
theorem f2_v26 : W2 m ρ c (Proc.devRef .tc main_v26) = val_main_v26 (F := Ideal) (m ((c : Thread nD τ).loc main_arg1)) := (W2_of_ne m ρ c main_v26 (by decide)).trans (f1_v26 m ρ c)
theorem f2_arg2 : W2 m ρ c (Proc.devRef .tc main_arg2) = (m ((c : Thread nD τ).loc main_arg2)) := (W2_of_ne m ρ c main_arg2 (by decide)).trans (f1_arg2 m ρ c)
theorem f2_arg4 : W2 m ρ c (Proc.devRef .tc main_arg4) = (m ((c : Thread nD τ).loc main_arg4)) := (W2_of_ne m ρ c main_arg4 (by decide)).trans (f1_arg4 m ρ c)
theorem f2_arg5 : W2 m ρ c (Proc.devRef .tc main_arg5) = (m ((c : Thread nD τ).loc main_arg5)) := (W2_of_ne m ρ c main_arg5 (by decide)).trans (f1_arg5 m ρ c)
theorem f2_arg6 : W2 m ρ c (Proc.devRef .tc main_arg6) = (m ((c : Thread nD τ).loc main_arg6)) := (W2_of_ne m ρ c main_arg6 (by decide)).trans (f1_arg6 m ρ c)
theorem f2_arg7 : W2 m ρ c (Proc.devRef .tc main_arg7) = (m ((c : Thread nD τ).loc main_arg7)) := (W2_of_ne m ρ c main_arg7 (by decide)).trans (f1_arg7 m ρ c)
theorem f2_arg8 : W2 m ρ c (Proc.devRef .tc main_arg8) = (m ((c : Thread nD τ).loc main_arg8)) := (W2_of_ne m ρ c main_arg8 (by decide)).trans (f1_arg8 m ρ c)
theorem f2_arg9 : W2 m ρ c (Proc.devRef .tc main_arg9) = (m ((c : Thread nD τ).loc main_arg9)) := (W2_of_ne m ρ c main_arg9 (by decide)).trans (f1_arg9 m ρ c)
theorem f2_arg10 : W2 m ρ c (Proc.devRef .tc main_arg10) = (m ((c : Thread nD τ).loc main_arg10)) := (W2_of_ne m ρ c main_arg10 (by decide)).trans (f1_arg10 m ρ c)
theorem f2_arg11 : W2 m ρ c (Proc.devRef .tc main_arg11) = (m ((c : Thread nD τ).loc main_arg11)) := (W2_of_ne m ρ c main_arg11 (by decide)).trans (f1_arg11 m ρ c)
theorem f2_arg12 : W2 m ρ c (Proc.devRef .tc main_arg12) = (m ((c : Thread nD τ).loc main_arg12)) := (W2_of_ne m ρ c main_arg12 (by decide)).trans (f1_arg12 m ρ c)
theorem f3_v40 : W3 m ρ c (Proc.devRef .tc main_v40) = val_main_v39 (F := Ideal) (m ((c : Thread nD τ).loc main_arg0)) (m ((c : Thread nD τ).loc main_arg1)) (m ((c : Thread nD τ).loc main_arg3)) := by
  show StableHlo.after hostOps1 (W2 m ρ c) (Proc.devRef .tc main_v40) = _
  after_results
  rw [f2_v27 m ρ c, f2_v26 m ρ c, f2_v1 m ρ c, f2_v3 m ρ c]
  unfold val_main_v39 val_main_v37 val_main_cst_7 val_main_v38 val_main_v36 val_main_v33 val_main_v32 val_main_v31 val_main_v28 val_main_v27 val_main_c_5 val_main_v30 val_main_v29 val_main_c_6 val_main_v35 val_main_v34
  rfl
theorem f3_v41 : W3 m ρ c (Proc.devRef .tc main_v41) = shapeCast S1x64 (m ((c : Thread nD τ).loc main_arg4)) shapeCasts_S64_S1x64 := by
  show StableHlo.after hostOps1 (W2 m ρ c) (Proc.devRef .tc main_v41) = _
  after_results
  rw [f2_arg4 m ρ c]
  all_goals rfl
theorem f3_v42 : W3 m ρ c (Proc.devRef .tc main_v42) = shapeCast S131072x1 (val_main_v40 (F := Ideal) (m ((c : Thread nD τ).loc main_arg1))) shapeCasts_S131072_S131072x1 := by
  show StableHlo.after hostOps1 (W2 m ρ c) (Proc.devRef .tc main_v42) = _
  after_results
  rw [f2_v11 m ρ c]
  all_goals rfl
theorem f3_v27 : W3 m ρ c (Proc.devRef .tc main_v27) = val_main_v4 (F := Ideal) (m ((c : Thread nD τ).loc main_arg0)) (m ((c : Thread nD τ).loc main_arg3)) :=
  (show StableHlo.after hostOps1 (W2 m ρ c) (Proc.devRef .tc main_v27) = W2 m ρ c (Proc.devRef .tc main_v27) by after_results; all_goals rfl).trans (f2_v27 m ρ c)
theorem f3_v1 : W3 m ρ c (Proc.devRef .tc main_v1) = val_main_v1 (F := Ideal) (m ((c : Thread nD τ).loc main_arg1)) :=
  (show StableHlo.after hostOps1 (W2 m ρ c) (Proc.devRef .tc main_v1) = W2 m ρ c (Proc.devRef .tc main_v1) by after_results; all_goals rfl).trans (f2_v1 m ρ c)
theorem f3_v3 : W3 m ρ c (Proc.devRef .tc main_v3) = val_main_v3 (F := Ideal) (m ((c : Thread nD τ).loc main_arg1)) :=
  (show StableHlo.after hostOps1 (W2 m ρ c) (Proc.devRef .tc main_v3) = W2 m ρ c (Proc.devRef .tc main_v3) by after_results; all_goals rfl).trans (f2_v3 m ρ c)
theorem f3_v11 : W3 m ρ c (Proc.devRef .tc main_v11) = val_main_v40 (F := Ideal) (m ((c : Thread nD τ).loc main_arg1)) :=
  (show StableHlo.after hostOps1 (W2 m ρ c) (Proc.devRef .tc main_v11) = W2 m ρ c (Proc.devRef .tc main_v11) by after_results; all_goals rfl).trans (f2_v11 m ρ c)
theorem f3_v26 : W3 m ρ c (Proc.devRef .tc main_v26) = val_main_v26 (F := Ideal) (m ((c : Thread nD τ).loc main_arg1)) :=
  (show StableHlo.after hostOps1 (W2 m ρ c) (Proc.devRef .tc main_v26) = W2 m ρ c (Proc.devRef .tc main_v26) by after_results; all_goals rfl).trans (f2_v26 m ρ c)
theorem f3_arg2 : W3 m ρ c (Proc.devRef .tc main_arg2) = (m ((c : Thread nD τ).loc main_arg2)) :=
  (show StableHlo.after hostOps1 (W2 m ρ c) (Proc.devRef .tc main_arg2) = W2 m ρ c (Proc.devRef .tc main_arg2) by after_results; all_goals rfl).trans (f2_arg2 m ρ c)
theorem f3_arg5 : W3 m ρ c (Proc.devRef .tc main_arg5) = (m ((c : Thread nD τ).loc main_arg5)) :=
  (show StableHlo.after hostOps1 (W2 m ρ c) (Proc.devRef .tc main_arg5) = W2 m ρ c (Proc.devRef .tc main_arg5) by after_results; all_goals rfl).trans (f2_arg5 m ρ c)
theorem f3_arg6 : W3 m ρ c (Proc.devRef .tc main_arg6) = (m ((c : Thread nD τ).loc main_arg6)) :=
  (show StableHlo.after hostOps1 (W2 m ρ c) (Proc.devRef .tc main_arg6) = W2 m ρ c (Proc.devRef .tc main_arg6) by after_results; all_goals rfl).trans (f2_arg6 m ρ c)
theorem f3_arg7 : W3 m ρ c (Proc.devRef .tc main_arg7) = (m ((c : Thread nD τ).loc main_arg7)) :=
  (show StableHlo.after hostOps1 (W2 m ρ c) (Proc.devRef .tc main_arg7) = W2 m ρ c (Proc.devRef .tc main_arg7) by after_results; all_goals rfl).trans (f2_arg7 m ρ c)
theorem f3_arg8 : W3 m ρ c (Proc.devRef .tc main_arg8) = (m ((c : Thread nD τ).loc main_arg8)) :=
  (show StableHlo.after hostOps1 (W2 m ρ c) (Proc.devRef .tc main_arg8) = W2 m ρ c (Proc.devRef .tc main_arg8) by after_results; all_goals rfl).trans (f2_arg8 m ρ c)
theorem f3_arg9 : W3 m ρ c (Proc.devRef .tc main_arg9) = (m ((c : Thread nD τ).loc main_arg9)) :=
  (show StableHlo.after hostOps1 (W2 m ρ c) (Proc.devRef .tc main_arg9) = W2 m ρ c (Proc.devRef .tc main_arg9) by after_results; all_goals rfl).trans (f2_arg9 m ρ c)
theorem f3_arg10 : W3 m ρ c (Proc.devRef .tc main_arg10) = (m ((c : Thread nD τ).loc main_arg10)) :=
  (show StableHlo.after hostOps1 (W2 m ρ c) (Proc.devRef .tc main_arg10) = W2 m ρ c (Proc.devRef .tc main_arg10) by after_results; all_goals rfl).trans (f2_arg10 m ρ c)
theorem f3_arg11 : W3 m ρ c (Proc.devRef .tc main_arg11) = (m ((c : Thread nD τ).loc main_arg11)) :=
  (show StableHlo.after hostOps1 (W2 m ρ c) (Proc.devRef .tc main_arg11) = W2 m ρ c (Proc.devRef .tc main_arg11) by after_results; all_goals rfl).trans (f2_arg11 m ρ c)
theorem f3_arg12 : W3 m ρ c (Proc.devRef .tc main_arg12) = (m ((c : Thread nD τ).loc main_arg12)) :=
  (show StableHlo.after hostOps1 (W2 m ρ c) (Proc.devRef .tc main_arg12) = W2 m ρ c (Proc.devRef .tc main_arg12) by after_results; all_goals rfl).trans (f2_arg12 m ρ c)
theorem f4_v43 : W4 m ρ c (Proc.devRef .tc main_v43) = val_main_v48 (F := Ideal) (m ((c : Thread nD τ).loc main_arg0)) (m ((c : Thread nD τ).loc main_arg1)) (m ((c : Thread nD τ).loc main_arg3)) (m ((c : Thread nD τ).loc main_arg4)) := by
  refine (W4_arr m ρ c 4).trans ((Reg1.final (V3 m ρ) c).trans ?_)
  show fuseReluG (W3 m ρ c (Proc.devRef .tc main_v40)) (W3 m ρ c (Proc.devRef .tc main_v27)) (W3 m ρ c (Proc.devRef .tc main_v42)) (W3 m ρ c (Proc.devRef .tc main_v41)) = _
  rw [f3_v40 m ρ c, f3_v27 m ρ c, f3_v42 m ρ c, f3_v41 m ρ c]
  exact (Cert.ReferenceIdeal.Bridge.comb_1 _ _ _ _ _ _).symm
theorem f4_v1 : W4 m ρ c (Proc.devRef .tc main_v1) = val_main_v1 (F := Ideal) (m ((c : Thread nD τ).loc main_arg1)) := (W4_of_ne m ρ c main_v1 (by decide)).trans (f3_v1 m ρ c)
theorem f4_v3 : W4 m ρ c (Proc.devRef .tc main_v3) = val_main_v3 (F := Ideal) (m ((c : Thread nD τ).loc main_arg1)) := (W4_of_ne m ρ c main_v3 (by decide)).trans (f3_v3 m ρ c)
theorem f4_v11 : W4 m ρ c (Proc.devRef .tc main_v11) = val_main_v40 (F := Ideal) (m ((c : Thread nD τ).loc main_arg1)) := (W4_of_ne m ρ c main_v11 (by decide)).trans (f3_v11 m ρ c)
theorem f4_v26 : W4 m ρ c (Proc.devRef .tc main_v26) = val_main_v26 (F := Ideal) (m ((c : Thread nD τ).loc main_arg1)) := (W4_of_ne m ρ c main_v26 (by decide)).trans (f3_v26 m ρ c)
theorem f4_arg2 : W4 m ρ c (Proc.devRef .tc main_arg2) = (m ((c : Thread nD τ).loc main_arg2)) := (W4_of_ne m ρ c main_arg2 (by decide)).trans (f3_arg2 m ρ c)
theorem f4_arg5 : W4 m ρ c (Proc.devRef .tc main_arg5) = (m ((c : Thread nD τ).loc main_arg5)) := (W4_of_ne m ρ c main_arg5 (by decide)).trans (f3_arg5 m ρ c)
theorem f4_arg6 : W4 m ρ c (Proc.devRef .tc main_arg6) = (m ((c : Thread nD τ).loc main_arg6)) := (W4_of_ne m ρ c main_arg6 (by decide)).trans (f3_arg6 m ρ c)
theorem f4_arg7 : W4 m ρ c (Proc.devRef .tc main_arg7) = (m ((c : Thread nD τ).loc main_arg7)) := (W4_of_ne m ρ c main_arg7 (by decide)).trans (f3_arg7 m ρ c)
theorem f4_arg8 : W4 m ρ c (Proc.devRef .tc main_arg8) = (m ((c : Thread nD τ).loc main_arg8)) := (W4_of_ne m ρ c main_arg8 (by decide)).trans (f3_arg8 m ρ c)
theorem f4_arg9 : W4 m ρ c (Proc.devRef .tc main_arg9) = (m ((c : Thread nD τ).loc main_arg9)) := (W4_of_ne m ρ c main_arg9 (by decide)).trans (f3_arg9 m ρ c)
theorem f4_arg10 : W4 m ρ c (Proc.devRef .tc main_arg10) = (m ((c : Thread nD τ).loc main_arg10)) := (W4_of_ne m ρ c main_arg10 (by decide)).trans (f3_arg10 m ρ c)
theorem f4_arg11 : W4 m ρ c (Proc.devRef .tc main_arg11) = (m ((c : Thread nD τ).loc main_arg11)) := (W4_of_ne m ρ c main_arg11 (by decide)).trans (f3_arg11 m ρ c)
theorem f4_arg12 : W4 m ρ c (Proc.devRef .tc main_arg12) = (m ((c : Thread nD τ).loc main_arg12)) := (W4_of_ne m ρ c main_arg12 (by decide)).trans (f3_arg12 m ρ c)

/-! ## Layer 2 -/

theorem f5_v44 : W5 m ρ c (Proc.devRef .tc main_v44) = val_main_v49 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W5_arr m ρ c 2).trans ((Reg2.final (V4 m ρ) c).trans ?_)
  show mmG (W4 m ρ c (Proc.devRef .tc main_v43)) (W4 m ρ c (Proc.devRef .tc main_arg5)) = _
  rw [f4_v43 m ρ c, f4_arg5 m ρ c, Cert.ReferenceIdeal.Bridge.mm_2]
theorem f5_v1 : W5 m ρ c (Proc.devRef .tc main_v1) = val_main_v1 (F := Ideal) (m ((c : Thread nD τ).loc main_arg1)) := (W5_of_ne m ρ c main_v1 (by decide)).trans (f4_v1 m ρ c)
theorem f5_v3 : W5 m ρ c (Proc.devRef .tc main_v3) = val_main_v3 (F := Ideal) (m ((c : Thread nD τ).loc main_arg1)) := (W5_of_ne m ρ c main_v3 (by decide)).trans (f4_v3 m ρ c)
theorem f5_v11 : W5 m ρ c (Proc.devRef .tc main_v11) = val_main_v40 (F := Ideal) (m ((c : Thread nD τ).loc main_arg1)) := (W5_of_ne m ρ c main_v11 (by decide)).trans (f4_v11 m ρ c)
theorem f5_v26 : W5 m ρ c (Proc.devRef .tc main_v26) = val_main_v26 (F := Ideal) (m ((c : Thread nD τ).loc main_arg1)) := (W5_of_ne m ρ c main_v26 (by decide)).trans (f4_v26 m ρ c)
theorem f5_arg2 : W5 m ρ c (Proc.devRef .tc main_arg2) = (m ((c : Thread nD τ).loc main_arg2)) := (W5_of_ne m ρ c main_arg2 (by decide)).trans (f4_arg2 m ρ c)
theorem f5_arg6 : W5 m ρ c (Proc.devRef .tc main_arg6) = (m ((c : Thread nD τ).loc main_arg6)) := (W5_of_ne m ρ c main_arg6 (by decide)).trans (f4_arg6 m ρ c)
theorem f5_arg7 : W5 m ρ c (Proc.devRef .tc main_arg7) = (m ((c : Thread nD τ).loc main_arg7)) := (W5_of_ne m ρ c main_arg7 (by decide)).trans (f4_arg7 m ρ c)
theorem f5_arg8 : W5 m ρ c (Proc.devRef .tc main_arg8) = (m ((c : Thread nD τ).loc main_arg8)) := (W5_of_ne m ρ c main_arg8 (by decide)).trans (f4_arg8 m ρ c)
theorem f5_arg9 : W5 m ρ c (Proc.devRef .tc main_arg9) = (m ((c : Thread nD τ).loc main_arg9)) := (W5_of_ne m ρ c main_arg9 (by decide)).trans (f4_arg9 m ρ c)
theorem f5_arg10 : W5 m ρ c (Proc.devRef .tc main_arg10) = (m ((c : Thread nD τ).loc main_arg10)) := (W5_of_ne m ρ c main_arg10 (by decide)).trans (f4_arg10 m ρ c)
theorem f5_arg11 : W5 m ρ c (Proc.devRef .tc main_arg11) = (m ((c : Thread nD τ).loc main_arg11)) := (W5_of_ne m ρ c main_arg11 (by decide)).trans (f4_arg11 m ρ c)
theorem f5_arg12 : W5 m ρ c (Proc.devRef .tc main_arg12) = (m ((c : Thread nD τ).loc main_arg12)) := (W5_of_ne m ρ c main_arg12 (by decide)).trans (f4_arg12 m ρ c)
theorem f6_v57 : W6 m ρ c (Proc.devRef .tc main_v57) = val_main_v84 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps3 (W5 m ρ c) (Proc.devRef .tc main_v57) = _
  after_results
  rw [f5_v44 m ρ c, f5_v26 m ρ c, f5_v1 m ρ c, f5_v3 m ρ c]
  unfold val_main_v84 val_main_v82 val_main_cst_17 val_main_v83 val_main_v81 val_main_v78 val_main_v77 val_main_v76 val_main_v73 val_main_v72 val_main_c_15 val_main_v75 val_main_v74 val_main_c_16 val_main_v80 val_main_v79
  rw [Cert.ReferenceIdeal.Bridge.coef_2]
  rfl
theorem f6_v58 : W6 m ρ c (Proc.devRef .tc main_v58) = shapeCast S1x128 (m ((c : Thread nD τ).loc main_arg6)) shapeCasts_S128_S1x128 := by
  show StableHlo.after hostOps3 (W5 m ρ c) (Proc.devRef .tc main_v58) = _
  after_results
  rw [f5_arg6 m ρ c]
  all_goals rfl
theorem f6_v59 : W6 m ρ c (Proc.devRef .tc main_v59) = shapeCast S131072x1 (val_main_v40 (F := Ideal) (m ((c : Thread nD τ).loc main_arg1))) shapeCasts_S131072_S131072x1 := by
  show StableHlo.after hostOps3 (W5 m ρ c) (Proc.devRef .tc main_v59) = _
  after_results
  rw [f5_v11 m ρ c]
  all_goals rfl
theorem f6_v44 : W6 m ρ c (Proc.devRef .tc main_v44) = val_main_v49 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  (show StableHlo.after hostOps3 (W5 m ρ c) (Proc.devRef .tc main_v44) = W5 m ρ c (Proc.devRef .tc main_v44) by after_results; all_goals rfl).trans (f5_v44 m ρ c)
theorem f6_v1 : W6 m ρ c (Proc.devRef .tc main_v1) = val_main_v1 (F := Ideal) (m ((c : Thread nD τ).loc main_arg1)) :=
  (show StableHlo.after hostOps3 (W5 m ρ c) (Proc.devRef .tc main_v1) = W5 m ρ c (Proc.devRef .tc main_v1) by after_results; all_goals rfl).trans (f5_v1 m ρ c)
theorem f6_v3 : W6 m ρ c (Proc.devRef .tc main_v3) = val_main_v3 (F := Ideal) (m ((c : Thread nD τ).loc main_arg1)) :=
  (show StableHlo.after hostOps3 (W5 m ρ c) (Proc.devRef .tc main_v3) = W5 m ρ c (Proc.devRef .tc main_v3) by after_results; all_goals rfl).trans (f5_v3 m ρ c)
theorem f6_v11 : W6 m ρ c (Proc.devRef .tc main_v11) = val_main_v40 (F := Ideal) (m ((c : Thread nD τ).loc main_arg1)) :=
  (show StableHlo.after hostOps3 (W5 m ρ c) (Proc.devRef .tc main_v11) = W5 m ρ c (Proc.devRef .tc main_v11) by after_results; all_goals rfl).trans (f5_v11 m ρ c)
theorem f6_v26 : W6 m ρ c (Proc.devRef .tc main_v26) = val_main_v26 (F := Ideal) (m ((c : Thread nD τ).loc main_arg1)) :=
  (show StableHlo.after hostOps3 (W5 m ρ c) (Proc.devRef .tc main_v26) = W5 m ρ c (Proc.devRef .tc main_v26) by after_results; all_goals rfl).trans (f5_v26 m ρ c)
theorem f6_arg2 : W6 m ρ c (Proc.devRef .tc main_arg2) = (m ((c : Thread nD τ).loc main_arg2)) :=
  (show StableHlo.after hostOps3 (W5 m ρ c) (Proc.devRef .tc main_arg2) = W5 m ρ c (Proc.devRef .tc main_arg2) by after_results; all_goals rfl).trans (f5_arg2 m ρ c)
theorem f6_arg7 : W6 m ρ c (Proc.devRef .tc main_arg7) = (m ((c : Thread nD τ).loc main_arg7)) :=
  (show StableHlo.after hostOps3 (W5 m ρ c) (Proc.devRef .tc main_arg7) = W5 m ρ c (Proc.devRef .tc main_arg7) by after_results; all_goals rfl).trans (f5_arg7 m ρ c)
theorem f6_arg8 : W6 m ρ c (Proc.devRef .tc main_arg8) = (m ((c : Thread nD τ).loc main_arg8)) :=
  (show StableHlo.after hostOps3 (W5 m ρ c) (Proc.devRef .tc main_arg8) = W5 m ρ c (Proc.devRef .tc main_arg8) by after_results; all_goals rfl).trans (f5_arg8 m ρ c)
theorem f6_arg9 : W6 m ρ c (Proc.devRef .tc main_arg9) = (m ((c : Thread nD τ).loc main_arg9)) :=
  (show StableHlo.after hostOps3 (W5 m ρ c) (Proc.devRef .tc main_arg9) = W5 m ρ c (Proc.devRef .tc main_arg9) by after_results; all_goals rfl).trans (f5_arg9 m ρ c)
theorem f6_arg10 : W6 m ρ c (Proc.devRef .tc main_arg10) = (m ((c : Thread nD τ).loc main_arg10)) :=
  (show StableHlo.after hostOps3 (W5 m ρ c) (Proc.devRef .tc main_arg10) = W5 m ρ c (Proc.devRef .tc main_arg10) by after_results; all_goals rfl).trans (f5_arg10 m ρ c)
theorem f6_arg11 : W6 m ρ c (Proc.devRef .tc main_arg11) = (m ((c : Thread nD τ).loc main_arg11)) :=
  (show StableHlo.after hostOps3 (W5 m ρ c) (Proc.devRef .tc main_arg11) = W5 m ρ c (Proc.devRef .tc main_arg11) by after_results; all_goals rfl).trans (f5_arg11 m ρ c)
theorem f6_arg12 : W6 m ρ c (Proc.devRef .tc main_arg12) = (m ((c : Thread nD τ).loc main_arg12)) :=
  (show StableHlo.after hostOps3 (W5 m ρ c) (Proc.devRef .tc main_arg12) = W5 m ρ c (Proc.devRef .tc main_arg12) by after_results; all_goals rfl).trans (f5_arg12 m ρ c)
theorem f7_v60 : W7 m ρ c (Proc.devRef .tc main_v60) = val_main_v93 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W7_arr m ρ c 4).trans ((Reg3.final (V6 m ρ) c).trans ?_)
  show fuseReluG (W6 m ρ c (Proc.devRef .tc main_v57)) (W6 m ρ c (Proc.devRef .tc main_v44)) (W6 m ρ c (Proc.devRef .tc main_v59)) (W6 m ρ c (Proc.devRef .tc main_v58)) = _
  rw [f6_v57 m ρ c, f6_v44 m ρ c, f6_v59 m ρ c, f6_v58 m ρ c]
  exact (Cert.ReferenceIdeal.Bridge.comb_2 _ _ _ _ _ _ _ _).symm
theorem f7_v1 : W7 m ρ c (Proc.devRef .tc main_v1) = val_main_v1 (F := Ideal) (m ((c : Thread nD τ).loc main_arg1)) := (W7_of_ne m ρ c main_v1 (by decide)).trans (f6_v1 m ρ c)
theorem f7_v3 : W7 m ρ c (Proc.devRef .tc main_v3) = val_main_v3 (F := Ideal) (m ((c : Thread nD τ).loc main_arg1)) := (W7_of_ne m ρ c main_v3 (by decide)).trans (f6_v3 m ρ c)
theorem f7_v11 : W7 m ρ c (Proc.devRef .tc main_v11) = val_main_v40 (F := Ideal) (m ((c : Thread nD τ).loc main_arg1)) := (W7_of_ne m ρ c main_v11 (by decide)).trans (f6_v11 m ρ c)
theorem f7_v26 : W7 m ρ c (Proc.devRef .tc main_v26) = val_main_v26 (F := Ideal) (m ((c : Thread nD τ).loc main_arg1)) := (W7_of_ne m ρ c main_v26 (by decide)).trans (f6_v26 m ρ c)
theorem f7_arg2 : W7 m ρ c (Proc.devRef .tc main_arg2) = (m ((c : Thread nD τ).loc main_arg2)) := (W7_of_ne m ρ c main_arg2 (by decide)).trans (f6_arg2 m ρ c)
theorem f7_arg7 : W7 m ρ c (Proc.devRef .tc main_arg7) = (m ((c : Thread nD τ).loc main_arg7)) := (W7_of_ne m ρ c main_arg7 (by decide)).trans (f6_arg7 m ρ c)
theorem f7_arg8 : W7 m ρ c (Proc.devRef .tc main_arg8) = (m ((c : Thread nD τ).loc main_arg8)) := (W7_of_ne m ρ c main_arg8 (by decide)).trans (f6_arg8 m ρ c)
theorem f7_arg9 : W7 m ρ c (Proc.devRef .tc main_arg9) = (m ((c : Thread nD τ).loc main_arg9)) := (W7_of_ne m ρ c main_arg9 (by decide)).trans (f6_arg9 m ρ c)
theorem f7_arg10 : W7 m ρ c (Proc.devRef .tc main_arg10) = (m ((c : Thread nD τ).loc main_arg10)) := (W7_of_ne m ρ c main_arg10 (by decide)).trans (f6_arg10 m ρ c)
theorem f7_arg11 : W7 m ρ c (Proc.devRef .tc main_arg11) = (m ((c : Thread nD τ).loc main_arg11)) := (W7_of_ne m ρ c main_arg11 (by decide)).trans (f6_arg11 m ρ c)
theorem f7_arg12 : W7 m ρ c (Proc.devRef .tc main_arg12) = (m ((c : Thread nD τ).loc main_arg12)) := (W7_of_ne m ρ c main_arg12 (by decide)).trans (f6_arg12 m ρ c)

/-! ## Layer 3 -/

theorem f8_v61 : W8 m ρ c (Proc.devRef .tc main_v61) = val_main_v94 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W8_arr m ρ c 2).trans ((Reg4.final (V7 m ρ) c).trans ?_)
  show mmG (W7 m ρ c (Proc.devRef .tc main_v60)) (W7 m ρ c (Proc.devRef .tc main_arg7)) = _
  rw [f7_v60 m ρ c, f7_arg7 m ρ c, Cert.ReferenceIdeal.Bridge.mm_3]
theorem f8_v1 : W8 m ρ c (Proc.devRef .tc main_v1) = val_main_v1 (F := Ideal) (m ((c : Thread nD τ).loc main_arg1)) := (W8_of_ne m ρ c main_v1 (by decide)).trans (f7_v1 m ρ c)
theorem f8_v3 : W8 m ρ c (Proc.devRef .tc main_v3) = val_main_v3 (F := Ideal) (m ((c : Thread nD τ).loc main_arg1)) := (W8_of_ne m ρ c main_v3 (by decide)).trans (f7_v3 m ρ c)
theorem f8_v11 : W8 m ρ c (Proc.devRef .tc main_v11) = val_main_v40 (F := Ideal) (m ((c : Thread nD τ).loc main_arg1)) := (W8_of_ne m ρ c main_v11 (by decide)).trans (f7_v11 m ρ c)
theorem f8_v26 : W8 m ρ c (Proc.devRef .tc main_v26) = val_main_v26 (F := Ideal) (m ((c : Thread nD τ).loc main_arg1)) := (W8_of_ne m ρ c main_v26 (by decide)).trans (f7_v26 m ρ c)
theorem f8_arg2 : W8 m ρ c (Proc.devRef .tc main_arg2) = (m ((c : Thread nD τ).loc main_arg2)) := (W8_of_ne m ρ c main_arg2 (by decide)).trans (f7_arg2 m ρ c)
theorem f8_arg8 : W8 m ρ c (Proc.devRef .tc main_arg8) = (m ((c : Thread nD τ).loc main_arg8)) := (W8_of_ne m ρ c main_arg8 (by decide)).trans (f7_arg8 m ρ c)
theorem f8_arg9 : W8 m ρ c (Proc.devRef .tc main_arg9) = (m ((c : Thread nD τ).loc main_arg9)) := (W8_of_ne m ρ c main_arg9 (by decide)).trans (f7_arg9 m ρ c)
theorem f8_arg10 : W8 m ρ c (Proc.devRef .tc main_arg10) = (m ((c : Thread nD τ).loc main_arg10)) := (W8_of_ne m ρ c main_arg10 (by decide)).trans (f7_arg10 m ρ c)
theorem f8_arg11 : W8 m ρ c (Proc.devRef .tc main_arg11) = (m ((c : Thread nD τ).loc main_arg11)) := (W8_of_ne m ρ c main_arg11 (by decide)).trans (f7_arg11 m ρ c)
theorem f8_arg12 : W8 m ρ c (Proc.devRef .tc main_arg12) = (m ((c : Thread nD τ).loc main_arg12)) := (W8_of_ne m ρ c main_arg12 (by decide)).trans (f7_arg12 m ρ c)
theorem f9_v74 : W9 m ρ c (Proc.devRef .tc main_v74) = val_main_v129 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps5 (W8 m ρ c) (Proc.devRef .tc main_v74) = _
  after_results
  rw [f8_v61 m ρ c, f8_v26 m ρ c, f8_v1 m ρ c, f8_v3 m ρ c]
  unfold val_main_v129 val_main_v127 val_main_cst_27 val_main_v128 val_main_v126 val_main_v123 val_main_v122 val_main_v121 val_main_v118 val_main_v117 val_main_c_25 val_main_v120 val_main_v119 val_main_c_26 val_main_v125 val_main_v124
  rw [Cert.ReferenceIdeal.Bridge.coef_3]
  rfl
theorem f9_v75 : W9 m ρ c (Proc.devRef .tc main_v75) = shapeCast S1x256 (m ((c : Thread nD τ).loc main_arg8)) shapeCasts_S256_S1x256 := by
  show StableHlo.after hostOps5 (W8 m ρ c) (Proc.devRef .tc main_v75) = _
  after_results
  rw [f8_arg8 m ρ c]
  all_goals rfl
theorem f9_v76 : W9 m ρ c (Proc.devRef .tc main_v76) = shapeCast S131072x1 (val_main_v40 (F := Ideal) (m ((c : Thread nD τ).loc main_arg1))) shapeCasts_S131072_S131072x1 := by
  show StableHlo.after hostOps5 (W8 m ρ c) (Proc.devRef .tc main_v76) = _
  after_results
  rw [f8_v11 m ρ c]
  all_goals rfl
theorem f9_v61 : W9 m ρ c (Proc.devRef .tc main_v61) = val_main_v94 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) :=
  (show StableHlo.after hostOps5 (W8 m ρ c) (Proc.devRef .tc main_v61) = W8 m ρ c (Proc.devRef .tc main_v61) by after_results; all_goals rfl).trans (f8_v61 m ρ c)
theorem f9_arg2 : W9 m ρ c (Proc.devRef .tc main_arg2) = (m ((c : Thread nD τ).loc main_arg2)) :=
  (show StableHlo.after hostOps5 (W8 m ρ c) (Proc.devRef .tc main_arg2) = W8 m ρ c (Proc.devRef .tc main_arg2) by after_results; all_goals rfl).trans (f8_arg2 m ρ c)
theorem f9_arg9 : W9 m ρ c (Proc.devRef .tc main_arg9) = (m ((c : Thread nD τ).loc main_arg9)) :=
  (show StableHlo.after hostOps5 (W8 m ρ c) (Proc.devRef .tc main_arg9) = W8 m ρ c (Proc.devRef .tc main_arg9) by after_results; all_goals rfl).trans (f8_arg9 m ρ c)
theorem f9_arg10 : W9 m ρ c (Proc.devRef .tc main_arg10) = (m ((c : Thread nD τ).loc main_arg10)) :=
  (show StableHlo.after hostOps5 (W8 m ρ c) (Proc.devRef .tc main_arg10) = W8 m ρ c (Proc.devRef .tc main_arg10) by after_results; all_goals rfl).trans (f8_arg10 m ρ c)
theorem f9_arg11 : W9 m ρ c (Proc.devRef .tc main_arg11) = (m ((c : Thread nD τ).loc main_arg11)) :=
  (show StableHlo.after hostOps5 (W8 m ρ c) (Proc.devRef .tc main_arg11) = W8 m ρ c (Proc.devRef .tc main_arg11) by after_results; all_goals rfl).trans (f8_arg11 m ρ c)
theorem f9_arg12 : W9 m ρ c (Proc.devRef .tc main_arg12) = (m ((c : Thread nD τ).loc main_arg12)) :=
  (show StableHlo.after hostOps5 (W8 m ρ c) (Proc.devRef .tc main_arg12) = W8 m ρ c (Proc.devRef .tc main_arg12) by after_results; all_goals rfl).trans (f8_arg12 m ρ c)
theorem f10_v77 : W10 m ρ c (Proc.devRef .tc main_v77) = val_main_v137 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W10_arr m ρ c 4).trans ((Reg5.final (V9 m ρ) c).trans ?_)
  show fuseG (W9 m ρ c (Proc.devRef .tc main_v74)) (W9 m ρ c (Proc.devRef .tc main_v61)) (W9 m ρ c (Proc.devRef .tc main_v76)) (W9 m ρ c (Proc.devRef .tc main_v75)) = _
  rw [f9_v74 m ρ c, f9_v61 m ρ c, f9_v76 m ρ c, f9_v75 m ρ c]
  exact (Cert.ReferenceIdeal.Bridge.comb_3 _ _ _ _ _ _ _ _ _ _).symm
theorem f10_arg2 : W10 m ρ c (Proc.devRef .tc main_arg2) = (m ((c : Thread nD τ).loc main_arg2)) := (W10_of_ne m ρ c main_arg2 (by decide)).trans (f9_arg2 m ρ c)
theorem f10_arg9 : W10 m ρ c (Proc.devRef .tc main_arg9) = (m ((c : Thread nD τ).loc main_arg9)) := (W10_of_ne m ρ c main_arg9 (by decide)).trans (f9_arg9 m ρ c)
theorem f10_arg10 : W10 m ρ c (Proc.devRef .tc main_arg10) = (m ((c : Thread nD τ).loc main_arg10)) := (W10_of_ne m ρ c main_arg10 (by decide)).trans (f9_arg10 m ρ c)
theorem f10_arg11 : W10 m ρ c (Proc.devRef .tc main_arg11) = (m ((c : Thread nD τ).loc main_arg11)) := (W10_of_ne m ρ c main_arg11 (by decide)).trans (f9_arg11 m ρ c)
theorem f10_arg12 : W10 m ρ c (Proc.devRef .tc main_arg12) = (m ((c : Thread nD τ).loc main_arg12)) := (W10_of_ne m ρ c main_arg12 (by decide)).trans (f9_arg12 m ρ c)

/-! ## The read-out -/

theorem f11_v80 : W11 m ρ c (Proc.devRef .tc main_v80) = val_main_v140 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps6 (W10 m ρ c) (Proc.devRef .tc main_v80) = _
  after_results
  rw [f10_v77 m ρ c, f10_arg2 m ρ c]
  unfold val_main_v140 val_main_v138 val_main_cst_28 val_main_v139
  rfl
theorem f11_v85 : W11 m ρ c (Proc.devRef .tc main_v85) = shapeCast S4096x1 (val_main_v144 (F := Ideal) (m ((c : Thread nD τ).loc main_arg2))) shapeCasts_S4096_S4096x1 := by
  show StableHlo.after hostOps6 (W10 m ρ c) (Proc.devRef .tc main_v85) = _
  after_results
  rw [f10_arg2 m ρ c]
  unfold val_main_v144 val_main_v142 val_main_cst_30 val_main_v143 val_main_v141 val_main_cst_29
  rfl
theorem f11_v86 : W11 m ρ c (Proc.devRef .tc main_v86) = shapeCast S1x128 (m ((c : Thread nD τ).loc main_arg10)) shapeCasts_S128_S1x128 := by
  show StableHlo.after hostOps6 (W10 m ρ c) (Proc.devRef .tc main_v86) = _
  after_results
  rw [f10_arg10 m ρ c]
  all_goals rfl
theorem f11_v87 : W11 m ρ c (Proc.devRef .tc main_v87) = shapeCast S1x12 (m ((c : Thread nD τ).loc main_arg12)) shapeCasts_S12_S1x12 := by
  show StableHlo.after hostOps6 (W10 m ρ c) (Proc.devRef .tc main_v87) = _
  after_results
  rw [f10_arg12 m ρ c]
  all_goals rfl
theorem f11_arg9 : W11 m ρ c (Proc.devRef .tc main_arg9) = (m ((c : Thread nD τ).loc main_arg9)) :=
  (show StableHlo.after hostOps6 (W10 m ρ c) (Proc.devRef .tc main_arg9) = W10 m ρ c (Proc.devRef .tc main_arg9) by after_results; all_goals rfl).trans (f10_arg9 m ρ c)
theorem f11_arg11 : W11 m ρ c (Proc.devRef .tc main_arg11) = (m ((c : Thread nD τ).loc main_arg11)) :=
  (show StableHlo.after hostOps6 (W10 m ρ c) (Proc.devRef .tc main_arg11) = W10 m ρ c (Proc.devRef .tc main_arg11) by after_results; all_goals rfl).trans (f10_arg11 m ρ c)
theorem f12_v88 : W12 m ρ c (Proc.devRef .tc main_v88) = val_main_v158 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W12_arr m ρ c 6).trans ((Reg6.final (V11 m ρ) c).trans ?_)
  show headG (W11 m ρ c (Proc.devRef .tc main_v80)) (W11 m ρ c (Proc.devRef .tc main_v85)) (W11 m ρ c (Proc.devRef .tc main_arg9)) (W11 m ρ c (Proc.devRef .tc main_v86)) (W11 m ρ c (Proc.devRef .tc main_arg11)) (W11 m ρ c (Proc.devRef .tc main_v87)) = _
  rw [f11_v80 m ρ c, f11_v85 m ρ c, f11_arg9 m ρ c, f11_v86 m ρ c, f11_arg11 m ρ c, f11_v87 m ρ c]
  exact (Cert.ReferenceIdeal.Bridge.readout _ _ _ _ _ _ _ _ _ _ _ _ _ _ _ _).symm

end Cert.KernelIdeal.Chain

end
-- ==== Proof.lean ====
/-
  A three-layer graph convolution network with mean pooling and a two-layer read-out: the tiled kernel program and
  the plain reference compute the same function on the extended reals.

  Both programs compute, from the edge list, the symmetric normalisation of the graph with self-loops: the in-degree
  plus one of every node, its inverse square root dinv, the self-loop weight dinv², and per edge the coefficient
  dinv(src) · dinv(dst).  A layer transforms the node features by a weight matrix (h = x · W), gathers h at the
  edges' sources, scales by the coefficient, scatter-adds into the destinations, and then combines
  (agg + h · dinv²) + b, followed by max(·, 0) in the first two layers.  The per-graph sums of the last layer's
  output are divided by max(node count, 1), and a hidden layer with relu and an output layer give the result.

  The reference does all of this on whole arrays.  The kernel program keeps the gathers and scatter-adds as the same
  host operations and runs the dense steps — the three products, the three combine steps and the read-out — as
  tiled regions over blocks of 4096 node rows (1024 graph rows for the read-out).  Every dense step computes row i of
  its result from row i of its row-indexed operands alone, so a region's result is the step applied to the whole
  arrays (LibRowTiles, Region0 … Region6), which is the reference's stage (LibRowHost, RefBridge); the host operations between
  regions are the reference's own on equal operands (Chain).  No law of arithmetic relates the two sides — they
  perform the same operations in the same order on the same numbers; a product into a zero accumulator and the host's
  product are the same sum — so the precondition (finite inputs) is never used.

  The three frames are the generated ones (the reference's from its generated run); nothing was rewritten by the
  idealization, so `preserves` is trivial.
-/
import proofs.«151674_j4475355922840_1_alg».proof.Defs
import proofs.«151674_j4475355922840_1_alg».proof.Proof.Gen.Kernel
import proofs.«151674_j4475355922840_1_alg».proof.Proof.Gen.Kernel.Skeleton
import proofs.«151674_j4475355922840_1_alg».proof.Proof.Gen.Kernel.Launch
import proofs.«151674_j4475355922840_1_alg».proof.Proof.Gen.Kernel.Points
import proofs.«151674_j4475355922840_1_alg».proof.Proof.Gen.Kernel.Frame
import proofs.«151674_j4475355922840_1_alg».proof.Proof.Gen.KernelIdeal
import proofs.«151674_j4475355922840_1_alg».proof.Proof.Gen.KernelIdeal.Skeleton
import proofs.«151674_j4475355922840_1_alg».proof.Proof.Gen.KernelIdeal.Launch
import proofs.«151674_j4475355922840_1_alg».proof.Proof.Gen.KernelIdeal.Points
import proofs.«151674_j4475355922840_1_alg».proof.Proof.Gen.KernelIdeal.Frame
import proofs.«151674_j4475355922840_1_alg».proof.Proof.Gen.ReferenceIdeal
import proofs.«151674_j4475355922840_1_alg».proof.Proof.Gen.Pre_finite_inputs
import proofs.«151674_j4475355922840_1_alg».proof.Proof.Gen.ReferenceIdeal.Run
import proofs.«151674_j4475355922840_1_alg».proof.Proof.Gen.ReferenceIdeal.Read
import proofs.«151674_j4475355922840_1_alg».proof.Proof.KRun
import proofs.«151674_j4475355922840_1_alg».proof.Proof.Chain
import Idealize.ShloMosaic.Adequacy
import Idealize.ShloMosaic.Init

noncomputable section

namespace Cert.Proof

open Idealize.ShloMosaic Idealize.ShloMosaic.TcCoe Idealize.SL.Sem

/-- The word-level kernel program terminates without a fault and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the thirteen arguments, the kernel program's result buffer ends at the fold's final
    contents, which are the reference's last stage of the arguments (Chain `f12_v88`), and the reference's result is
    that stage of its own arguments. -/
theorem algebraic : Cert.algebraic_KernelIdeal_ReferenceIdeal := by
  intro m ρ m' ρ' _ hagree
  refine ⟨fun c => Cert.KernelIdeal.Gen.W12 m ρ c (Proc.devRef .tc Cert.KernelIdeal.main_v88),
    Cert.KernelIdeal.KRun.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12⟩ := hagree c
  rw [Cert.ReferenceIdeal.Read.val_main_v158_eq, h0, h1, h2, h3, h4, h5, h6, h7, h8, h9, h10, h11, h12]
  exact (Cert.KernelIdeal.Chain.f12_v88 m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
